-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_6" .f32 0x3E2AAAAB#32 ((1 / 6 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v111)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x64 : Shape := ⟨2, ![60000, 64]⟩
abbrev S40000x64 : Shape := ⟨2, ![40000, 64]⟩
abbrev S60000x1 : Shape := ⟨2, ![60000, 1]⟩
abbrev S40000x1 : Shape := ⟨2, ![40000, 1]⟩
abbrev S1600000 : Shape := ⟨1, ![1600000]⟩
abbrev S4096 : Shape := ⟨1, ![4096]⟩
abbrev S4096x1 : Shape := ⟨2, ![4096, 1]⟩
abbrev S_ : Shape := ⟨0, ![]⟩

class Facts : Prop where
  bcast_S_S60000x64 : S_.BroadcastsInDim S60000x64 (![] : Fin 0 → Fin S60000x64.rank)
  reducesTo_S60000x64_S_d0_1 : S60000x64.ReducesTo [0, 1] S_
  h_S_ : 0 < S_.numel
  bcast_S_S40000x64 : S_.BroadcastsInDim S40000x64 (![] : Fin 0 → Fin S40000x64.rank)
  reducesTo_S40000x64_S_d0_1 : S40000x64.ReducesTo [0, 1] S_
  bcast_S_S60000x1 : S_.BroadcastsInDim S60000x1 (![] : Fin 0 → Fin S60000x1.rank)
  reducesTo_S60000x1_S_d0_1 : S60000x1.ReducesTo [0, 1] S_
  bcast_S_S40000x1 : S_.BroadcastsInDim S40000x1 (![] : Fin 0 → Fin S40000x1.rank)
  reducesTo_S40000x1_S_d0_1 : S40000x1.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1600000 .f32) (main_v13 : IVec S_ 1) (main_v16 : IVec S40000x1 1) : IVec S_ 1 :=
  let main_c_5 : IVec S_ 1 := constantI S_ 1 1#1
  let main_v17 : IVec S_ 1 := (fun x v => Host.reduce IntOp.andi x v reducesTo_S40000x1_S_d0_1 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  main_v23

def fn {F : FTy → Type} [FloatOps F] (main_arg0 : FVec F S60000x64 .f32) (main_arg1 : FVec F S40000x64 .f32) (main_arg2 : FVec F S60000x1 .f32) (main_arg3 : FVec F S40000x1 .f32) (main_arg4 : FVec F S1600000 .f32) (main_arg5 : IVec S1600000 32) (main_arg6 : IVec S1600000 32) (main_arg7 : IVec S4096 32) (main_arg8 : IVec S4096 32) (main_arg9 : IVec S4096x1 32) : IVec S_ 1 :=
  let main_v0 : FVec F S60000x64 .f32 := Host.absf main_arg0
  let main_cst : FVec F S_ .f32 := constant S_ .f32 0x7F800000#32
  let main_v1 : FVec F S60000x64 .f32 := broadcastInDim S60000x64 ![] bcast_S_S60000x64 main_cst
  let main_v2 : IVec S60000x64 1 := cmpf .olt main_v0 main_v1
  let main_c : IVec S_ 1 := constantI S_ 1 1#1
  let main_v3 : IVec S_ 1 := (fun x v => Host.reduce IntOp.andi x v reducesTo_S60000x64_S_d0_1 h_S_) main_v2 main_c
  let main_v4 : FVec F S40000x64 .f32 := Host.absf main_arg1
  let main_cst_0 : FVec F S_ .f32 := constant S_ .f32 0x7F800000#32
  let main_v5 : FVec F S40000x64 .f32 := broadcastInDim S40000x64 ![] bcast_S_S40000x64 main_cst_0
  let main_v6 : IVec S40000x64 1 := cmpf .olt main_v4 main_v5
  let main_c_1 : IVec S_ 1 := constantI S_ 1 1#1
  let main_v7 : IVec S_ 1 := (fun x v => Host.reduce IntOp.andi x v reducesTo_S40000x64_S_d0_1 h_S_) main_v6 main_c_1
  let main_v8 : IVec S_ 1 := andi main_v3 main_v7
  let main_v9 : FVec F S60000x1 .f32 := Host.absf main_arg2
  let main_cst_2 : FVec F S_ .f32 := constant S_ .f32 0x7F800000#32
  let main_v10 : FVec F S60000x1 .f32 := broadcastInDim S60000x1 ![] bcast_S_S60000x1 main_cst_2
  let main_v11 : IVec S60000x1 1 := cmpf .olt main_v9 main_v10
  let main_c_3 : IVec S_ 1 := constantI S_ 1 1#1
  let main_v12 : IVec S_ 1 := (fun x v => Host.reduce IntOp.andi x v reducesTo_S60000x1_S_d0_1 h_S_) main_v11 main_c_3
  let main_v13 : IVec S_ 1 := andi main_v8 main_v12
  let main_v14 : FVec F S40000x1 .f32 := Host.absf main_arg3
  let main_cst_4 : FVec F S_ .f32 := constant S_ .f32 0x7F800000#32
  let main_v15 : FVec F S40000x1 .f32 := broadcastInDim S40000x1 ![] bcast_S_S40000x1 main_cst_4
  let main_v16 : IVec S40000x1 1 := cmpf .olt main_v14 main_v15
  fn_part1 (F := F) main_arg4 main_v13 main_v16
-- ==== Kernel.lean ====
abbrev S60000x64 : Shape := ⟨2, ![60000, 64]⟩
abbrev S40000x64 : Shape := ⟨2, ![40000, 64]⟩
abbrev S60000x1 : Shape := ⟨2, ![60000, 1]⟩
abbrev S40000x1 : Shape := ⟨2, ![40000, 1]⟩
abbrev S1600000 : Shape := ⟨1, ![1600000]⟩
abbrev S4096 : Shape := ⟨1, ![4096]⟩
abbrev S4096x1 : Shape := ⟨2, ![4096, 1]⟩
abbrev S100000x64 : Shape := ⟨2, ![100000, 64]⟩
abbrev S100000x1 : Shape := ⟨2, ![100000, 1]⟩
abbrev S1600000x1 : Shape := ⟨2, ![1600000, 1]⟩
abbrev S_ : Shape := ⟨0, ![]⟩
abbrev S1600000x64 : Shape := ⟨2, ![1600000, 64]⟩
abbrev S2000x64 : Shape := ⟨2, ![2000, 64]⟩
abbrev S2000x1 : Shape := ⟨2, ![2000, 1]⟩
abbrev S4096x64 : Shape := ⟨2, ![4096, 64]⟩
abbrev S4096x1x1 : Shape := ⟨3, ![4096, 1, 1]⟩
abbrev S4096x1x64 : Shape := ⟨3, ![4096, 1, 64]⟩

abbrev nBuf : Space → Nat
  | .hbm => 155
  | .vmem => 14
  | .smem => 0
  | _ => 0

abbrev hbmTy0_0 (i : Nat) : BufTy := match i % 128 with
  | 0 => ⟨S60000x64, .f32⟩
  | 1 => ⟨S40000x64, .f32⟩
  | 2 => ⟨S60000x1, .f32⟩
  | 3 => ⟨S40000x1, .f32⟩
  | 4 => ⟨S1600000, .f32⟩
  | 5 => ⟨S1600000, .i32⟩
  | 6 => ⟨S1600000, .i32⟩
  | 7 => ⟨S4096, .i32⟩
  | 8 => ⟨S4096, .i32⟩
  | 9 => ⟨S4096x1, .i32⟩
  | 10 => ⟨S100000x64, .f32⟩
  | 11 => ⟨S100000x1, .f32⟩
  | 12 => ⟨S1600000x1, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S1600000x1, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S1600000x64, .f32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000x64, .f32⟩
  | 61 => ⟨S100000x64, .f32⟩
  | 62 => ⟨S60000x64, .f32⟩
  | 63 => ⟨S40000x64, .f32⟩
  | 64 => ⟨S60000x64, .f32⟩
  | 65 => ⟨S40000x64, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096x64, .f32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S4096x64, .f32⟩
  | 84 => ⟨S_, .i32⟩
  | 85 => ⟨S4096x1, .i32⟩
  | 86 => ⟨S4096x1, .i1⟩
  | 87 => ⟨S_, .i32⟩
  | 88 => ⟨S4096x1, .i32⟩
  | 89 => ⟨S4096x1, .i32⟩
  | 90 => ⟨S4096x1, .i32⟩
  | 91 => ⟨S4096x1x1, .i32⟩
  | 92 => ⟨S4096x1x64, .f32⟩
  | 93 => ⟨S4096x64, .f32⟩
  | 94 => ⟨S_, .f32⟩
  | 95 => ⟨S4096, .f32⟩
  | 96 => ⟨S4096x1x64, .f32⟩
  | 97 => ⟨S4096x1x64, .f32⟩
  | 98 => ⟨S_, .f32⟩
  | 99 => ⟨S4096x1, .f32⟩
  | 100 => ⟨S4096x1, .f32⟩
  | 101 => ⟨S4096x1, .f32⟩
  | 102 => ⟨S4096x1, .f32⟩
  | 103 => ⟨S_, .f32⟩
  | 104 => ⟨S4096, .f32⟩
  | 105 => ⟨S4096, .f32⟩
  | 106 => ⟨S_, .f32⟩
  | 107 => ⟨S_, .f32⟩
  | 108 => ⟨S_, .f32⟩
  | 109 => ⟨S_, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096x64, .f32⟩
  | 119 => ⟨S4096x64, .f32⟩
  | 120 => ⟨S_, .f32⟩
  | 121 => ⟨S_, .f32⟩
  | 122 => ⟨S_, .i32⟩
  | 123 => ⟨S4096, .i32⟩
  | 124 => ⟨S4096, .i1⟩
  | 125 => ⟨S_, .i32⟩
  | 126 => ⟨S4096, .i32⟩
  | 127 => ⟨S4096, .i32⟩
  | _ => ⟨S60000x64, .f32⟩

abbrev hbmTy0_1 (i : Nat) : BufTy := match i % 128 with
  | 0 => ⟨S4096, .i32⟩
  | 1 => ⟨S4096x1, .i32⟩
  | 2 => ⟨S4096x64, .f32⟩
  | 3 => ⟨S4096x64, .f32⟩
  | 4 => ⟨S_, .f32⟩
  | 5 => ⟨S_, .f32⟩
  | 6 => ⟨S_, .f32⟩
  | 7 => ⟨S_, .i32⟩
  | 8 => ⟨S4096x1, .i32⟩
  | 9 => ⟨S4096x1, .i1⟩
  | 10 => ⟨S_, .i32⟩
  | 11 => ⟨S4096x1, .i32⟩
  | 12 => ⟨S4096x1, .i32⟩
  | 13 => ⟨S4096x1, .i32⟩
  | 14 => ⟨S4096x1x1, .i32⟩
  | 15 => ⟨S4096x1x64, .f32⟩
  | 16 => ⟨S4096x1x64, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S60000x64, .f32⟩

abbrev hbmTy (i : Nat) : BufTy := match i / 128 with
  | 0 => hbmTy0_0 i
  | 1 => hbmTy0_1 i
  | _ => ⟨S60000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | _, _ => ⟨S60000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_11 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_cst_17 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_c_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_20 : Ref sig .tc := ⟨.hbm, 120, rfl⟩
abbrev main_v87 : Ref sig .tc := ⟨.hbm, 121, rfl⟩
abbrev main_c_21 : Ref sig .tc := ⟨.hbm, 122, rfl⟩
abbrev main_v88 : Ref sig .tc := ⟨.hbm, 123, rfl⟩
abbrev main_v89 : Ref sig .tc := ⟨.hbm, 124, rfl⟩
abbrev main_c_22 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_23 : Ref sig .tc := ⟨.hbm, 132, rfl⟩
abbrev main_v96 : Ref sig .tc := ⟨.hbm, 133, rfl⟩
abbrev main_v97 : Ref sig .tc := ⟨.hbm, 134, rfl⟩
abbrev main_c_24 : Ref sig .tc := ⟨.hbm, 135, rfl⟩
abbrev main_v98 : Ref sig .tc := ⟨.hbm, 136, rfl⟩
abbrev main_v99 : Ref sig .tc := ⟨.hbm, 137, rfl⟩
abbrev main_c_25 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_26 : Ref sig .tc := ⟨.hbm, 145, rfl⟩
abbrev main_v106 : Ref sig .tc := ⟨.hbm, 146, rfl⟩
abbrev main_v107 : Ref sig .tc := ⟨.hbm, 147, rfl⟩
abbrev main_cst_27 : Ref sig .tc := ⟨.hbm, 148, rfl⟩
abbrev main_v108 : Ref sig .tc := ⟨.hbm, 149, rfl⟩
abbrev main_cst_28 : Ref sig .tc := ⟨.hbm, 150, rfl⟩
abbrev main_v109 : Ref sig .tc := ⟨.hbm, 151, rfl⟩
abbrev main_cst_29 : Ref sig .tc := ⟨.hbm, 152, rfl⟩
abbrev main_v110 : Ref sig .tc := ⟨.hbm, 153, rfl⟩
abbrev main_v111 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S60000x64_S40000x64_S100000x64_d0 : Shape.Concatenates [S60000x64, S40000x64] S100000x64 0
  concatenates_S60000x1_S40000x1_S100000x1_d0 : Shape.Concatenates [S60000x1, S40000x1] S100000x1 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  slices_S100000x64_S60000x64_0_0 : S100000x64.Slices ![0, 0] S60000x64
  slices_S100000x64_S40000x64_60000_0 : S100000x64.Slices ![60000, 0] S40000x64
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  reducesTo_S4096x64_S4096_d1 : S4096x64.ReducesTo [1] S4096
  h_S_ : 0 < S_.numel
  bcast_S4096x64_S4096x1x64_0_2 : S4096x64.BroadcastsInDim S4096x1x64 (![0, 2] : Fin 2 → Fin S4096x1x64.rank)
  reducesTo_S4096x1x64_S4096x1_d2 : S4096x1x64.ReducesTo [2] S4096x1
  reducesTo_S4096x1_S4096_d1 : S4096x1.ReducesTo [1] S4096
  reducesTo_S4096_S_d0 : S4096.ReducesTo [0] S_
  reducesTo_S4096x64_S_d0_1 : S4096x64.ReducesTo [0, 1] S_
  reducesTo_S4096x1x64_S_d0_1_2 : S4096x1x64.ReducesTo [0, 1, 2] S_
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S60000x64_S4096x1_S4096x64_1_0_n_n_0_1_164_wf : GatherDims.WF S60000x64 S4096x1 S4096x64 [1] [0] [] [0] [] 1 ![1, 64]
  gather_S40000x64_S4096x1_S4096x64_1_0_n_n_0_1_164_wf : GatherDims.WF S40000x64 S4096x1 S4096x64 [1] [0] [] [0] [] 1 ![1, 64]
  gather_S40000x64_S4096x1x1_S4096x1x64_2_0_n_n_0_2_164_wf : GatherDims.WF S40000x64 S4096x1x1 S4096x1x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S60000x64_S4096x1_S4096x64_1_0_n_n_0_1_164 : GatherDims S60000x64 S4096x1 S4096x64 where
  offsetDims := [1]
  collapsedSliceDims := [0]
  operandBatchingDims := []
  startIndicesBatchingDims := []
  startIndexMap := [0]
  indexVectorDim := 1
  sliceSizes := ![1, 64]
  wf := gather_S60000x64_S4096x1_S4096x64_1_0_n_n_0_1_164_wf
def gather_S40000x64_S4096x1_S4096x64_1_0_n_n_0_1_164 : GatherDims S40000x64 S4096x1 S4096x64 where
  offsetDims := [1]
  collapsedSliceDims := [0]
  operandBatchingDims := []
  startIndicesBatchingDims := []
  startIndexMap := [0]
  indexVectorDim := 1
  sliceSizes := ![1, 64]
  wf := gather_S40000x64_S4096x1_S4096x64_1_0_n_n_0_1_164_wf
def gather_S40000x64_S4096x1x1_S4096x1x64_2_0_n_n_0_2_164 : GatherDims S40000x64 S4096x1x1 S4096x1x64 where
  offsetDims := [2]
  collapsedSliceDims := [0]
  operandBatchingDims := []
  startIndicesBatchingDims := []
  startIndexMap := [0]
  indexVectorDim := 2
  sliceSizes := ![1, 64]
  wf := gather_S40000x64_S4096x1x1_S4096x1x64_2_0_n_n_0_2_164_wf

abbrev win0_0 : Pipeline.Window sig grid0 :=
  Pipeline.Window.ofSpec (Memref.whole main_v0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v41_0) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v41_1) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S60000x64 : Shape := ⟨2, ![60000, 64]⟩
abbrev S40000x64 : Shape := ⟨2, ![40000, 64]⟩
abbrev S60000x1 : Shape := ⟨2, ![60000, 1]⟩
abbrev S40000x1 : Shape := ⟨2, ![40000, 1]⟩
abbrev S1600000 : Shape := ⟨1, ![1600000]⟩
abbrev S4096 : Shape := ⟨1, ![4096]⟩
abbrev S4096x1 : Shape := ⟨2, ![4096, 1]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1x64 : Shape := ⟨3, ![100000, 1, 64]⟩
abbrev S100000x4x64 : Shape := ⟨3, ![100000, 4, 64]⟩
abbrev S60000x4x64 : Shape := ⟨3, ![60000, 4, 64]⟩
abbrev S40000x4x64 : Shape := ⟨3, ![40000, 4, 64]⟩
abbrev S4096x4x64 : Shape := ⟨3, ![4096, 4, 64]⟩
abbrev S4096x1x1 : Shape := ⟨3, ![4096, 1, 1]⟩
abbrev S4096x1x4x64 : Shape := ⟨4, ![4096, 1, 4, 64]⟩
abbrev S4096x64 : Shape := ⟨2, ![4096, 64]⟩
abbrev S4096x1x64 : Shape := ⟨3, ![4096, 1, 64]⟩
abbrev S4096x1x1x64 : Shape := ⟨4, ![4096, 1, 1, 64]⟩

abbrev nBuf : Space → Nat
  | .hbm => 233
  | .vmem => 0
  | .smem => 0
  | _ => 0

abbrev hbmTy0_0 (i : Nat) : BufTy := match i % 128 with
  | 0 => ⟨S60000x64, .f32⟩
  | 1 => ⟨S40000x64, .f32⟩
  | 2 => ⟨S60000x1, .f32⟩
  | 3 => ⟨S40000x1, .f32⟩
  | 4 => ⟨S1600000, .f32⟩
  | 5 => ⟨S1600000, .i32⟩
  | 6 => ⟨S1600000, .i32⟩
  | 7 => ⟨S4096, .i32⟩
  | 8 => ⟨S4096, .i32⟩
  | 9 => ⟨S4096x1, .i32⟩
  | 10 => ⟨S100000x64, .f32⟩
  | 11 => ⟨S60000x1, .f32⟩
  | 12 => ⟨S60000x1, .f32⟩
  | 13 => ⟨S_, .f32⟩
  | 14 => ⟨S60000x1, .f32⟩
  | 15 => ⟨S60000x1, .f32⟩
  | 16 => ⟨S_, .f32⟩
  | 17 => ⟨S60000x1, .f32⟩
  | 18 => ⟨S60000x1, .f32⟩
  | 19 => ⟨S60000x64, .f32⟩
  | 20 => ⟨S60000x64, .f32⟩
  | 21 => ⟨S40000x1, .f32⟩
  | 22 => ⟨S40000x1, .f32⟩
  | 23 => ⟨S_, .f32⟩
  | 24 => ⟨S40000x1, .f32⟩
  | 25 => ⟨S40000x1, .f32⟩
  | 26 => ⟨S_, .f32⟩
  | 27 => ⟨S40000x1, .f32⟩
  | 28 => ⟨S40000x1, .f32⟩
  | 29 => ⟨S40000x64, .f32⟩
  | 30 => ⟨S40000x64, .f32⟩
  | 31 => ⟨S100000x64, .f32⟩
  | 32 => ⟨S1600000x1, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S1600000x64, .f32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S60000x64, .f32⟩
  | 49 => ⟨S40000x64, .f32⟩
  | 50 => ⟨S60000x1, .f32⟩
  | 51 => ⟨S60000x1, .f32⟩
  | 52 => ⟨S60000x1, .f32⟩
  | 53 => ⟨S_, .f32⟩
  | 54 => ⟨S60000x1, .f32⟩
  | 55 => ⟨S60000x1, .f32⟩
  | 56 => ⟨S60000x64, .f32⟩
  | 57 => ⟨S60000x64, .f32⟩
  | 58 => ⟨S40000x1, .f32⟩
  | 59 => ⟨S40000x1, .f32⟩
  | 60 => ⟨S40000x1, .f32⟩
  | 61 => ⟨S_, .f32⟩
  | 62 => ⟨S40000x1, .f32⟩
  | 63 => ⟨S40000x1, .f32⟩
  | 64 => ⟨S40000x64, .f32⟩
  | 65 => ⟨S40000x64, .f32⟩
  | 66 => ⟨S100000x64, .f32⟩
  | 67 => ⟨S1600000x1, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S60000x64, .f32⟩
  | 84 => ⟨S40000x64, .f32⟩
  | 85 => ⟨S60000x1, .f32⟩
  | 86 => ⟨S60000x1, .f32⟩
  | 87 => ⟨S60000x1, .f32⟩
  | 88 => ⟨S60000x1, .f32⟩
  | 89 => ⟨S_, .f32⟩
  | 90 => ⟨S60000x1, .f32⟩
  | 91 => ⟨S60000x1, .f32⟩
  | 92 => ⟨S60000x64, .f32⟩
  | 93 => ⟨S60000x64, .f32⟩
  | 94 => ⟨S40000x1, .f32⟩
  | 95 => ⟨S40000x1, .f32⟩
  | 96 => ⟨S40000x1, .f32⟩
  | 97 => ⟨S40000x1, .f32⟩
  | 98 => ⟨S_, .f32⟩
  | 99 => ⟨S40000x1, .f32⟩
  | 100 => ⟨S40000x1, .f32⟩
  | 101 => ⟨S40000x64, .f32⟩
  | 102 => ⟨S40000x64, .f32⟩
  | 103 => ⟨S100000x64, .f32⟩
  | 104 => ⟨S1600000x1, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S1600000x64, .f32⟩
  | 115 => ⟨S1600000x64, .f32⟩
  | 116 => ⟨S_, .f32⟩
  | 117 => ⟨S100000x64, .f32⟩
  | 118 => ⟨S1600000x1, .i32⟩
  | 119 => ⟨S100000x64, .f32⟩
  | 120 => ⟨S60000x64, .f32⟩
  | 121 => ⟨S40000x64, .f32⟩
  | 122 => ⟨S60000x1, .f32⟩
  | 123 => ⟨S60000x1, .f32⟩
  | 124 => ⟨S60000x1, .f32⟩
  | 125 => ⟨S60000x1, .f32⟩
  | 126 => ⟨S60000x1, .f32⟩
  | 127 => ⟨S_, .f32⟩
  | _ => ⟨S60000x64, .f32⟩

abbrev hbmTy0_1 (i : Nat) : BufTy := match i % 128 with
  | 0 => ⟨S60000x1, .f32⟩
  | 1 => ⟨S60000x1, .f32⟩
  | 2 => ⟨S60000x64, .f32⟩
  | 3 => ⟨S60000x64, .f32⟩
  | 4 => ⟨S40000x1, .f32⟩
  | 5 => ⟨S40000x1, .f32⟩
  | 6 => ⟨S40000x1, .f32⟩
  | 7 => ⟨S40000x1, .f32⟩
  | 8 => ⟨S40000x1, .f32⟩
  | 9 => ⟨S_, .f32⟩
  | 10 => ⟨S40000x1, .f32⟩
  | 11 => ⟨S40000x1, .f32⟩
  | 12 => ⟨S40000x64, .f32⟩
  | 13 => ⟨S40000x64, .f32⟩
  | 14 => ⟨S100000x64, .f32⟩
  | 15 => ⟨S100000x1x64, .f32⟩
  | 16 => ⟨S100000x1x64, .f32⟩
  | 17 => ⟨S100000x1x64, .f32⟩
  | 18 => ⟨S100000x1x64, .f32⟩
  | 19 => ⟨S100000x4x64, .f32⟩
  | 20 => ⟨S60000x4x64, .f32⟩
  | 21 => ⟨S40000x4x64, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x4x64, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S4096x4x64, .f32⟩
  | 40 => ⟨S_, .i32⟩
  | 41 => ⟨S4096x1, .i32⟩
  | 42 => ⟨S4096x1, .i1⟩
  | 43 => ⟨S_, .i32⟩
  | 44 => ⟨S4096x1, .i32⟩
  | 45 => ⟨S4096x1, .i32⟩
  | 46 => ⟨S4096x1, .i32⟩
  | 47 => ⟨S4096x1x1, .i32⟩
  | 48 => ⟨S4096x1x4x64, .f32⟩
  | 49 => ⟨S_, .f32⟩
  | 50 => ⟨S4096x64, .f32⟩
  | 51 => ⟨S_, .f32⟩
  | 52 => ⟨S4096x64, .f32⟩
  | 53 => ⟨S4096x64, .f32⟩
  | 54 => ⟨S_, .f32⟩
  | 55 => ⟨S4096x64, .f32⟩
  | 56 => ⟨S_, .f32⟩
  | 57 => ⟨S4096x64, .f32⟩
  | 58 => ⟨S4096x64, .f32⟩
  | 59 => ⟨S_, .f32⟩
  | 60 => ⟨S4096x1x64, .f32⟩
  | 61 => ⟨S_, .f32⟩
  | 62 => ⟨S4096x1x64, .f32⟩
  | 63 => ⟨S4096x1x64, .f32⟩
  | 64 => ⟨S4096x64, .f32⟩
  | 65 => ⟨S_, .f32⟩
  | 66 => ⟨S4096, .f32⟩
  | 67 => ⟨S4096x1x64, .f32⟩
  | 68 => ⟨S4096x1x64, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096, .f32⟩
  | 76 => ⟨S4096, .f32⟩
  | 77 => ⟨S_, .f32⟩
  | 78 => ⟨S_, .f32⟩
  | 79 => ⟨S_, .f32⟩
  | 80 => ⟨S_, .f32⟩
  | 81 => ⟨S4096x1x64, .f32⟩
  | 82 => ⟨S4096x64, .f32⟩
  | 83 => ⟨S4096x64, .f32⟩
  | 84 => ⟨S_, .f32⟩
  | 85 => ⟨S_, .f32⟩
  | 86 => ⟨S4096x1x64, .f32⟩
  | 87 => ⟨S4096x64, .f32⟩
  | 88 => ⟨S4096x64, .f32⟩
  | 89 => ⟨S_, .f32⟩
  | 90 => ⟨S_, .f32⟩
  | 91 => ⟨S_, .f32⟩
  | 92 => ⟨S4096x1x1x64, .f32⟩
  | 93 => ⟨S4096x1x64, .f32⟩
  | 94 => ⟨S4096x1x64, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | _ => ⟨S60000x64, .f32⟩

abbrev hbmTy (i : Nat) : BufTy := match i / 128 with
  | 0 => hbmTy0_0 i
  | 1 => hbmTy0_1 i
  | _ => ⟨S60000x64, .f32⟩

abbrev bufTy : (tb : Table) → Fin (tcTables nBuf tb) → BufTy
  | .hbm, ⟨i, _⟩ => hbmTy i
  | _, _ => ⟨S60000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_c_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_10 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_12 : Ref sig .tc := ⟨.hbm, 105, rfl⟩
abbrev main_v81 : Ref sig .tc := ⟨.hbm, 106, rfl⟩
abbrev main_v82 : Ref sig .tc := ⟨.hbm, 107, rfl⟩
abbrev main_c_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_15 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_16 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_c_17 : Ref sig .tc := ⟨.hbm, 150, rfl⟩
abbrev main_v121 : Ref sig .tc := ⟨.hbm, 151, rfl⟩
abbrev main_v122 : Ref sig .tc := ⟨.hbm, 152, rfl⟩
abbrev main_c_18 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_c_19 : Ref sig .tc := ⟨.hbm, 159, rfl⟩
abbrev main_v128 : Ref sig .tc := ⟨.hbm, 160, rfl⟩
abbrev main_v129 : Ref sig .tc := ⟨.hbm, 161, rfl⟩
abbrev main_c_20 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_c_21 : Ref sig .tc := ⟨.hbm, 168, rfl⟩
abbrev main_v135 : Ref sig .tc := ⟨.hbm, 169, rfl⟩
abbrev main_v136 : Ref sig .tc := ⟨.hbm, 170, rfl⟩
abbrev main_c_22 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_cst_23 : Ref sig .tc := ⟨.hbm, 177, rfl⟩
abbrev main_v142 : Ref sig .tc := ⟨.hbm, 178, rfl⟩
abbrev main_cst_24 : Ref sig .tc := ⟨.hbm, 179, rfl⟩
abbrev main_v143 : Ref sig .tc := ⟨.hbm, 180, rfl⟩
abbrev main_v144 : Ref sig .tc := ⟨.hbm, 181, rfl⟩
abbrev main_cst_25 : Ref sig .tc := ⟨.hbm, 182, rfl⟩
abbrev main_v145 : Ref sig .tc := ⟨.hbm, 183, rfl⟩
abbrev main_cst_26 : Ref sig .tc := ⟨.hbm, 184, rfl⟩
abbrev main_v146 : Ref sig .tc := ⟨.hbm, 185, rfl⟩
abbrev main_v147 : Ref sig .tc := ⟨.hbm, 186, rfl⟩
abbrev main_cst_27 : Ref sig .tc := ⟨.hbm, 187, rfl⟩
abbrev main_v148 : Ref sig .tc := ⟨.hbm, 188, rfl⟩
abbrev main_cst_28 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_29 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_cst_30 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_31 : Ref sig .tc := ⟨.hbm, 202, rfl⟩
abbrev main_v159 : Ref sig .tc := ⟨.hbm, 203, rfl⟩
abbrev main_v160 : Ref sig .tc := ⟨.hbm, 204, rfl⟩
abbrev main_cst_32 : Ref sig .tc := ⟨.hbm, 205, rfl⟩
abbrev main_v161 : Ref sig .tc := ⟨.hbm, 206, rfl⟩
abbrev main_cst_33 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_34 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_35 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_36 : Ref sig .tc := ⟨.hbm, 223, rfl⟩
abbrev main_v175 : Ref sig .tc := ⟨.hbm, 224, rfl⟩
abbrev main_v176 : Ref sig .tc := ⟨.hbm, 225, rfl⟩
abbrev main_cst_37 : Ref sig .tc := ⟨.hbm, 226, rfl⟩
abbrev main_v177 : Ref sig .tc := ⟨.hbm, 227, rfl⟩
abbrev main_cst_38 : Ref sig .tc := ⟨.hbm, 228, rfl⟩
abbrev main_v178 : Ref sig .tc := ⟨.hbm, 229, rfl⟩
abbrev main_cst_39 : Ref sig .tc := ⟨.hbm, 230, rfl⟩
abbrev main_v179 : Ref sig .tc := ⟨.hbm, 231, rfl⟩
abbrev main_v180 : Ref sig .tc := ⟨.hbm, 232, rfl⟩

abbrev nD : Nat := 1
abbrev τ : Topo := Topo.v7x

variable {F : FTy → Type} [FloatOps F]

class Facts₀ : Prop where
  concatenates_S60000x64_S40000x64_S100000x64_d0 : Shape.Concatenates [S60000x64, S40000x64] S100000x64 0
  bcast_S_S60000x1 : S_.BroadcastsInDim S60000x1 (![] : Fin 0 → Fin S60000x1.rank)
  bcast_S60000x1_S60000x64_0_1 : S60000x1.BroadcastsInDim S60000x64 (![0, 1] : Fin 2 → Fin S60000x64.rank)
  bcast_S_S40000x1 : S_.BroadcastsInDim S40000x1 (![] : Fin 0 → Fin S40000x1.rank)
  bcast_S40000x1_S40000x64_0_1 : S40000x1.BroadcastsInDim S40000x64 (![0, 1] : Fin 2 → Fin S40000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S100000x64_S60000x64_0_0 : S100000x64.Slices ![0, 0] S60000x64
  slices_S100000x64_S40000x64_60000_0 : S100000x64.Slices ![60000, 0] S40000x64
  bcast_S100000x64_S100000x1x64_0_2 : S100000x64.BroadcastsInDim S100000x1x64 (![0, 2] : Fin 2 → Fin S100000x1x64.rank)
  concatenates_S100000x1x64_S100000x1x64_S100000x1x64_S100000x1x64_S100000x4x64_d1 : Shape.Concatenates [S100000x1x64, S100000x1x64, S100000x1x64, S100000x1x64] S100000x4x64 1
  slices_S100000x4x64_S60000x4x64_0_0_0 : S100000x4x64.Slices ![0, 0, 0] S60000x4x64
  slices_S100000x4x64_S40000x4x64_60000_0_0 : S100000x4x64.Slices ![60000, 0, 0] S40000x4x64
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  reducesTo_S4096x4x64_S4096x64_d1 : S4096x4x64.ReducesTo [1] S4096x64
  h_S_ : 0 < S_.numel
  bcast_S_S4096x64 : S_.BroadcastsInDim S4096x64 (![] : Fin 0 → Fin S4096x64.rank)
  reducesTo_S4096x1x4x64_S4096x1x64_d2 : S4096x1x4x64.ReducesTo [2] S4096x1x64
  bcast_S_S4096x1x64 : S_.BroadcastsInDim S4096x1x64 (![] : Fin 0 → Fin S4096x1x64.rank)
  reducesTo_S4096x64_S4096_d1 : S4096x64.ReducesTo [1] S4096
  bcast_S4096x64_S4096x1x64_0_2 : S4096x64.BroadcastsInDim S4096x1x64 (![0, 2] : Fin 2 → Fin S4096x1x64.rank)
  reducesTo_S4096x1x64_S4096x1_d2 : S4096x1x64.ReducesTo [2] S4096x1
  reducesTo_S4096x1_S4096_d1 : S4096x1.ReducesTo [1] S4096
  reducesTo_S4096_S_d0 : S4096.ReducesTo [0] S_
  slices_S4096x4x64_S4096x1x64_0_0_0 : S4096x4x64.Slices ![0, 0, 0] S4096x1x64
  shapeCasts_S4096x1x64_S4096x64 : S4096x1x64.ShapeCasts S4096x64
  reducesTo_S4096x64_S_d0_1 : S4096x64.ReducesTo [0, 1] S_
  slices_S4096x1x4x64_S4096x1x1x64_0_0_0_0 : S4096x1x4x64.Slices ![0, 0, 0, 0] S4096x1x1x64
  shapeCasts_S4096x1x1x64_S4096x1x64 : S4096x1x1x64.ShapeCasts S4096x1x64
  reducesTo_S4096x1x64_S_d0_1_2 : S4096x1x64.ReducesTo [0, 1, 2] S_
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S60000x4x64_S4096x1_S4096x4x64_12_0_n_n_0_1_1464_wf : GatherDims.WF S60000x4x64 S4096x1 S4096x4x64 [1, 2] [0] [] [0] [] 1 ![1, 4, 64]
  gather_S40000x4x64_S4096x1_S4096x4x64_12_0_n_n_0_1_1464_wf : GatherDims.WF S40000x4x64 S4096x1 S4096x4x64 [1, 2] [0] [] [0] [] 1 ![1, 4, 64]
  gather_S40000x4x64_S4096x1x1_S4096x1x4x64_23_0_n_n_0_2_1464_wf : GatherDims.WF S40000x4x64 S4096x1x1 S4096x1x4x64 [2, 3] [0] [] [0] [] 2 ![1, 4, 64]

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S60000x4x64_S4096x1_S4096x4x64_12_0_n_n_0_1_1464 : GatherDims S60000x4x64 S4096x1 S4096x4x64 where
  offsetDims := [1, 2]
  collapsedSliceDims := [0]
  operandBatchingDims := []
  startIndicesBatchingDims := []
  startIndexMap := [0]
  indexVectorDim := 1
  sliceSizes := ![1, 4, 64]
  wf := gather_S60000x4x64_S4096x1_S4096x4x64_12_0_n_n_0_1_1464_wf
def gather_S40000x4x64_S4096x1_S4096x4x64_12_0_n_n_0_1_1464 : GatherDims S40000x4x64 S4096x1 S4096x4x64 where
  offsetDims := [1, 2]
  collapsedSliceDims := [0]
  operandBatchingDims := []
  startIndicesBatchingDims := []
  startIndexMap := [0]
  indexVectorDim := 1
  sliceSizes := ![1, 4, 64]
  wf := gather_S40000x4x64_S4096x1_S4096x4x64_12_0_n_n_0_1_1464_wf
def gather_S40000x4x64_S4096x1x1_S4096x1x4x64_23_0_n_n_0_2_1464 : GatherDims S40000x4x64 S4096x1x1 S4096x1x4x64 where
  offsetDims := [2, 3]
  collapsedSliceDims := [0]
  operandBatchingDims := []
  startIndicesBatchingDims := []
  startIndexMap := [0]
  indexVectorDim := 2
  sliceSizes := ![1, 4, 64]
  wf := gather_S40000x4x64_S4096x1x1_S4096x1x4x64_23_0_n_n_0_2_1464_wf

class Facts : Prop extends Facts₀ where

variable [Facts]
-- ==== Proof.KFrame.lean ====
/-
  The frame of the heat-weighting program: it runs to the end, faults nowhere, and leaves its ten argument arrays as
  they were launched.

  The program is fifty host operations (two concatenations and three gather / scale / scatter-add hops), one
  row-blocked region over 50 grid points, and ninety-three host operations on the region's two results. At point t
  the region's body reads block t (2000 rows) of the four hop aggregates and of the node times, and writes block t of
  the pooled mean and of the weighted hop 0: each output block is the body's arithmetic on the input blocks at the
  same point, whatever the output buffer held before. No host operation writes an argument array or, after the
  region, one of the region's seven arrays, so the arguments end as launched.
-/
import proofs.«160151_j45664092291172_1_alg».proof.Proof.Gen.Kernel.Launch
import proofs.«160151_j45664092291172_1_alg».proof.Proof.Gen.Kernel.Skeleton
import proofs.«160151_j45664092291172_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core c's buffer contents when the region is entered: the launch memory after the fifty operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The buffers the operations before the region write: each its own result. -/
abbrev hostOps0_W : List (Ref sig .tc) := [main_v0, main_v1, main_v2, main_c, main_v3, main_v4, main_c_0, main_v5, main_v6, main_v7, main_v8, main_v9, main_v10, main_v11, main_cst, main_v12, main_v13, main_v14, main_v15, main_c_1, main_v16, main_v17, main_c_2, main_v18, main_v19, main_v20, main_v21, main_v22, main_v23, main_v24, main_cst_3, main_v25, main_v26, main_v27, main_v28, main_c_4, main_v29, main_v30, main_c_5, main_v31, main_v32, main_v33, main_v34, main_v35, main_v36, main_v37, main_cst_6, main_v38, main_v39, main_v40]
/-- The buffers the operations after the region write: each its own result. -/
abbrev hostOps1_W : List (Ref sig .tc) := [main_v42, main_v43, main_v44, main_v45, main_c_7, main_v46, main_v47, main_c_8, main_v48, main_v49, main_v50, main_v51, main_v52, main_c_9, main_v53, main_v54, main_c_10, main_v55, main_v56, main_v57, main_v58, main_v59, main_c_11, main_v60, main_v61, main_c_12, main_v62, main_v63, main_v64, main_v65, main_v66, main_v67, main_cst_13, main_v68, main_v69, main_v70, main_cst_14, main_v71, main_v72, main_v73, main_v74, main_cst_15, main_v75, main_v76, main_cst_16, main_v77, main_cst_17, main_v78, main_c_18, main_v79, main_v80, main_c_19, main_v81, main_v82, main_v83, main_v84, main_v85, main_v86, main_cst_20, main_v87, main_c_21, main_v88, main_v89, main_c_22, main_v90, main_v91, main_v92, main_v93, main_v94, main_v95, main_cst_23, main_v96, main_v97, main_c_24, main_v98, main_v99, main_c_25, main_v100, main_v101, main_v102, main_v103, main_v104, main_v105, main_cst_26, main_v106, main_v107, main_cst_27, main_v108, main_cst_28, main_v109, main_cst_29, main_v110, main_v111]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))

/-- A buffer the operations before the region do not write is found by the region as launched. -/
theorem V_keep (c : Dev nD) (r : Ref sig .tc) (h : r ∉ hostOps0_W) : V m c r = m ((c : Thread nD τ).loc r) := by
  show StableHlo.after (List.flatten [hostOps0]) (fun b => m (c, b)) (Proc.devRef .tc r) = _
  simp only [List.flatten_cons, List.flatten_nil, List.append_nil]
  exact StableHlo.after_of_writes_sub hostOps0 _ hostOps0_writes h

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the region's seven arrays: each writes its own result, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  obtain ⟨y, hy, he⟩ := List.mem_map.mp (List.mem_toFinset.mp ((List.forall_iff_forall_mem.mp hostOps1_writes) op hop hw))
  have hyw : y = Pipeline.arrRef spec0 w := Proc.devRef_injective _ he
  exact (by decide : ∀ w : Fin 7, Pipeline.arrRef spec0 w ∉ hostOps1_W) w (hyw ▸ hy)

/-- An argument array ends as launched: no operation after the region writes it, it is none of the region's arrays,
    and no operation before the region writes it. -/
theorem W_keep (dats : (p : Fin _) → (c : Dev nD) → Dat τ (Elt F) Unit ℕ (UR sig nD τ) ℕ (cfgs p) c) (c : Dev nD)
    (r : Ref sig .tc) (h1 : r ∉ hostOps1_W) (hw : ∀ w, Pipeline.arrRef spec0 w ≠ r) (h0 : r ∉ hostOps0_W) :
    Pipeline.afterTail₀ cfgs dats 0 (V0 m) [hostOps1] c r = m ((c : Thread nD τ).loc r) := by
  unfold Pipeline.afterTail₀
  simp only [List.flatten_cons, List.flatten_nil, List.append_nil]
  rw [StableHlo.after_of_writes_sub hostOps1 _ hostOps1_writes h1,
    Pipeline.withArrays_of_ne _ c (V0 m c) _ r hw]
  exact V_keep m c r h0

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run to the region's post read at the argument arrays, the frame. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_keep m dats c main_arg0 (by decide) (by decide) (by decide)),
    ((h c).2 main_arg1 (Pipeline.mem_restRefs_of main_arg1 (by decide) (by decide))).trans (W_keep m dats c main_arg1 (by decide) (by decide) (by decide)),
    ((h c).2 main_arg2 (Pipeline.mem_restRefs_of main_arg2 (by decide) (by decide))).trans (W_keep m dats c main_arg2 (by decide) (by decide) (by decide)),
    ((h c).2 main_arg3 (Pipeline.mem_restRefs_of main_arg3 (by decide) (by decide))).trans (W_keep m dats c main_arg3 (by decide) (by decide) (by decide)),
    ((h c).2 main_arg4 (Pipeline.mem_restRefs_of main_arg4 (by decide) (by decide))).trans (W_keep m dats c main_arg4 (by decide) (by decide) (by decide)),
    ((h c).2 main_arg5 (Pipeline.mem_restRefs_of main_arg5 (by decide) (by decide))).trans (W_keep m dats c main_arg5 (by decide) (by decide) (by decide)),
    ((h c).2 main_arg6 (Pipeline.mem_restRefs_of main_arg6 (by decide) (by decide))).trans (W_keep m dats c main_arg6 (by decide) (by decide) (by decide)),
    ((h c).2 main_arg7 (Pipeline.mem_restRefs_of main_arg7 (by decide) (by decide))).trans (W_keep m dats c main_arg7 (by decide) (by decide) (by decide)),
    ((h c).2 main_arg8 (Pipeline.mem_restRefs_of main_arg8 (by decide) (by decide))).trans (W_keep m dats c main_arg8 (by decide) (by decide) (by decide)),
    ((h c).2 main_arg9 (Pipeline.mem_restRefs_of main_arg9 (by decide) (by decide))).trans (W_keep m dats c main_arg9 (by decide) (by decide) (by decide))⟩) h

/-! ## The body -/

abbrev r64 : Rect S2000x64 := Rect.unit (s := S2000x64) ![0, 0] S2000x64.size inb_S2000x64_S2000x64_0_0
abbrev r1 : Rect S2000x1 := Rect.unit (s := S2000x1) ![0, 0] S2000x1.size inb_S2000x1_S2000x1_0_0

/-- The pooled-mean block after the body: the mean of the four weighted hop blocks, stored whole. -/
def out0_5 (x0 x1 x2 x3 : Vec F S2000x64 .f32) (x4 : Vec F S2000x1 .f32) : Vec F S2000x64 .f32 :=
  View.canon [⟨r64, k0_pay4 (View.ld x4 r1) (View.ld x0 r64) (View.ld x1 r64) (View.ld x2 r64) (View.ld x3 r64)⟩]
/-- The hop-0 block after the body: the weighted first block, stored whole. -/
def out0_6 (x0 : Vec F S2000x64 .f32) (x4 : Vec F S2000x1 .f32) : Vec F S2000x64 .f32 :=
  View.canon [⟨r64, k0_pay3 (View.ld x4 r1) (View.ld x0 r64)⟩]

/-- One whole-block store covers the block. -/
theorem cover64 (p0 : Vec F S2000x64 .f32) (y : S2000x64.Idx) :
    ∃ pc ∈ ([⟨r64, p0⟩] : List (View.Piece (Elt F) S2000x64 .f32)), y ∈ pc.1.set :=
  View.cover_of_tiled [⟨r64, p0⟩] S2000x64.size (by rfl) y

set_option maxHeartbeats 1000000 in
/-- The body on whole staging buffers: the five inputs are read and kept, the two outputs end at the body's arithmetic
    on the inputs, whatever they held. -/
theorem sound_kernel (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S2000x64 .f32) (harg3 : arg3.IsWhole) (arg4 : Memref sig .tc .vmem S2000x64 .f32) (harg4 : arg4.IsWhole)
    (arg5 : Memref sig .tc .vmem S2000x1 .f32) (harg5 : arg5.IsWhole) (arg6 : Memref sig .tc .vmem S2000x64 .f32) (harg6 : arg6.IsWhole)
    (arg7 : Memref sig .tc .vmem S2000x64 .f32) (harg7 : arg7.IsWhole)
    (x0 x1 x2 x3 : Vec F S2000x64 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x4)) -∗ K ⟨⟩))
      ⊢ wp frame (wpE (defs₀ (F := F)) Variants.none c none) E (cc0__heat_weight_kernel i arg1 harg1 arg2 harg2 arg3 harg3 arg4 harg4 arg5 harg5 arg6 harg6 arg7 harg7) K := by
  simp only [cc0__heat_weight_kernel_eq_skeleton]; unfold cc0__heat_weight_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover64 _)
  iexists _; isplitr
  swap; · iexact H6
  ipureintro
  exact View.read_writes_eq_canon _ _ _ (cover64 _)

/-! ## The pipeline's proof data -/

/-- After the body at point t each input buffer holds its block and each output buffer the body's arithmetic on the
    input blocks at t. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; each of the region's arrays ends at what the blocks written
    back make of it, every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Hand

end
-- ==== Proof.KIFrame.lean ====
/-
  The frame of the heat-weighting program: it runs to the end, faults nowhere, and leaves its ten argument arrays as
  they were launched.

  The program is fifty host operations (two concatenations and three gather / scale / scatter-add hops), one
  row-blocked region over 50 grid points, and ninety-three host operations on the region's two results. At point t
  the region's body reads block t (2000 rows) of the four hop aggregates and of the node times, and writes block t of
  the pooled mean and of the weighted hop 0: each output block is the body's arithmetic on the input blocks at the
  same point, whatever the output buffer held before. No host operation writes an argument array or, after the
  region, one of the region's seven arrays, so the arguments end as launched.
-/
import proofs.«160151_j45664092291172_1_alg».proof.Proof.Gen.KernelIdeal.Launch
import proofs.«160151_j45664092291172_1_alg».proof.Proof.Gen.KernelIdeal.Skeleton
import proofs.«160151_j45664092291172_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations around the region -/

/-- Core c's buffer contents when the region is entered: the launch memory after the fifty operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The buffers the operations before the region write: each its own result. -/
abbrev hostOps0_W : List (Ref sig .tc) := [main_v0, main_v1, main_v2, main_c, main_v3, main_v4, main_c_0, main_v5, main_v6, main_v7, main_v8, main_v9, main_v10, main_v11, main_cst, main_v12, main_v13, main_v14, main_v15, main_c_1, main_v16, main_v17, main_c_2, main_v18, main_v19, main_v20, main_v21, main_v22, main_v23, main_v24, main_cst_3, main_v25, main_v26, main_v27, main_v28, main_c_4, main_v29, main_v30, main_c_5, main_v31, main_v32, main_v33, main_v34, main_v35, main_v36, main_v37, main_cst_6, main_v38, main_v39, main_v40]
/-- The buffers the operations after the region write: each its own result. -/
abbrev hostOps1_W : List (Ref sig .tc) := [main_v42, main_v43, main_v44, main_v45, main_c_7, main_v46, main_v47, main_c_8, main_v48, main_v49, main_v50, main_v51, main_v52, main_c_9, main_v53, main_v54, main_c_10, main_v55, main_v56, main_v57, main_v58, main_v59, main_c_11, main_v60, main_v61, main_c_12, main_v62, main_v63, main_v64, main_v65, main_v66, main_v67, main_cst_13, main_v68, main_v69, main_v70, main_cst_14, main_v71, main_v72, main_v73, main_v74, main_cst_15, main_v75, main_v76, main_cst_16, main_v77, main_cst_17, main_v78, main_c_18, main_v79, main_v80, main_c_19, main_v81, main_v82, main_v83, main_v84, main_v85, main_v86, main_cst_20, main_v87, main_c_21, main_v88, main_v89, main_c_22, main_v90, main_v91, main_v92, main_v93, main_v94, main_v95, main_cst_23, main_v96, main_v97, main_c_24, main_v98, main_v99, main_c_25, main_v100, main_v101, main_v102, main_v103, main_v104, main_v105, main_cst_26, main_v106, main_v107, main_cst_27, main_v108, main_cst_28, main_v109, main_cst_29, main_v110, main_v111]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))

/-- A buffer the operations before the region do not write is found by the region as launched. -/
theorem V_keep (c : Dev nD) (r : Ref sig .tc) (h : r ∉ hostOps0_W) : V m c r = m ((c : Thread nD τ).loc r) := by
  show StableHlo.after (List.flatten [hostOps0]) (fun b => m (c, b)) (Proc.devRef .tc r) = _
  simp only [List.flatten_cons, List.flatten_nil, List.append_nil]
  exact StableHlo.after_of_writes_sub hostOps0 _ hostOps0_writes h

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch unscoped TensorCore buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the region's seven arrays: each writes its own result, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop w hw
  simp only [List.mem_cons, List.mem_nil_iff, or_false] at hops
  rcases hops with rfl
  obtain ⟨y, hy, he⟩ := List.mem_map.mp (List.mem_toFinset.mp ((List.forall_iff_forall_mem.mp hostOps1_writes) op hop hw))
  have hyw : y = Pipeline.arrRef spec0 w := Proc.devRef_injective _ he
  exact (by decide : ∀ w : Fin 7, Pipeline.arrRef spec0 w ∉ hostOps1_W) w (hyw ▸ hy)

/-- An argument array ends as launched: no operation after the region writes it, it is none of the region's arrays,
    and no operation before the region writes it. -/
theorem W_keep (dats : (p : Fin _) → (c : Dev nD) → Dat τ (Elt F) Unit ℕ (UR sig nD τ) ℕ (cfgs p) c) (c : Dev nD)
    (r : Ref sig .tc) (h1 : r ∉ hostOps1_W) (hw : ∀ w, Pipeline.arrRef spec0 w ≠ r) (h0 : r ∉ hostOps0_W) :
    Pipeline.afterTail₀ cfgs dats 0 (V0 m) [hostOps1] c r = m ((c : Thread nD τ).loc r) := by
  unfold Pipeline.afterTail₀
  simp only [List.flatten_cons, List.flatten_nil, List.append_nil]
  rw [StableHlo.after_of_writes_sub hostOps1 _ hostOps1_writes h1,
    Pipeline.withArrays_of_ne _ c (V0 m c) _ r hw]
  exact V_keep m c r h0

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run to the region's post read at the argument arrays, the frame. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_keep m dats c main_arg0 (by decide) (by decide) (by decide)),
    ((h c).2 main_arg1 (Pipeline.mem_restRefs_of main_arg1 (by decide) (by decide))).trans (W_keep m dats c main_arg1 (by decide) (by decide) (by decide)),
    ((h c).2 main_arg2 (Pipeline.mem_restRefs_of main_arg2 (by decide) (by decide))).trans (W_keep m dats c main_arg2 (by decide) (by decide) (by decide)),
    ((h c).2 main_arg3 (Pipeline.mem_restRefs_of main_arg3 (by decide) (by decide))).trans (W_keep m dats c main_arg3 (by decide) (by decide) (by decide)),
    ((h c).2 main_arg4 (Pipeline.mem_restRefs_of main_arg4 (by decide) (by decide))).trans (W_keep m dats c main_arg4 (by decide) (by decide) (by decide)),
    ((h c).2 main_arg5 (Pipeline.mem_restRefs_of main_arg5 (by decide) (by decide))).trans (W_keep m dats c main_arg5 (by decide) (by decide) (by decide)),
    ((h c).2 main_arg6 (Pipeline.mem_restRefs_of main_arg6 (by decide) (by decide))).trans (W_keep m dats c main_arg6 (by decide) (by decide) (by decide)),
    ((h c).2 main_arg7 (Pipeline.mem_restRefs_of main_arg7 (by decide) (by decide))).trans (W_keep m dats c main_arg7 (by decide) (by decide) (by decide)),
    ((h c).2 main_arg8 (Pipeline.mem_restRefs_of main_arg8 (by decide) (by decide))).trans (W_keep m dats c main_arg8 (by decide) (by decide) (by decide)),
    ((h c).2 main_arg9 (Pipeline.mem_restRefs_of main_arg9 (by decide) (by decide))).trans (W_keep m dats c main_arg9 (by decide) (by decide) (by decide))⟩) h

/-! ## The body -/

abbrev r64 : Rect S2000x64 := Rect.unit (s := S2000x64) ![0, 0] S2000x64.size inb_S2000x64_S2000x64_0_0
abbrev r1 : Rect S2000x1 := Rect.unit (s := S2000x1) ![0, 0] S2000x1.size inb_S2000x1_S2000x1_0_0

/-- The pooled-mean block after the body: the mean of the four weighted hop blocks, stored whole. -/
def out0_5 (x0 x1 x2 x3 : Vec F S2000x64 .f32) (x4 : Vec F S2000x1 .f32) : Vec F S2000x64 .f32 :=
  View.canon [⟨r64, k0_pay4 (View.ld x4 r1) (View.ld x0 r64) (View.ld x1 r64) (View.ld x2 r64) (View.ld x3 r64)⟩]
/-- The hop-0 block after the body: the weighted first block, stored whole. -/
def out0_6 (x0 : Vec F S2000x64 .f32) (x4 : Vec F S2000x1 .f32) : Vec F S2000x64 .f32 :=
  View.canon [⟨r64, k0_pay3 (View.ld x4 r1) (View.ld x0 r64)⟩]

/-- One whole-block store covers the block. -/
theorem cover64 (p0 : Vec F S2000x64 .f32) (y : S2000x64.Idx) :
    ∃ pc ∈ ([⟨r64, p0⟩] : List (View.Piece (Elt F) S2000x64 .f32)), y ∈ pc.1.set :=
  View.cover_of_tiled [⟨r64, p0⟩] S2000x64.size (by rfl) y

set_option maxHeartbeats 1000000 in
/-- The body on whole staging buffers: the five inputs are read and kept, the two outputs end at the body's arithmetic
    on the inputs, whatever they held. -/
theorem sound_kernel (c : Dev nD) (E : Set ℕ) (i : grid0.Coords)
    (arg1 : Memref sig .tc .vmem S2000x64 .f32) (harg1 : arg1.IsWhole) (arg2 : Memref sig .tc .vmem S2000x64 .f32) (harg2 : arg2.IsWhole)
    (arg3 : Memref sig .tc .vmem S2000x64 .f32) (harg3 : arg3.IsWhole) (arg4 : Memref sig .tc .vmem S2000x64 .f32) (harg4 : arg4.IsWhole)
    (arg5 : Memref sig .tc .vmem S2000x1 .f32) (harg5 : arg5.IsWhole) (arg6 : Memref sig .tc .vmem S2000x64 .f32) (harg6 : arg6.IsWhole)
    (arg7 : Memref sig .tc .vmem S2000x64 .f32) (harg7 : arg7.IsWhole)
    (x0 x1 x2 x3 : Vec F S2000x64 .f32) (x4 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x4)) -∗ K ⟨⟩))
      ⊢ wp frame (wpE (defs₀ (F := F)) Variants.none c none) E (cc0__heat_weight_kernel i arg1 harg1 arg2 harg2 arg3 harg3 arg4 harg4 arg5 harg5 arg6 harg6 arg7 harg7) K := by
  simp only [cc0__heat_weight_kernel_eq_skeleton]; unfold cc0__heat_weight_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover64 _)
  iexists _; isplitr
  swap; · iexact H6
  ipureintro
  exact View.read_writes_eq_canon _ _ _ (cover64 _)

/-! ## The pipeline's proof data -/

/-- After the body at point t each input buffer holds its block and each output buffer the body's arithmetic on the
    input blocks at t. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; each of the region's arrays ends at what the blocks written
    back make of it, every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Hand

end
-- ==== Proof.HeatSpec.lean ====
/-
  The mathematics both programs compute, and the one law that joins them.

  Every node i of the graph (60000 genes followed by 40000 drugs) carries a time t_i and four feature rows
  x0 … x3 (the input embedding and its three propagated aggregates). Both programs weight hop k by the heat
  kernel coefficient exp(-t)·t^k/k!, and pool the four weighted rows by their mean; hop 0 alone is also kept.
  One program spells the weights with products by 1/2, 1/6, 1/4, the other with quotients by 1, 2, 6, 4, and the
  order of factors differs. On the extended reals a quotient by a non-zero real is the product with its
  reciprocal, multiplication is commutative and 0 - t = -t, so the two spellings are one function of
  (t, x0, x1, x2, x3) — no finiteness is needed.
  The rows read are chosen by integer tables: a start index is read signed and clamped into the table's range.
-/
import Idealize.ShloMosaic.PureOps.Ideal
import Idealize.ShloMosaic.Lib.ValueIdx

noncomputable section

open Idealize.ShloMosaic Idealize.ShloMosaic.ValueIdx

namespace Heat

/-! ## The float words the two programs spell, as extended reals -/

theorem w_zero : Ideal.ofBits .f32 0x00000000#32 = 0 := by
  simp [Ideal.ofBits, Ideal.ieee]
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_four : Ideal.ofBits .f32 0x40800000#32 = ((4 : ℝ) : EReal) := by
  simp [Ideal.ofBits, Ideal.ieee, -EReal.coe_mul]; norm_num
theorem w_six : Ideal.ofBits .f32 0x40C00000#32 = ((6 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_quarter : Ideal.ofBits .f32 0x3E800000#32 = ((1 / 4 : ℝ) : EReal) := by
  simp [Ideal.ofBits, Ideal.ieee, -EReal.coe_mul]; norm_num

/-! ## One node's row, in the two spellings -/

/-- A function of a node's time and its four feature entries. -/
abbrev RowFn := EReal → EReal → EReal → EReal → EReal → EReal

/-- exp(-t), spelt 0 - t. -/
def decayK (t : EReal) : EReal := Ideal.exp (Ideal.ofBits .f32 0x00000000#32 - t)

/-- Hop 0 weighted, products only: exp(-t) · x0. -/
def hop0K : RowFn := fun t x0 _ _ _ => decayK t * x0

/-- The mean of the four weighted hops, products only. -/
def meanK : RowFn := fun t x0 x1 x2 x3 =>
  (((decayK t * x0 + (decayK t * t) * x1)
      + ((decayK t * (t * t)) * Ideal.ofBits .f32 0x3F000000#32) * x2)
      + ((decayK t * ((t * t) * t)) * ((1 / 6 : ℝ) : EReal)) * x3) * Ideal.ofBits .f32 0x3E800000#32

/-- exp(-t)·1/1. -/
def coef0R (t : EReal) : EReal :=
  Ideal.div (Ideal.exp (-t) * Ideal.ofBits .f32 0x3F800000#32) (Ideal.ofBits .f32 0x3F800000#32)
/-- exp(-t)·t/1. -/
def coef1R (t : EReal) : EReal := Ideal.div (Ideal.exp (-t) * t) (Ideal.ofBits .f32 0x3F800000#32)
/-- exp(-t)·t²/2. -/
def coef2R (t : EReal) : EReal := Ideal.div (Ideal.exp (-t) * (t * t)) (Ideal.ofBits .f32 0x40000000#32)
/-- exp(-t)·t³/6. -/
def coef3R (t : EReal) : EReal := Ideal.div (Ideal.exp (-t) * ((t * t) * t)) (Ideal.ofBits .f32 0x40C00000#32)

/-- Hop 0 weighted, quotient spelling. -/
def hop0R : RowFn := fun t x0 _ _ _ => coef0R t * x0

/-- The mean of the four weighted hops, quotient spelling: a sum from 0 over the hop axis, divided by 4. -/
def meanR : RowFn := fun t x0 x1 x2 x3 =>
  Ideal.div (Ideal.ofBits .f32 0x00000000#32
      + (((coef0R t * x0 + x1 * coef1R t) + x2 * coef2R t) + x3 * coef3R t))
    (Ideal.ofBits .f32 0x40800000#32)

theorem decay_eq (t : EReal) : decayK t = Ideal.exp (-t) := by
  unfold decayK; rw [w_zero, zero_sub]

theorem coef0R_eq (t : EReal) : coef0R t = Ideal.exp (-t) := by
  unfold coef0R
  rw [w_one, Ideal.div_coe (by norm_num : (1 : ℝ) ≠ 0)]
  norm_num

theorem hop0_eq : hop0K = hop0R := by
  funext t x0 _ _ _
  show decayK t * x0 = coef0R t * x0
  rw [decay_eq, coef0R_eq]

theorem mean_eq : meanK = meanR := by
  funext t x0 x1 x2 x3
  show (((decayK t * x0 + (decayK t * t) * x1)
      + ((decayK t * (t * t)) * Ideal.ofBits .f32 0x3F000000#32) * x2)
      + ((decayK t * ((t * t) * t)) * ((1 / 6 : ℝ) : EReal)) * x3) * Ideal.ofBits .f32 0x3E800000#32
    = Ideal.div (Ideal.ofBits .f32 0x00000000#32
      + (((coef0R t * x0 + x1 * coef1R t) + x2 * coef2R t) + x3 * coef3R t))
    (Ideal.ofBits .f32 0x40800000#32)
  rw [decay_eq, coef0R_eq]
  unfold coef1R coef2R coef3R
  rw [w_zero, w_one, w_two, w_four, w_six, w_half, w_quarter, zero_add,
    Ideal.div_coe (by norm_num : (1 : ℝ) ≠ 0), Ideal.div_coe (by norm_num : (2 : ℝ) ≠ 0),
    Ideal.div_coe (by norm_num : (4 : ℝ) ≠ 0), Ideal.div_coe (by norm_num : (6 : ℝ) ≠ 0),
    mul_comm x1, mul_comm x2, mul_comm x3]
  norm_num

/-! ## The rows the integer tables choose -/

/-- A start index read signed and clamped into [0, N-1]. -/
def clampRow (N : Nat) (hN : 0 < N) (x : BitVec 32) : Fin N := ⟨min x.toInt.toNat (N - 1), by omega⟩

/-- Gene r is node r; drug r is node 60000 + r. -/
def geneNode (r : Fin 60000) : Fin 100000 := ⟨r.val, by omega⟩
def drugNode (r : Fin 40000) : Fin 100000 := ⟨60000 + r.val, by omega⟩

/-- Feature j of gene r under a row function: its time from the gene times, hop 0 from the gene embedding, the later
    hops from the aggregates over all nodes. -/
def geneAt (f : RowFn) (e0 : (⟨2, ![60000, 64]⟩ : Shape).Idx → EReal)
    (A1 A2 A3 : (⟨2, ![100000, 64]⟩ : Shape).Idx → EReal) (t : (⟨2, ![60000, 1]⟩ : Shape).Idx → EReal)
    (r : Fin 60000) (j : Fin 64) : EReal :=
  f (t (ix2 r (0 : Fin 1))) (e0 (ix2 r j)) (A1 (ix2 (geneNode r) j)) (A2 (ix2 (geneNode r) j)) (A3 (ix2 (geneNode r) j))

/-- Feature j of drug r under a row function. -/
def drugAt (f : RowFn) (e1 : (⟨2, ![40000, 64]⟩ : Shape).Idx → EReal)
    (A1 A2 A3 : (⟨2, ![100000, 64]⟩ : Shape).Idx → EReal) (t : (⟨2, ![40000, 1]⟩ : Shape).Idx → EReal)
    (r : Fin 40000) (j : Fin 64) : EReal :=
  f (t (ix2 r (0 : Fin 1))) (e1 (ix2 r j)) (A1 (ix2 (drugNode r) j)) (A2 (ix2 (drugNode r) j)) (A3 (ix2 (drugNode r) j))

end Heat

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KIPay.lean ====
/-
  The body's arithmetic at one entry of a block.

  At row p and column q of a block the body reads the node time t = (time block)(p, 0) and the four feature entries
  x_k = (hop-k block)(p, q). It stores exp(0 - t) · x0 as the weighted hop 0, and the mean
  (((e·x0 + (e·t)·x1) + ((e·t²)·½)·x2) + ((e·t³)·⅙)·x3) · ¼ with e = exp(0 - t); the sixth is the named rational 1/6.
-/
import proofs.«160151_j45664092291172_1_alg».proof.Proof.Gen.KernelIdeal.Skeleton
import proofs.«160151_j45664092291172_1_alg».proof.Proof.HeatSpec
import proofs.«160151_j45664092291172_1_alg».proof.Proof.LibKeepdims
import Idealize.ShloMosaic.Lib.Pipeline.Value
import Idealize.ShloMosaic.Lib.ValueIdx
import Idealize.ShloMosaic.PureOps.IdealRules

noncomputable section

namespace Cert.KernelIdeal.Pay

open Cert.KernelIdeal Cert.KernelIdeal.Gen Idealize.ShloMosaic Idealize.ShloMosaic.ValueIdx

/-- The named sixth is the rational 1/6 on the extended reals. -/
theorem inv_6 : Named.named (F := Ideal) κ "inv_6" (φ := .f32) 0x3E2AAAAB#32 = ((1 / 6 : ℝ) : EReal) :=
  IdealRules.named_const.ideal_named_scalar _ _ _ _ rfl

/-- The node time of row p. -/
theorem pay1_apply (v0 : Vec Ideal S2000x1 .f32) (p : Fin 2000) :
    k0_pay1 v0 (ix2 p (0 : Fin 1)) = v0 (ix2 p (0 : Fin 1)) := by
  unfold k0_pay1
  rw [shapeCast_self]

/-- The decay exp(0 - t) of row p. -/
theorem pay2_apply (v0 : Vec Ideal S2000x1 .f32) (p : Fin 2000) :
    k0_pay2 v0 (ix2 p (0 : Fin 1)) = Heat.decayK (v0 (ix2 p (0 : Fin 1))) := by
  unfold k0_pay2 Heat.decayK
  show Ideal.exp (Ideal.ofBits .f32 0x00000000#32 - k0_pay1 v0 (ix2 p (0 : Fin 1))) = _
  rw [pay1_apply]

/-- The weighted hop 0 at (p, q). -/
theorem pay3_apply (v0 : Vec Ideal S2000x1 .f32) (x0 : Vec Ideal S2000x64 .f32) (p : Fin 2000) (q : Fin 64) :
    k0_pay3 v0 x0 (ix2 p q) = Heat.decayK (v0 (ix2 p (0 : Fin 1))) * x0 (ix2 p q) := by
  unfold k0_pay3
  show broadcastTo S2000x64 (k0_pay2 v0) broadcasts_S2000x1_S2000x64 (ix2 p q)
      * shapeCast S2000x64 x0 shapeCasts_S2000x64_S2000x64 (ix2 p q) = _
  rw [shapeCast_self, Cert.Lib.Keepdims.broadcastTo_a1_ab_apply, pay2_apply]

/-- The pooled mean at (p, q). -/
theorem pay4_apply (v0 : Vec Ideal S2000x1 .f32) (x0 x1 x2 x3 : Vec Ideal S2000x64 .f32) (p : Fin 2000) (q : Fin 64) :
    k0_pay4 v0 x0 x1 x2 x3 (ix2 p q)
      = Heat.meanK (v0 (ix2 p (0 : Fin 1))) (x0 (ix2 p q)) (x1 (ix2 p q)) (x2 (ix2 p q)) (x3 (ix2 p q)) := by
  unfold k0_pay4 Heat.meanK
  simp only [mulf_apply, addf_apply, broadcast_apply, shapeCast_self, Cert.Lib.Keepdims.broadcastTo_a1_ab_apply,
    pay3_apply, pay2_apply, pay1_apply, inv_6]
  rfl

end Cert.KernelIdeal.Pay

end
-- ==== Proof.KISpec.lean ====
/-
  The region's two results over all nodes, as functions of the four hop aggregates and the node times: entry (i, j) of
  the pooled mean is the mean row function of node i's time and of the aggregates' entries (i, j); entry (i, j) of the
  weighted hop 0 is exp(0 - t_i) · (hop 0)(i, j).
-/
import proofs.«160151_j45664092291172_1_alg».proof.KernelIdeal
import proofs.«160151_j45664092291172_1_alg».proof.Proof.HeatSpec
import Idealize.ShloMosaic.Lib.ValueIdx

noncomputable section

namespace Cert.KernelIdeal.Final

open Idealize.ShloMosaic Idealize.ShloMosaic.ValueIdx
open Cert.KernelIdeal

/-- Node i's time, read off the [100000, 1] time column. -/
def timeOf (tt : S100000x1.Idx → EReal) (i : S100000x64.Idx) : EReal :=
  tt (ix2 (⟨(i 0).val, idx2_lt0 i⟩ : Fin 100000) (0 : Fin 1))

/-- The pooled mean over all nodes. -/
def Gmean (a0 a1 a2 a3 : S100000x64.Idx → EReal) (tt : S100000x1.Idx → EReal) : S100000x64.Idx → EReal :=
  fun i => Heat.meanK (timeOf tt i) (a0 i) (a1 i) (a2 i) (a3 i)

/-- The weighted hop 0 over all nodes. -/
def Ghop0 (a0 : S100000x64.Idx → EReal) (tt : S100000x1.Idx → EReal) : S100000x64.Idx → EReal :=
  fun i => Heat.decayK (timeOf tt i) * a0 i

end Cert.KernelIdeal.Final

end
-- ==== Proof.KIFinal.lean ====
/-
  The region's two results as whole arrays.

  Point t of the grid handles rows 2000·t … 2000·t + 1999 of every array: each window's block index at t is (t, 0).
  So block t of the pooled-mean array is the body's mean of the same rows of the four hop aggregates and of the node
  times, and the 50 blocks tile the 100000 rows: the array ends, entry (i, j), at the mean row function of node i's time
  and of the four aggregates' entries (i, j). Likewise the hop-0 array ends at exp(0 - t_i) · (hop 0)(i, j).
-/
import proofs.«160151_j45664092291172_1_alg».proof.Proof.KIFrame
import proofs.«160151_j45664092291172_1_alg».proof.Proof.KIPay
import proofs.«160151_j45664092291172_1_alg».proof.Proof.KISpec
import Idealize.ShloMosaic.Lib.Pipeline.Value

set_option maxRecDepth 16384

noncomputable section

namespace Cert.KernelIdeal.Final

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

theorem hz : (![0, 0] : Fin 2 → Nat) = fun _ => 0 := funext fun a => by fin_cases a <;> rfl

/-- A block of the mean is the mean of the blocks, when every block is read where the output block sits. -/
theorem blk_mean (X0 X1 X2 X3 : Vec Ideal S2000x64 .f32) (X4 : Vec Ideal S2000x1 .f32)
    (a0 a1 a2 a3 : S100000x64.Idx → EReal) (tt : S100000x1.Idx → EReal)
    (e : S2000x64.Idx → S100000x64.Idx) (e4 : S2000x1.Idx → S100000x1.Idx)
    (h0 : ∀ y, X0 y = a0 (e y)) (h1 : ∀ y, X1 y = a1 (e y)) (h2 : ∀ y, X2 y = a2 (e y)) (h3 : ∀ y, X3 y = a3 (e y))
    (h4 : ∀ y, X4 y = tt (e4 y))
    (hrow : ∀ (p : Fin 2000) (q : Fin 64), e4 (ix2 p (0 : Fin 1)) = ix2 (⟨(e (ix2 p q) 0).val, idx2_lt0 _⟩ : Fin 100000) (0 : Fin 1)) :
    k0_pay4 X4 X0 X1 X2 X3 = fun y => Gmean a0 a1 a2 a3 tt (e y) := by
  funext y
  obtain ⟨p, q, rfl⟩ : ∃ (p : Fin 2000) (q : Fin 64), y = ix2 p q := ⟨y 0, y 1, eq_ix2 y⟩
  rw [Cert.KernelIdeal.Pay.pay4_apply, h0, h1, h2, h3, h4, hrow p q]
  rfl

/-- The same for the weighted hop 0. -/
theorem blk_hop0 (X0 : Vec Ideal S2000x64 .f32) (X4 : Vec Ideal S2000x1 .f32)
    (a0 : S100000x64.Idx → EReal) (tt : S100000x1.Idx → EReal)
    (e : S2000x64.Idx → S100000x64.Idx) (e4 : S2000x1.Idx → S100000x1.Idx)
    (h0 : ∀ y, X0 y = a0 (e y)) (h4 : ∀ y, X4 y = tt (e4 y))
    (hrow : ∀ (p : Fin 2000) (q : Fin 64), e4 (ix2 p (0 : Fin 1)) = ix2 (⟨(e (ix2 p q) 0).val, idx2_lt0 _⟩ : Fin 100000) (0 : Fin 1)) :
    k0_pay3 X4 X0 = fun y => Ghop0 a0 tt (e y) := by
  funext y
  obtain ⟨p, q, rfl⟩ : ∃ (p : Fin 2000) (q : Fin 64), y = ix2 p q := ⟨y 0, y 1, eq_ix2 y⟩
  rw [Cert.KernelIdeal.Pay.pay3_apply, h0, h4, hrow p q]
  rfl

/-- Every window's block index at point t is (t, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Window 0's block at point t sits on the same rows and columns as window 5's. -/
theorem emb0_5 (t : Fin cfg0.N) (y : S2000x64.Idx) :
    ((cfg0.win 0).blk t).view.emb y = ((cfg0.win 5).blk t).view.emb y := by
  obtain ⟨⟨e00, e01⟩, ⟨e10, e11⟩, ⟨e20, e21⟩, ⟨e30, e31⟩, ⟨e40, e41⟩, ⟨e50, e51⟩, ⟨e60, e61⟩⟩ := idx_facts t
  funext a; apply Fin.ext
  match a with
  | ⟨0, _⟩ => show win0_0.index t (0 : Fin 2) * 2000 + 1 * (y 0).val = win0_5.index t (0 : Fin 2) * 2000 + 1 * (y 0).val; rw [e00, e50]
  | ⟨1, _⟩ => show win0_0.index t (1 : Fin 2) * 64 + 1 * (y 1).val = win0_5.index t (1 : Fin 2) * 64 + 1 * (y 1).val; rw [e01, e51]

/-- So an array read through window 0's block is read at window 5's rows and columns. -/
theorem read0_at5 (A : S100000x64.Idx → EReal) (t : Fin cfg0.N) (y : S2000x64.Idx) :
    ((cfg0.win 0).blk t).view.read (Elt Ideal) A y = A (((cfg0.win 5).blk t).view.emb y) := by
  show A (((cfg0.win 0).blk t).view.emb y) = _
  rw [emb0_5]

/-- Window 1's block at point t sits on the same rows and columns as window 5's. -/
theorem emb1_5 (t : Fin cfg0.N) (y : S2000x64.Idx) :
    ((cfg0.win 1).blk t).view.emb y = ((cfg0.win 5).blk t).view.emb y := by
  obtain ⟨⟨e00, e01⟩, ⟨e10, e11⟩, ⟨e20, e21⟩, ⟨e30, e31⟩, ⟨e40, e41⟩, ⟨e50, e51⟩, ⟨e60, e61⟩⟩ := idx_facts t
  funext a; apply Fin.ext
  match a with
  | ⟨0, _⟩ => show win0_1.index t (0 : Fin 2) * 2000 + 1 * (y 0).val = win0_5.index t (0 : Fin 2) * 2000 + 1 * (y 0).val; rw [e10, e50]
  | ⟨1, _⟩ => show win0_1.index t (1 : Fin 2) * 64 + 1 * (y 1).val = win0_5.index t (1 : Fin 2) * 64 + 1 * (y 1).val; rw [e11, e51]

/-- So an array read through window 1's block is read at window 5's rows and columns. -/
theorem read1_at5 (A : S100000x64.Idx → EReal) (t : Fin cfg0.N) (y : S2000x64.Idx) :
    ((cfg0.win 1).blk t).view.read (Elt Ideal) A y = A (((cfg0.win 5).blk t).view.emb y) := by
  show A (((cfg0.win 1).blk t).view.emb y) = _
  rw [emb1_5]

/-- Window 2's block at point t sits on the same rows and columns as window 5's. -/
theorem emb2_5 (t : Fin cfg0.N) (y : S2000x64.Idx) :
    ((cfg0.win 2).blk t).view.emb y = ((cfg0.win 5).blk t).view.emb y := by
  obtain ⟨⟨e00, e01⟩, ⟨e10, e11⟩, ⟨e20, e21⟩, ⟨e30, e31⟩, ⟨e40, e41⟩, ⟨e50, e51⟩, ⟨e60, e61⟩⟩ := idx_facts t
  funext a; apply Fin.ext
  match a with
  | ⟨0, _⟩ => show win0_2.index t (0 : Fin 2) * 2000 + 1 * (y 0).val = win0_5.index t (0 : Fin 2) * 2000 + 1 * (y 0).val; rw [e20, e50]
  | ⟨1, _⟩ => show win0_2.index t (1 : Fin 2) * 64 + 1 * (y 1).val = win0_5.index t (1 : Fin 2) * 64 + 1 * (y 1).val; rw [e21, e51]

/-- So an array read through window 2's block is read at window 5's rows and columns. -/
theorem read2_at5 (A : S100000x64.Idx → EReal) (t : Fin cfg0.N) (y : S2000x64.Idx) :
    ((cfg0.win 2).blk t).view.read (Elt Ideal) A y = A (((cfg0.win 5).blk t).view.emb y) := by
  show A (((cfg0.win 2).blk t).view.emb y) = _
  rw [emb2_5]

/-- Window 3's block at point t sits on the same rows and columns as window 5's. -/
theorem emb3_5 (t : Fin cfg0.N) (y : S2000x64.Idx) :
    ((cfg0.win 3).blk t).view.emb y = ((cfg0.win 5).blk t).view.emb y := by
  obtain ⟨⟨e00, e01⟩, ⟨e10, e11⟩, ⟨e20, e21⟩, ⟨e30, e31⟩, ⟨e40, e41⟩, ⟨e50, e51⟩, ⟨e60, e61⟩⟩ := idx_facts t
  funext a; apply Fin.ext
  match a with
  | ⟨0, _⟩ => show win0_3.index t (0 : Fin 2) * 2000 + 1 * (y 0).val = win0_5.index t (0 : Fin 2) * 2000 + 1 * (y 0).val; rw [e30, e50]
  | ⟨1, _⟩ => show win0_3.index t (1 : Fin 2) * 64 + 1 * (y 1).val = win0_5.index t (1 : Fin 2) * 64 + 1 * (y 1).val; rw [e31, e51]

/-- So an array read through window 3's block is read at window 5's rows and columns. -/
theorem read3_at5 (A : S100000x64.Idx → EReal) (t : Fin cfg0.N) (y : S2000x64.Idx) :
    ((cfg0.win 3).blk t).view.read (Elt Ideal) A y = A (((cfg0.win 5).blk t).view.emb y) := by
  show A (((cfg0.win 3).blk t).view.emb y) = _
  rw [emb3_5]

/-- Window 0's block at point t sits on the same rows and columns as window 6's. -/
theorem emb0_6 (t : Fin cfg0.N) (y : S2000x64.Idx) :
    ((cfg0.win 0).blk t).view.emb y = ((cfg0.win 6).blk t).view.emb y := by
  obtain ⟨⟨e00, e01⟩, ⟨e10, e11⟩, ⟨e20, e21⟩, ⟨e30, e31⟩, ⟨e40, e41⟩, ⟨e50, e51⟩, ⟨e60, e61⟩⟩ := idx_facts t
  funext a; apply Fin.ext
  match a with
  | ⟨0, _⟩ => show win0_0.index t (0 : Fin 2) * 2000 + 1 * (y 0).val = win0_6.index t (0 : Fin 2) * 2000 + 1 * (y 0).val; rw [e00, e60]
  | ⟨1, _⟩ => show win0_0.index t (1 : Fin 2) * 64 + 1 * (y 1).val = win0_6.index t (1 : Fin 2) * 64 + 1 * (y 1).val; rw [e01, e61]

/-- So an array read through window 0's block is read at window 6's rows and columns. -/
theorem read0_at6 (A : S100000x64.Idx → EReal) (t : Fin cfg0.N) (y : S2000x64.Idx) :
    ((cfg0.win 0).blk t).view.read (Elt Ideal) A y = A (((cfg0.win 6).blk t).view.emb y) := by
  show A (((cfg0.win 0).blk t).view.emb y) = _
  rw [emb0_6]

/-- The time block's row p is the node whose features output block 5 holds at row p. -/
theorem row4_5 (t : Fin cfg0.N) (p : Fin 2000) (q : Fin 64) :
    ((cfg0.win 4).blk t).view.emb (ix2 p (0 : Fin 1))
      = ix2 (⟨((((cfg0.win 5).blk t).view.emb (ix2 p q)) 0).val, idx2_lt0 _⟩ : Fin 100000) (0 : Fin 1) := by
  obtain ⟨⟨e00, e01⟩, ⟨e10, e11⟩, ⟨e20, e21⟩, ⟨e30, e31⟩, ⟨e40, e41⟩, ⟨e50, e51⟩, ⟨e60, e61⟩⟩ := idx_facts t
  funext a; apply Fin.ext
  match a with
  | ⟨0, _⟩ => show win0_4.index t (0 : Fin 2) * 2000 + 1 * p.val = win0_5.index t (0 : Fin 2) * 2000 + 1 * p.val; rw [e40, e50]
  | ⟨1, _⟩ => show win0_4.index t (1 : Fin 2) * 1 + 1 * 0 = 0; rw [e41]

/-- The time block's row p is the node whose features output block 6 holds at row p. -/
theorem row4_6 (t : Fin cfg0.N) (p : Fin 2000) (q : Fin 64) :
    ((cfg0.win 4).blk t).view.emb (ix2 p (0 : Fin 1))
      = ix2 (⟨((((cfg0.win 6).blk t).view.emb (ix2 p q)) 0).val, idx2_lt0 _⟩ : Fin 100000) (0 : Fin 1) := by
  obtain ⟨⟨e00, e01⟩, ⟨e10, e11⟩, ⟨e20, e21⟩, ⟨e30, e31⟩, ⟨e40, e41⟩, ⟨e50, e51⟩, ⟨e60, e61⟩⟩ := idx_facts t
  funext a; apply Fin.ext
  match a with
  | ⟨0, _⟩ => show win0_4.index t (0 : Fin 2) * 2000 + 1 * p.val = win0_6.index t (0 : Fin 2) * 2000 + 1 * p.val; rw [e40, e60]
  | ⟨1, _⟩ => show win0_4.index t (1 : Fin 2) * 1 + 1 * 0 = 0; rw [e41]

/-- The time column read through the time window's block. -/
theorem read4_at (A : S100000x1.Idx → EReal) (t : Fin cfg0.N) (y : S2000x1.Idx) :
    ((cfg0.win 4).blk t).view.read (Elt Ideal) A y = A (((cfg0.win 4).blk t).view.emb y) := rfl

/-- What point t writes back to the pooled-mean array is block t of the mean over all nodes. -/
theorem flushed5_eq (c : Dev nD) (t : Fin cfg0.N) :
    (dats m 0 c).flushed 5 t = ((cfg0.win 5).blk t).view.read (Elt Ideal)
      (Gmean (V m c (Pipeline.arrRef spec0 0)) (V m c (Pipeline.arrRef spec0 1)) (V m c (Pipeline.arrRef spec0 2)) (V m c (Pipeline.arrRef spec0 3)) (V m c (Pipeline.arrRef spec0 4))) := by
  show (cfg0.win 5).cut (grid0.coords t) ((dats m 0 c).after 5 t) = _
  rw [after0_5]
  unfold out0_5
  rw [View.canon_unit_zero hz]
  simp only [View.ld_unit_zero (S := S2000x64) hz, View.ld_unit_zero (S := S2000x1) hz]
  have key := blk_mean (iblk m c 0 t) (iblk m c 1 t) (iblk m c 2 t) (iblk m c 3 t) (iblk m c 4 t)
    (V m c (Pipeline.arrRef spec0 0)) (V m c (Pipeline.arrRef spec0 1)) (V m c (Pipeline.arrRef spec0 2)) (V m c (Pipeline.arrRef spec0 3)) (V m c (Pipeline.arrRef spec0 4))
    (fun y => ((cfg0.win 5).blk t).view.emb y) (fun y => ((cfg0.win 4).blk t).view.emb y)
    (read0_at5 (V m c (Pipeline.arrRef spec0 0)) t) (read1_at5 (V m c (Pipeline.arrRef spec0 1)) t) (read2_at5 (V m c (Pipeline.arrRef spec0 2)) t) (read3_at5 (V m c (Pipeline.arrRef spec0 3)) t) (read4_at (V m c (Pipeline.arrRef spec0 4)) t) (row4_5 t)
  funext j
  show k0_pay4 (iblk m c 4 t) (iblk m c 0 t) (iblk m c 1 t) (iblk m c 2 t) (iblk m c 3 t) j
    = Gmean (V m c (Pipeline.arrRef spec0 0)) (V m c (Pipeline.arrRef spec0 1)) (V m c (Pipeline.arrRef spec0 2)) (V m c (Pipeline.arrRef spec0 3)) (V m c (Pipeline.arrRef spec0 4)) (((cfg0.win 5).blk t).view.emb j)
  exact congrFun key j

/-- What point t writes back to the hop-0 array is block t of the weighted hop 0 over all nodes. -/
theorem flushed6_eq (c : Dev nD) (t : Fin cfg0.N) :
    (dats m 0 c).flushed 6 t = ((cfg0.win 6).blk t).view.read (Elt Ideal) (Ghop0 (V m c (Pipeline.arrRef spec0 0)) (V m c (Pipeline.arrRef spec0 4))) := by
  show (cfg0.win 6).cut (grid0.coords t) ((dats m 0 c).after 6 t) = _
  rw [after0_6]
  unfold out0_6
  rw [View.canon_unit_zero hz]
  simp only [View.ld_unit_zero (S := S2000x64) hz, View.ld_unit_zero (S := S2000x1) hz]
  have key := blk_hop0 (iblk m c 0 t) (iblk m c 4 t) (V m c (Pipeline.arrRef spec0 0)) (V m c (Pipeline.arrRef spec0 4))
    (fun y => ((cfg0.win 6).blk t).view.emb y) (fun y => ((cfg0.win 4).blk t).view.emb y)
    (read0_at6 (V m c (Pipeline.arrRef spec0 0)) t) (read4_at (V m c (Pipeline.arrRef spec0 4)) t) (row4_6 t)
  funext j
  show k0_pay3 (iblk m c 4 t) (iblk m c 0 t) j = Ghop0 (V m c (Pipeline.arrRef spec0 0)) (V m c (Pipeline.arrRef spec0 4)) (((cfg0.win 6).blk t).view.emb j)
  exact congrFun key j

/-- Block t of window 5 is rows [2000·t, 2000·t + 2000) and all 64 columns. -/
theorem mem_blk5 (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v41_0).slice (win0_5.rect t)).set ↔ _
  rw [View.set_slice_whole, Rect.mem_set_unit]
  exact Iff.rfl

/-- Row r lies in block r / 2000: the blocks tile the array. -/
theorem cover5 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨⟨e00, e01⟩, ⟨e10, e11⟩, ⟨e20, e21⟩, ⟨e30, e31⟩, ⟨e40, e41⟩, ⟨e50, e51⟩, ⟨e60, e61⟩⟩ := idx_facts ⟨(i 0).val / 2000, ht⟩
  refine ⟨⟨(i 0).val / 2000, ht⟩, flush0_5 _, ?_⟩
  rw [mem_blk5]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, ht⟩ (1 : Fin 2) * 64 ≤ (i 1).val ∧ (i 1).val < win0_5.index ⟨(i 0).val / 2000, ht⟩ (1 : Fin 2) * 64 + 64
    rw [e51]
    omega

/-- Block t of window 6 is rows [2000·t, 2000·t + 2000) and all 64 columns. -/
theorem mem_blk6 (t : Fin cfg0.N) (i : S100000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v41_1).slice (win0_6.rect t)).set ↔ _
  rw [View.set_slice_whole, Rect.mem_set_unit]
  exact Iff.rfl

/-- Row r lies in block r / 2000: the blocks tile the array. -/
theorem cover6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨⟨e00, e01⟩, ⟨e10, e11⟩, ⟨e20, e21⟩, ⟨e30, e31⟩, ⟨e40, e41⟩, ⟨e50, e51⟩, ⟨e60, e61⟩⟩ := idx_facts ⟨(i 0).val / 2000, ht⟩
  refine ⟨⟨(i 0).val / 2000, ht⟩, flush0_6 _, ?_⟩
  rw [mem_blk6]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win0_6.index ⟨(i 0).val / 2000, ht⟩ (1 : Fin 2) * 64 ≤ (i 1).val ∧ (i 1).val < win0_6.index ⟨(i 0).val / 2000, ht⟩ (1 : Fin 2) * 64 + 64
    rw [e61]
    omega

/-- The pooled-mean array after the run. -/
theorem final5 (c : Dev nD) : (dats m 0 c).arrAt 5 cfg0.N
    = Gmean (V m c (Pipeline.arrRef spec0 0)) (V m c (Pipeline.arrRef spec0 1)) (V m c (Pipeline.arrRef spec0 2)) (V m c (Pipeline.arrRef spec0 3)) (V m c (Pipeline.arrRef spec0 4)) :=
  (dats m 0 c).arrAt_eq_of_cover 5 _ (fun t _ => flushed5_eq m c t) cover5

/-- The hop-0 array after the run. -/
theorem final6 (c : Dev nD) : (dats m 0 c).arrAt 6 cfg0.N = Ghop0 (V m c (Pipeline.arrRef spec0 0)) (V m c (Pipeline.arrRef spec0 4)) :=
  (dats m 0 c).arrAt_eq_of_cover 6 _ (fun t _ => flushed6_eq m c t) cover6

end Cert.KernelIdeal.Final

end
-- ==== Proof.RefTail.lean ====
/-
  The two losses as functions of the six gathered row blocks.

  With g, p, n the pooled rows of the users, the positive items and the negative items, the ranking loss is the mean
  over the batch of log(1 + Σ exp(⟨g, n⟩ - ⟨g, p⟩)); with hg, hp, hn the hop-0 rows, the regulariser is
  1e-4 · (‖hg‖² + ‖hp‖² + ‖hn‖²) / 2 / 4096. Both programs end with exactly these operations on their six blocks.
-/
import proofs.«160151_j45664092291172_1_alg».proof.ReferenceIdeal
import Idealize.ShloMosaic.PureOps.Ideal

noncomputable section

namespace Cert.ReferenceIdeal.Tail

open Cert.ReferenceIdeal Idealize.ShloMosaic
open Facts₀ Facts

variable [Facts]

/-- The ranking loss of the pooled rows. -/
def lossMF (g p : FVec Ideal S4096x64 .f32) (n : FVec Ideal S4096x1x64 .f32) : FVec Ideal S_ .f32 :=
  Host.divf (Host.reduceAdd (Host.log1p (Host.reduceAdd (Host.exp (subf (Host.reduceAdd (mulf (broadcastInDim S4096x1x64 ![0, 2] bcast_S4096x64_S4096x1x64_0_2 g) n) (constant S_ .f32 0x00000000#32) reducesTo_S4096x1x64_S4096x1_d2 h_S_) (broadcastInDim S4096x1 ![0] bcast_S4096_S4096x1_0 (Host.reduceAdd (mulf g p) (constant S_ .f32 0x00000000#32) reducesTo_S4096x64_S4096_d1 h_S_)))) (constant S_ .f32 0x00000000#32) reducesTo_S4096x1_S4096_d1 h_S_)) (constant S_ .f32 0x00000000#32) reducesTo_S4096_S_d0 h_S_) (constant S_ .f32 0x45800000#32)

/-- The regulariser of the hop-0 rows. -/
def lossEmb (hg hp : FVec Ideal S4096x64 .f32) (hn : FVec Ideal S4096x1x64 .f32) : FVec Ideal S_ .f32 :=
  Host.divf (mulf (constant S_ .f32 0x38D1B717#32) (Host.divf (addf (addf (Host.reduceAdd (mulf hg hg) (constant S_ .f32 0x00000000#32) reducesTo_S4096x64_S_d0_1 h_S_) (Host.reduceAdd (mulf hp hp) (constant S_ .f32 0x00000000#32) reducesTo_S4096x64_S_d0_1 h_S_)) (Host.reduceAdd (mulf hn hn) (constant S_ .f32 0x00000000#32) reducesTo_S4096x1x64_S_d0_1_2 h_S_)) (constant S_ .f32 0x40000000#32))) (constant S_ .f32 0x45800000#32)

/-- One propagation hop: gather the source rows of an all-nodes array, scale each by its edge value, and add it into
    its destination row, from zero. -/
def hop (val : FVec Ideal S1600000 .f32) (rows cols : IVec S1600000 32) (A : FVec Ideal S100000x64 .f32) :
    FVec Ideal S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 rows) (mulf (broadcastInDim S1600000x64 ![0, 1] bcast_S1600000x1_S1600000x64_0_1 (broadcastInDim S1600000x1 ![0] bcast_S1600000_S1600000x1_0 val)) (Host.gather gather_S100000x64_S1600000x1_S1600000x64_1_0_n_n_0_1_164 A (broadcastInDim S1600000x1 ![0] bcast_S1600000_S1600000x1_0 (select (cmpi .slt cols (broadcastInDim S1600000 ![] bcast_S_S1600000 (constantI S_ 32 0#32))) (addi cols (broadcastInDim S1600000 ![] bcast_S_S1600000 (constantI S_ 32 100000#32))) cols))))

/-- Gene rows followed by drug rows. -/
def cat64 (a : FVec Ideal S60000x64 .f32) (d : FVec Ideal S40000x64 .f32) : FVec Ideal S100000x64 .f32 :=
  concatenate S100000x64 0 [⟨S60000x64, a⟩, ⟨S40000x64, d⟩] concatenates_S60000x64_S40000x64_S100000x64_d0

end Cert.ReferenceIdeal.Tail

end
-- ==== Proof.KIHops.lean ====
/-
  The five arrays the region reads, as functions of the launch memory: the concatenated embeddings, the concatenated
  node times, and one, two and three propagation hops of the embeddings.
-/
import proofs.«160151_j45664092291172_1_alg».proof.Proof.Gen.KernelIdeal.Launch
import proofs.«160151_j45664092291172_1_alg».proof.Proof.Gen.ReferenceIdeal
import proofs.«160151_j45664092291172_1_alg».proof.Proof.RefTail
import Idealize.ShloMosaic.Lib.StableHlo.Run

noncomputable section

namespace Cert.KernelIdeal.Hops

open Idealize.ShloMosaic Idealize.ShloMosaic.TcCoe Idealize.ShloMosaic.StableHlo Idealize.SL.Sem
open Cert.KernelIdeal Cert.KernelIdeal.Gen
open Cert.ReferenceIdeal.Tail (hop cat64)

/-- Gene times followed by drug times. -/
def cat1 (tg : FVec Ideal S60000x1 .f32) (td : FVec Ideal S40000x1 .f32) : FVec Ideal S100000x1 .f32 :=
  concatenate S100000x1 0 [⟨S60000x1, tg⟩, ⟨S40000x1, td⟩] concatenates_S60000x1_S40000x1_S100000x1_d0

variable (W : Valuation τ sig (Elt Ideal))

set_option maxRecDepth 16384 in
theorem entry_v0 : StableHlo.after (hostOps0 (F := Ideal)) W (no_index (Proc.devRef .tc main_v0))
    = cat64 (W (Proc.devRef .tc main_arg0)) (W (Proc.devRef .tc main_arg1)) := by
  simp only [hostOps0]
  after_results_simp
  rfl

set_option maxRecDepth 16384 in
theorem entry_v1 : StableHlo.after (hostOps0 (F := Ideal)) W (no_index (Proc.devRef .tc main_v1))
    = cat1 (W (Proc.devRef .tc main_arg2)) (W (Proc.devRef .tc main_arg3)) := by
  simp only [hostOps0]
  after_results_simp
  rfl

set_option maxRecDepth 16384 in
set_option maxHeartbeats 2000000 in
theorem entry_v14 : StableHlo.after (hostOps0 (F := Ideal)) W (no_index (Proc.devRef .tc main_v14))
    = hop (W (Proc.devRef .tc main_arg4)) (W (Proc.devRef .tc main_arg5)) (W (Proc.devRef .tc main_arg6))
        (cat64 (W (Proc.devRef .tc main_arg0)) (W (Proc.devRef .tc main_arg1))) := by
  simp only [hostOps0]
  after_results_simp
  rfl

set_option maxRecDepth 16384 in
set_option maxHeartbeats 2000000 in
theorem entry_v27 : StableHlo.after (hostOps0 (F := Ideal)) W (no_index (Proc.devRef .tc main_v27))
    = hop (W (Proc.devRef .tc main_arg4)) (W (Proc.devRef .tc main_arg5)) (W (Proc.devRef .tc main_arg6))
        (hop (W (Proc.devRef .tc main_arg4)) (W (Proc.devRef .tc main_arg5)) (W (Proc.devRef .tc main_arg6))
          (cat64 (W (Proc.devRef .tc main_arg0)) (W (Proc.devRef .tc main_arg1)))) := by
  simp only [hostOps0]
  after_results_simp
  rfl

set_option maxRecDepth 16384 in
set_option maxHeartbeats 2000000 in
theorem entry_v40 : StableHlo.after (hostOps0 (F := Ideal)) W (no_index (Proc.devRef .tc main_v40))
    = hop (W (Proc.devRef .tc main_arg4)) (W (Proc.devRef .tc main_arg5)) (W (Proc.devRef .tc main_arg6))
        (hop (W (Proc.devRef .tc main_arg4)) (W (Proc.devRef .tc main_arg5)) (W (Proc.devRef .tc main_arg6))
          (hop (W (Proc.devRef .tc main_arg4)) (W (Proc.devRef .tc main_arg5)) (W (Proc.devRef .tc main_arg6))
            (cat64 (W (Proc.devRef .tc main_arg0)) (W (Proc.devRef .tc main_arg1))))) := by
  simp only [hostOps0]
  after_results_simp
  rfl

end Cert.KernelIdeal.Hops

end
-- ==== Proof.KITail.lean ====
/-
  The ninety-three operations after the region, read as two losses of six gathered row blocks.

  From the pooled-mean array M the program takes the gene rows [0, 60000) and the drug rows [60000, 100000), and gathers
  the rows the user, positive-item and negative-item tables name (each start index wrapped when negative, then read
  signed and clamped); the ranking loss is computed from these three blocks. The same three gathers of the hop-0 array
  feed the regulariser, and the total is their sum.
-/
import proofs.«160151_j45664092291172_1_alg».proof.Proof.Gen.KernelIdeal.Launch
import proofs.«160151_j45664092291172_1_alg».proof.Proof.Gen.ReferenceIdeal
import proofs.«160151_j45664092291172_1_alg».proof.Proof.RefTail
import Idealize.ShloMosaic.Lib.StableHlo.Run

noncomputable section

namespace Cert.KernelIdeal.Tail

open Idealize.ShloMosaic Idealize.ShloMosaic.TcCoe Idealize.ShloMosaic.StableHlo Idealize.SL.Sem
open Cert.KernelIdeal Cert.KernelIdeal.Gen

/-- The user table as a column of start indices, negative entries wrapped by 60000. -/
def I7 (a7 : IVec S4096 32) : IVec S4096x1 32 :=
  broadcastInDim S4096x1 ![0] bcast_S4096_S4096x1_0
    (select (cmpi CmpIPredicate.slt a7 (broadcastInDim S4096 ![] bcast_S_S4096 (constantI S_ 32 0#32)))
      (addi a7 (broadcastInDim S4096 ![] bcast_S_S4096 (constantI S_ 32 60000#32))) a7)

/-- The positive-item table as a column of start indices, negative entries wrapped by 40000. -/
def I8 (a8 : IVec S4096 32) : IVec S4096x1 32 :=
  broadcastInDim S4096x1 ![0] bcast_S4096_S4096x1_0
    (select (cmpi CmpIPredicate.slt a8 (broadcastInDim S4096 ![] bcast_S_S4096 (constantI S_ 32 0#32)))
      (addi a8 (broadcastInDim S4096 ![] bcast_S_S4096 (constantI S_ 32 40000#32))) a8)

/-- The negative-item table [4096, 1] as a [4096, 1, 1] array of start indices, negative entries wrapped by 40000. -/
def I9 (a9 : IVec S4096x1 32) : IVec S4096x1x1 32 :=
  broadcastInDim S4096x1x1 ![0, 1] bcast_S4096x1_S4096x1x1_0_1
    (select (cmpi CmpIPredicate.slt a9 (broadcastInDim S4096x1 ![] bcast_S_S4096x1 (constantI S_ 32 0#32)))
      (addi a9 (broadcastInDim S4096x1 ![] bcast_S_S4096x1 (constantI S_ 32 40000#32))) a9)

/-- The gene rows of an all-nodes array that the user table names. -/
def rowsG (M : FVec Ideal S100000x64 .f32) (a7 : IVec S4096 32) : FVec Ideal S4096x64 .f32 :=
  Host.gather gather_S60000x64_S4096x1_S4096x64_1_0_n_n_0_1_164
    (extractStridedSlice S60000x64 ![0, 0] M slices_S100000x64_S60000x64_0_0) (I7 a7)

/-- The drug rows that the positive-item table names. -/
def rowsP (M : FVec Ideal S100000x64 .f32) (a8 : IVec S4096 32) : FVec Ideal S4096x64 .f32 :=
  Host.gather gather_S40000x64_S4096x1_S4096x64_1_0_n_n_0_1_164
    (extractStridedSlice S40000x64 ![60000, 0] M slices_S100000x64_S40000x64_60000_0) (I8 a8)

/-- The drug rows that the negative-item table names. -/
def rowsN (M : FVec Ideal S100000x64 .f32) (a9 : IVec S4096x1 32) : FVec Ideal S4096x1x64 .f32 :=
  Host.gather gather_S40000x64_S4096x1x1_S4096x1x64_2_0_n_n_0_2_164
    (extractStridedSlice S40000x64 ![60000, 0] M slices_S100000x64_S40000x64_60000_0) (I9 a9)

variable (W : Valuation τ sig (Elt Ideal))

set_option maxRecDepth 16384 in
set_option maxHeartbeats 2000000 in
/-- The ranking loss, from the pooled-mean array and the three tables. -/
theorem tail_v78 : StableHlo.after (hostOps1 (F := Ideal)) W (no_index (Proc.devRef .tc main_v78))
    = Cert.ReferenceIdeal.Tail.lossMF (rowsG (W (Proc.devRef .tc main_v41_0)) (W (Proc.devRef .tc main_arg7)))
        (rowsP (W (Proc.devRef .tc main_v41_0)) (W (Proc.devRef .tc main_arg8)))
        (rowsN (W (Proc.devRef .tc main_v41_0)) (W (Proc.devRef .tc main_arg9))) := by
  simp only [hostOps1]
  after_results_simp
  rfl

set_option maxRecDepth 16384 in
set_option maxHeartbeats 2000000 in
/-- The regulariser, from the hop-0 array and the three tables. -/
theorem tail_v110 : StableHlo.after (hostOps1 (F := Ideal)) W (no_index (Proc.devRef .tc main_v110))
    = Cert.ReferenceIdeal.Tail.lossEmb (rowsG (W (Proc.devRef .tc main_v41_1)) (W (Proc.devRef .tc main_arg7)))
        (rowsP (W (Proc.devRef .tc main_v41_1)) (W (Proc.devRef .tc main_arg8)))
        (rowsN (W (Proc.devRef .tc main_v41_1)) (W (Proc.devRef .tc main_arg9))) := by
  simp only [hostOps1]
  after_results_simp
  rfl

set_option maxRecDepth 16384 in
set_option maxHeartbeats 2000000 in
/-- The total, their sum. -/
theorem tail_v111 : StableHlo.after (hostOps1 (F := Ideal)) W (no_index (Proc.devRef .tc main_v111))
    = addf (Cert.ReferenceIdeal.Tail.lossMF (rowsG (W (Proc.devRef .tc main_v41_0)) (W (Proc.devRef .tc main_arg7)))
        (rowsP (W (Proc.devRef .tc main_v41_0)) (W (Proc.devRef .tc main_arg8)))
        (rowsN (W (Proc.devRef .tc main_v41_0)) (W (Proc.devRef .tc main_arg9))))
      (Cert.ReferenceIdeal.Tail.lossEmb (rowsG (W (Proc.devRef .tc main_v41_1)) (W (Proc.devRef .tc main_arg7)))
        (rowsP (W (Proc.devRef .tc main_v41_1)) (W (Proc.devRef .tc main_arg8)))
        (rowsN (W (Proc.devRef .tc main_v41_1)) (W (Proc.devRef .tc main_arg9)))) := by
  simp only [hostOps1]
  after_results_simp
  rfl

end Cert.KernelIdeal.Tail

end
-- ==== Proof.KIValue.lean ====
/-
  The idealized kernel program's run with its three results named.

  The pooled-mean and hop-0 arrays end as the mean and hop-0 row functions of the concatenated embeddings, their three
  propagation hops and the concatenated node times; the operations after the region turn them into the ranking loss, the
  regulariser and their sum, and leave the ten argument arrays as launched.
-/
import proofs.«160151_j45664092291172_1_alg».proof.Proof.KIFrame
import proofs.«160151_j45664092291172_1_alg».proof.Proof.KIFinal
import proofs.«160151_j45664092291172_1_alg».proof.Proof.KIHops
import proofs.«160151_j45664092291172_1_alg».proof.Proof.KITail

set_option maxRecDepth 16384

noncomputable section

namespace Cert.KernelIdeal.HandValue

open Idealize.ShloMosaic Idealize.ShloMosaic.TcCoe Idealize.ShloMosaic.ValueIdx Idealize.ShloMosaic.StableHlo
open Idealize.SL.Sem
open Idealize.ShloMosaic.Pipeline (Dat Cfg Window)
open Cert.KernelIdeal Cert.KernelIdeal.Gen Cert.KernelIdeal.Hand
open Cert.ReferenceIdeal.Tail (hop cat64 lossMF lossEmb)
open Cert.KernelIdeal.Hops (cat1)
open Cert.KernelIdeal.Final (Gmean Ghop0)
open Cert.KernelIdeal.Tail (rowsG rowsP rowsN)

variable (m : (ℓ : Loc nD τ sig) → Buf (Elt Ideal) ℓ) (ρ : Dev nD → PrngReg)

/-- The embeddings over all nodes, from the launch memory of core c. -/
def E0 (c : Dev nD) : FVec Ideal S100000x64 .f32 :=
  cat64 (m ((c : Thread nD τ).loc main_arg0)) (m ((c : Thread nD τ).loc main_arg1))
/-- One propagation hop with the launch memory's edge values and tables. -/
def hopm (c : Dev nD) (A : FVec Ideal S100000x64 .f32) : FVec Ideal S100000x64 .f32 :=
  hop (m ((c : Thread nD τ).loc main_arg4)) (m ((c : Thread nD τ).loc main_arg5)) (m ((c : Thread nD τ).loc main_arg6)) A
/-- The node times over all nodes. -/
def T0 (c : Dev nD) : FVec Ideal S100000x1 .f32 :=
  cat1 (m ((c : Thread nD τ).loc main_arg2)) (m ((c : Thread nD τ).loc main_arg3))

/-- The pooled mean over all nodes, from the launch memory. -/
def Mmean (c : Dev nD) : FVec Ideal S100000x64 .f32 :=
  Gmean (E0 m c) (hopm m c (E0 m c)) (hopm m c (hopm m c (E0 m c))) (hopm m c (hopm m c (hopm m c (E0 m c)))) (T0 m c)
/-- The weighted hop 0 over all nodes, from the launch memory. -/
def Mhop0 (c : Dev nD) : FVec Ideal S100000x64 .f32 := Ghop0 (E0 m c) (T0 m c)

/-- The region's five input arrays as it finds them. -/
theorem entry0 (c : Dev nD) : V m c (Pipeline.arrRef spec0 0) = E0 m c := by
  show StableHlo.after (List.flatten [hostOps0]) (fun b => m (c, b)) (Proc.devRef .tc main_v0) = _
  simp only [List.flatten_cons, List.flatten_nil, List.append_nil]
  exact Cert.KernelIdeal.Hops.entry_v0 _
theorem entry1 (c : Dev nD) : V m c (Pipeline.arrRef spec0 1) = hopm m c (E0 m c) := by
  show StableHlo.after (List.flatten [hostOps0]) (fun b => m (c, b)) (Proc.devRef .tc main_v14) = _
  simp only [List.flatten_cons, List.flatten_nil, List.append_nil]
  exact Cert.KernelIdeal.Hops.entry_v14 _
theorem entry2 (c : Dev nD) : V m c (Pipeline.arrRef spec0 2) = hopm m c (hopm m c (E0 m c)) := by
  show StableHlo.after (List.flatten [hostOps0]) (fun b => m (c, b)) (Proc.devRef .tc main_v27) = _
  simp only [List.flatten_cons, List.flatten_nil, List.append_nil]
  exact Cert.KernelIdeal.Hops.entry_v27 _
theorem entry3 (c : Dev nD) : V m c (Pipeline.arrRef spec0 3) = hopm m c (hopm m c (hopm m c (E0 m c))) := by
  show StableHlo.after (List.flatten [hostOps0]) (fun b => m (c, b)) (Proc.devRef .tc main_v40) = _
  simp only [List.flatten_cons, List.flatten_nil, List.append_nil]
  exact Cert.KernelIdeal.Hops.entry_v40 _
theorem entry4 (c : Dev nD) : V m c (Pipeline.arrRef spec0 4) = T0 m c := by
  show StableHlo.after (List.flatten [hostOps0]) (fun b => m (c, b)) (Proc.devRef .tc main_v1) = _
  simp only [List.flatten_cons, List.flatten_nil, List.append_nil]
  exact Cert.KernelIdeal.Hops.entry_v1 _

/-- The two result arrays of the region after the run. -/
theorem mean_arr (c : Dev nD) : (dats m 0 c).arrAt 5 cfg0.N = Mmean m c := by
  rw [Cert.KernelIdeal.Final.final5, entry0, entry1, entry2, entry3, entry4]
  rfl
theorem hop0_arr (c : Dev nD) : (dats m 0 c).arrAt 6 cfg0.N = Mhop0 m c := by
  rw [Cert.KernelIdeal.Final.final6, entry0, entry4]
  rfl

/-- The memory the operations after the region start from: the region's arrays as written back, the rest as found. -/
abbrev Wtail (c : Dev nD) : Valuation τ sig (Elt Ideal) :=
  Pipeline.withArrays spec0 c (V0 m c) fun w => (dats m 0 c).arrAt w cfg0.N

theorem W_mean (c : Dev nD) : Wtail m c (Proc.devRef .tc main_v41_0) = Mmean m c :=
  (Pipeline.withArrays_arr spec0 launch0.win.arr_inj c _ _ 5).trans (mean_arr m c)
theorem W_hop0 (c : Dev nD) : Wtail m c (Proc.devRef .tc main_v41_1) = Mhop0 m c :=
  (Pipeline.withArrays_arr spec0 launch0.win.arr_inj c _ _ 6).trans (hop0_arr m c)
theorem W_arg (c : Dev nD) (r : Ref sig .tc) (hw : ∀ w, Pipeline.arrRef spec0 w ≠ r) (h0 : r ∉ hostOps0_W) :
    Wtail m c (Proc.devRef .tc r) = m ((c : Thread nD τ).loc r) :=
  (Pipeline.withArrays_of_ne _ c (V0 m c) _ r hw).trans (V_keep m c r h0)

/-- The three results. -/
def outMF (c : Dev nD) : FVec Ideal S_ .f32 :=
  lossMF (rowsG (Mmean m c) (m ((c : Thread nD τ).loc main_arg7))) (rowsP (Mmean m c) (m ((c : Thread nD τ).loc main_arg8)))
    (rowsN (Mmean m c) (m ((c : Thread nD τ).loc main_arg9)))
def outEmb (c : Dev nD) : FVec Ideal S_ .f32 :=
  lossEmb (rowsG (Mhop0 m c) (m ((c : Thread nD τ).loc main_arg7))) (rowsP (Mhop0 m c) (m ((c : Thread nD τ).loc main_arg8)))
    (rowsN (Mhop0 m c) (m ((c : Thread nD τ).loc main_arg9)))

theorem tail78 (c : Dev nD) :
    Pipeline.afterTail₀ cfgs (dats m) 0 (V0 m) [hostOps1] c main_v78 = outMF m c := by
  unfold Pipeline.afterTail₀
  simp only [List.flatten_cons, List.flatten_nil, List.append_nil]
  refine (Cert.KernelIdeal.Tail.tail_v78 (Wtail m c)).trans ?_
  rw [W_mean, W_arg m c main_arg7 (by decide) (by decide), W_arg m c main_arg8 (by decide) (by decide),
    W_arg m c main_arg9 (by decide) (by decide)]
  rfl

theorem tail110 (c : Dev nD) :
    Pipeline.afterTail₀ cfgs (dats m) 0 (V0 m) [hostOps1] c main_v110 = outEmb m c := by
  unfold Pipeline.afterTail₀
  simp only [List.flatten_cons, List.flatten_nil, List.append_nil]
  refine (Cert.KernelIdeal.Tail.tail_v110 (Wtail m c)).trans ?_
  rw [W_hop0, W_arg m c main_arg7 (by decide) (by decide), W_arg m c main_arg8 (by decide) (by decide),
    W_arg m c main_arg9 (by decide) (by decide)]
  rfl

theorem tail111 (c : Dev nD) :
    Pipeline.afterTail₀ cfgs (dats m) 0 (V0 m) [hostOps1] c main_v111 = addf (outMF m c) (outEmb m c) := by
  unfold Pipeline.afterTail₀
  simp only [List.flatten_cons, List.flatten_nil, List.append_nil]
  refine (Cert.KernelIdeal.Tail.tail_v111 (Wtail m c)).trans ?_
  rw [W_mean, W_hop0, W_arg m c main_arg7 (by decide) (by decide), W_arg m c main_arg8 (by decide) (by decide),
    W_arg m c main_arg9 (by decide) (by decide)]
  rfl

/-- The run: the three results at their closed forms, the ten arguments as launched. -/
theorem run : θ_run defs (onTc (τ := τ) (main (F := Ideal))) ⟨m, fun _ => 0, ρ⟩ (fun r => ∀ c : Dev nD,
      r.2.mem ((c.tc : Thread nD τ).loc main_v111) = addf (outMF m c) (outEmb m c)
      ∧ r.2.mem ((c.tc : Thread nD τ).loc main_v78) = outMF m c
      ∧ r.2.mem ((c.tc : Thread nD τ).loc main_v110) = outEmb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_v111 (Pipeline.mem_restRefs_of main_v111 (by decide) (by decide))).trans (tail111 m c),
    ((h c).2 main_v78 (Pipeline.mem_restRefs_of main_v78 (by decide) (by decide))).trans (tail78 m c),
    ((h c).2 main_v110 (Pipeline.mem_restRefs_of main_v110 (by decide) (by decide))).trans (tail110 m c),
    ((h c).2 main_arg0 (Pipeline.mem_restRefs_of main_arg0 (by decide) (by decide))).trans (W_keep m (dats m) c main_arg0 (by decide) (by decide) (by decide)),
    ((h c).2 main_arg1 (Pipeline.mem_restRefs_of main_arg1 (by decide) (by decide))).trans (W_keep m (dats m) c main_arg1 (by decide) (by decide) (by decide)),
    ((h c).2 main_arg2 (Pipeline.mem_restRefs_of main_arg2 (by decide) (by decide))).trans (W_keep m (dats m) c main_arg2 (by decide) (by decide) (by decide)),
    ((h c).2 main_arg3 (Pipeline.mem_restRefs_of main_arg3 (by decide) (by decide))).trans (W_keep m (dats m) c main_arg3 (by decide) (by decide) (by decide)),
    ((h c).2 main_arg4 (Pipeline.mem_restRefs_of main_arg4 (by decide) (by decide))).trans (W_keep m (dats m) c main_arg4 (by decide) (by decide) (by decide)),
    ((h c).2 main_arg5 (Pipeline.mem_restRefs_of main_arg5 (by decide) (by decide))).trans (W_keep m (dats m) c main_arg5 (by decide) (by decide) (by decide)),
    ((h c).2 main_arg6 (Pipeline.mem_restRefs_of main_arg6 (by decide) (by decide))).trans (W_keep m (dats m) c main_arg6 (by decide) (by decide) (by decide)),
    ((h c).2 main_arg7 (Pipeline.mem_restRefs_of main_arg7 (by decide) (by decide))).trans (W_keep m (dats m) c main_arg7 (by decide) (by decide) (by decide)),
    ((h c).2 main_arg8 (Pipeline.mem_restRefs_of main_arg8 (by decide) (by decide))).trans (W_keep m (dats m) c main_arg8 (by decide) (by decide) (by decide)),
    ((h c).2 main_arg9 (Pipeline.mem_restRefs_of main_arg9 (by decide) (by decide))).trans (W_keep m (dats m) c main_arg9 (by decide) (by decide) (by decide))⟩)
    (run_main (F := Ideal) m ρ)

end Cert.KernelIdeal.HandValue

end
-- ==== Proof.LibRefLayout.lean ====
/-
  Layout operations of small rank read at an index built from literal coordinates:
    • two matrices joined along their rows: a row of the first, a row of the second;
    • four arrays `[N, 1, K]` joined along the middle axis: entry `(r, k, j)` is piece `k` at `(r, 0, j)`;
    • a matrix `[N, K]` given a unit middle axis by `broadcast_in_dim` with dims `[0, 2]`;
    • a rank-3 array cut along its leading axis;
    • an `[a, 1, 1, b]` array cast to `[a, 1, b]`;
    • a float sum over the middle axis of `[R, A, K]`, and over axis 2 of `[R, C, A, K]`, as an initial value plus a
      sum over that axis's coordinates.
-/
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.ValueIdx

namespace RefIdx

variable {α : Type}

/-! ## Two matrices joined along their rows -/

/-- Row `r` of the join, for `r` below the first matrix's height, is row `r` of the first matrix. -/
theorem concat_rows_left {n1 n2 N K : Nat} (x1 : (⟨2, ![n1, K]⟩ : Shape).Idx → α) (x2 : (⟨2, ![n2, K]⟩ : Shape).Idx → α)
    (h : Shape.Concatenates [⟨2, ![n1, K]⟩, ⟨2, ![n2, K]⟩] ⟨2, ![N, K]⟩ 0) (r : Fin n1) (j : Fin K) (hr : r.val < N) :
    concatenate ⟨2, ![N, K]⟩ 0 [⟨⟨2, ![n1, K]⟩, x1⟩, ⟨⟨2, ![n2, K]⟩, x2⟩] h (ix2 (⟨r.val, hr⟩ : Fin N) j) = x1 (ix2 r j) :=
  concatenate_pair_apply_left 0 x1 x2 h _ rfl (ix2 r j) (fun b => by
    match b with
    | ⟨0, _⟩ => rfl
    | ⟨1, _⟩ => rfl)

/-- Row `n1 + r` of the join is row `r` of the second matrix. -/
theorem concat_rows_right {n1 n2 N K : Nat} (x1 : (⟨2, ![n1, K]⟩ : Shape).Idx → α) (x2 : (⟨2, ![n2, K]⟩ : Shape).Idx → α)
    (h : Shape.Concatenates [⟨2, ![n1, K]⟩, ⟨2, ![n2, K]⟩] ⟨2, ![N, K]⟩ 0) (r : Fin n2) (j : Fin K) (hr : n1 + r.val < N) :
    concatenate ⟨2, ![N, K]⟩ 0 [⟨⟨2, ![n1, K]⟩, x1⟩, ⟨⟨2, ![n2, K]⟩, x2⟩] h (ix2 (⟨n1 + r.val, hr⟩ : Fin N) j) = x2 (ix2 r j) :=
  concatenate_pair_apply_right 0 x1 x2 h _ rfl rfl (ix2 r j) (fun b hb => by
    match b, hb with
    | ⟨0, _⟩, hb => exact absurd rfl hb
    | ⟨1, _⟩, _ => rfl) (by show r.val + n1 = n1 + r.val; omega)

/-! ## Four arrays with a unit middle axis joined along it -/

/-- Entry `(r, k, j)` of the join of four `[N, 1, K]` arrays along the middle axis is piece `k` at `(r, 0, j)`. -/
theorem concat4_mid_apply {N K : Nat} (p : Fin 4 → ((⟨3, ![N, 1, K]⟩ : Shape).Idx → α))
    (h : Shape.Concatenates [⟨3, ![N, 1, K]⟩, ⟨3, ![N, 1, K]⟩, ⟨3, ![N, 1, K]⟩, ⟨3, ![N, 1, K]⟩] ⟨3, ![N, 4, K]⟩ 1)
    (r : Fin N) (k : Fin 4) (j : Fin K) :
    concatenate ⟨3, ![N, 4, K]⟩ 1 [⟨⟨3, ![N, 1, K]⟩, p 0⟩, ⟨⟨3, ![N, 1, K]⟩, p 1⟩, ⟨⟨3, ![N, 1, K]⟩, p 2⟩, ⟨⟨3, ![N, 1, K]⟩, p 3⟩] h
      (ix3 r k j) = p k (ix3 r (0 : Fin 1) j) :=
  concatenate_ofFn_apply 1 p h rfl 1 rfl (ix3 r k j) k (Nat.div_one _) (ix3 r (0 : Fin 1) j)
    (by show 0 = k.val % 1; omega) (fun b hb => by
      match b, hb with
      | ⟨0, _⟩, _ => rfl
      | ⟨1, _⟩, hb => exact absurd rfl hb
      | ⟨2, _⟩, _ => rfl)

variable {N K : Nat} (x0 x1 x2 x3 : (⟨3, ![N, 1, K]⟩ : Shape).Idx → α)
  (h : Shape.Concatenates [⟨3, ![N, 1, K]⟩, ⟨3, ![N, 1, K]⟩, ⟨3, ![N, 1, K]⟩, ⟨3, ![N, 1, K]⟩] ⟨3, ![N, 4, K]⟩ 1)

/-- Middle coordinate 0 reads the first piece. -/
theorem concat4_mid_0 (r : Fin N) (j : Fin K) :
    concatenate ⟨3, ![N, 4, K]⟩ 1 [⟨⟨3, ![N, 1, K]⟩, x0⟩, ⟨⟨3, ![N, 1, K]⟩, x1⟩, ⟨⟨3, ![N, 1, K]⟩, x2⟩, ⟨⟨3, ![N, 1, K]⟩, x3⟩] h
      (ix3 r (0 : Fin 4) j) = x0 (ix3 r (0 : Fin 1) j) :=
  concat4_mid_apply ![x0, x1, x2, x3] h r 0 j

/-- Middle coordinate 1 reads the second piece. -/
theorem concat4_mid_1 (r : Fin N) (j : Fin K) :
    concatenate ⟨3, ![N, 4, K]⟩ 1 [⟨⟨3, ![N, 1, K]⟩, x0⟩, ⟨⟨3, ![N, 1, K]⟩, x1⟩, ⟨⟨3, ![N, 1, K]⟩, x2⟩, ⟨⟨3, ![N, 1, K]⟩, x3⟩] h
      (ix3 r (1 : Fin 4) j) = x1 (ix3 r (0 : Fin 1) j) :=
  concat4_mid_apply ![x0, x1, x2, x3] h r 1 j

/-- Middle coordinate 2 reads the third piece. -/
theorem concat4_mid_2 (r : Fin N) (j : Fin K) :
    concatenate ⟨3, ![N, 4, K]⟩ 1 [⟨⟨3, ![N, 1, K]⟩, x0⟩, ⟨⟨3, ![N, 1, K]⟩, x1⟩, ⟨⟨3, ![N, 1, K]⟩, x2⟩, ⟨⟨3, ![N, 1, K]⟩, x3⟩] h
      (ix3 r (2 : Fin 4) j) = x2 (ix3 r (0 : Fin 1) j) :=
  concat4_mid_apply ![x0, x1, x2, x3] h r 2 j

/-- Middle coordinate 3 reads the fourth piece. -/
theorem concat4_mid_3 (r : Fin N) (j : Fin K) :
    concatenate ⟨3, ![N, 4, K]⟩ 1 [⟨⟨3, ![N, 1, K]⟩, x0⟩, ⟨⟨3, ![N, 1, K]⟩, x1⟩, ⟨⟨3, ![N, 1, K]⟩, x2⟩, ⟨⟨3, ![N, 1, K]⟩, x3⟩] h
      (ix3 r (3 : Fin 4) j) = x3 (ix3 r (0 : Fin 1) j) :=
  concat4_mid_apply ![x0, x1, x2, x3] h r 3 j

/-! ## A unit middle axis given to a matrix -/

/-- A matrix `[N, K]` spread to `[N, 1, K]` along dims `[0, 2]`: entry `(r, c, j)` is the matrix's `(r, j)`. -/
theorem bcast_mid_apply {N K : Nat} (x : (⟨2, ![N, K]⟩ : Shape).Idx → α)
    (h : (⟨2, ![N, K]⟩ : Shape).BroadcastsInDim ⟨3, ![N, 1, K]⟩ ![0, 2]) (r : Fin N) (c : Fin 1) (j : Fin K) :
    broadcastInDim ⟨3, ![N, 1, K]⟩ ![0, 2] h x (ix3 r c j) = x (ix2 r j) := by
  refine broadcastInDim_apply _ h x _ (ix2 r j) (fun a => ?_)
  match a with
  | ⟨0, _⟩ =>
    show r.val = if N = 1 then 0 else r.val
    split
    · have := r.isLt; omega
    · rfl
  | ⟨1, _⟩ =>
    show j.val = if K = 1 then 0 else j.val
    split
    · have := j.isLt; omega
    · rfl

/-! ## A rank-3 array cut along its leading axis -/

/-- A rank-3 array cut along axis 0 from `o` reads, at `(j, a, e)`, the source at `(k, a, e)` with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## Two unit axes cast to one -/

/-- An `[a, 1, 1, b]` array cast to `[a, 1, b]` reads, at `(i, c, j)`, the operand at `(i, 0, 0, j)`. -/
theorem shapeCast_a11b_a1b_apply {a b : ℕ} (x : (⟨4, ![a, 1, 1, b]⟩ : Shape).Idx → α)
    (h : (⟨4, ![a, 1, 1, b]⟩ : Shape).ShapeCasts ⟨3, ![a, 1, b]⟩) (i : Fin a) (c : Fin 1) (j : Fin b) :
    shapeCast ⟨3, ![a, 1, b]⟩ x h (ix3 i c j) = x (ix4 i (0 : Fin 1) (0 : Fin 1) j) := by
  obtain rfl : c = 0 := Subsingleton.elim _ _
  exact shapeCast_apply x h _ _ (by
    rw [Shape.rowMajor_val_four, Shape.rowMajor_val_three]
    show ((i.val * 1 + 0) * 1 + 0) * b + j.val = (i.val * 1 + 0) * b + j.val
    simp only [Nat.mul_one, Nat.add_zero])

/-! ## A float sum over one inner axis -/

/-- The host's sum over the middle axis of `[R, A, K]` at `(r, j)`: the initial value plus the sum over the middle
    coordinate. -/
theorem reduceAdd_mid_apply {R A K : Nat} {u : Shape} {φ : FTy} (x : FVec Ideal ⟨3, ![R, A, K]⟩ φ) (init : u.Idx → Ideal φ)
    (h' : (⟨3, ![R, A, K]⟩ : Shape).ReducesTo [1] ⟨2, ![R, K]⟩) (hu : 0 < u.numel) (r : Fin R) (j : Fin K) :
    Host.reduceAdd x init h' hu (ix2 r j) = init (Shape.Idx.first hu) + ∑ k : Fin A, x (ix3 r k j) := by
  have h : (⟨3, ![R, A, K]⟩ : Shape).Reduces [1] ⟨2, ![R, K]⟩ := ⟨h'.1, Nat.two_pos, h'.2⟩
  show Ideal.hostReduceAdd h' x _ (ix2 r j) = _
  rw [Ideal.hostReduceAdd_single h' h]
  refine congrArg (_ + ·) (Finset.sum_congr rfl fun k _ => ?_)
  refine congrArg x (funext fun a => Fin.ext ?_)
  match a with
  | ⟨0, _⟩ => rfl
  | ⟨1, _⟩ => rfl
  | ⟨2, _⟩ => rfl

/-- The host's sum over axis 2 of `[R, C, A, K]` at `(r, c, j)`: the initial value plus the sum over that coordinate. -/
theorem reduceAdd_axis2_apply {R C A K : Nat} {u : Shape} {φ : FTy} (x : FVec Ideal ⟨4, ![R, C, A, K]⟩ φ) (init : u.Idx → Ideal φ)
    (h' : (⟨4, ![R, C, A, K]⟩ : Shape).ReducesTo [2] ⟨3, ![R, C, K]⟩) (hu : 0 < u.numel) (r : Fin R) (c : Fin C) (j : Fin K) :
    Host.reduceAdd x init h' hu (ix3 r c j) = init (Shape.Idx.first hu) + ∑ k : Fin A, x (ix4 r c k j) := by
  have h : (⟨4, ![R, C, A, K]⟩ : Shape).Reduces [2] ⟨3, ![R, C, K]⟩ := ⟨h'.1, Nat.succ_pos _, h'.2⟩
  show Ideal.hostReduceAdd h' x _ (ix3 r c j) = _
  rw [Ideal.hostReduceAdd_single h' h]
  refine congrArg (_ + ·) (Finset.sum_congr rfl fun k _ => ?_)
  refine congrArg x (funext fun a => Fin.ext ?_)
  match a with
  | ⟨0, _⟩ => rfl
  | ⟨1, _⟩ => rfl
  | ⟨2, _⟩ => rfl
  | ⟨3, _⟩ => rfl

end RefIdx

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.RefV118.lean ====
/-
  The reference's stack of weighted hops read at a node.

  The stack has one row per node (60000 genes, then 40000 drugs), four hops per row and 64 features per hop. Hop 0
  of a node is its coefficient exp(-t)·1/1 times its own embedding entry; hop k ≥ 1 is the k-th aggregate's entry
  at that node times the coefficient exp(-t)·t^k/k!, the coefficient being a one-column array spread over the
  64 features. Each hop is a matrix over all nodes (the genes' rows joined with the drugs' rows) given a unit middle
  axis, and the four are joined along that axis.
-/
import proofs.«160151_j45664092291172_1_alg».proof.Proof.Gen.ReferenceIdeal.Run
import proofs.«160151_j45664092291172_1_alg».proof.Proof.HeatSpec
import proofs.«160151_j45664092291172_1_alg».proof.Proof.LibRefLayout
import proofs.«160151_j45664092291172_1_alg».proof.Proof.LibIndexNorm
import Idealize.ShloMosaic.Lib.ValueLayout
import Idealize.ShloMosaic.Lib.IdealHost

set_option maxRecDepth 8192

noncomputable section

namespace Cert.ReferenceIdeal.RefRows

open Cert.ReferenceIdeal Cert.ReferenceIdeal.Value Cert.ReferenceIdeal.Gen Idealize.ShloMosaic
open Idealize.ShloMosaic.ValueIdx Idealize.ShloMosaic.TcCoe Idealize.SL.Sem Idealize.ShloMosaic.StableHlo
open Facts₀ Facts

/-! ## The coefficient columns at a row -/

section Coef
variable {N : Nat} (t : FVec Ideal ⟨2, ![N, 1]⟩ .f32)
  (hb : (⟨0, ![]⟩ : Shape).BroadcastsInDim ⟨2, ![N, 1]⟩ ![])

/-- exp(-t)·1/1 at row r. -/
theorem coef0_col (r : Fin N) :
    Host.divf (mulf (Host.exp (Host.negf t)) (broadcastInDim ⟨2, ![N, 1]⟩ ![] hb (constant ⟨0, ![]⟩ .f32 0x3F800000#32)))
      (broadcastInDim ⟨2, ![N, 1]⟩ ![] hb (constant ⟨0, ![]⟩ .f32 0x3F800000#32)) (ix2 r (0 : Fin 1))
      = Heat.coef0R (t (ix2 r (0 : Fin 1))) := by
  rw [hostDivf_apply, mulf_apply, broadcastInDim_scalar_apply]
  rfl

/-- exp(-t)·t/1 at row r. -/
theorem coef1_col (r : Fin N) :
    Host.divf (mulf (Host.exp (Host.negf t)) t)
      (broadcastInDim ⟨2, ![N, 1]⟩ ![] hb (constant ⟨0, ![]⟩ .f32 0x3F800000#32)) (ix2 r (0 : Fin 1))
      = Heat.coef1R (t (ix2 r (0 : Fin 1))) := by
  rw [hostDivf_apply, mulf_apply, broadcastInDim_scalar_apply]
  rfl

/-- exp(-t)·t²/2 at row r. -/
theorem coef2_col (r : Fin N) :
    Host.divf (mulf (Host.exp (Host.negf t)) (mulf t t))
      (broadcastInDim ⟨2, ![N, 1]⟩ ![] hb (constant ⟨0, ![]⟩ .f32 0x40000000#32)) (ix2 r (0 : Fin 1))
      = Heat.coef2R (t (ix2 r (0 : Fin 1))) := by
  rw [hostDivf_apply, mulf_apply, broadcastInDim_scalar_apply]
  rfl

/-- exp(-t)·t³/6 at row r. -/
theorem coef3_col (r : Fin N) :
    Host.divf (mulf (Host.exp (Host.negf t)) (mulf (mulf t t) t))
      (broadcastInDim ⟨2, ![N, 1]⟩ ![] hb (constant ⟨0, ![]⟩ .f32 0x40C00000#32)) (ix2 r (0 : Fin 1))
      = Heat.coef3R (t (ix2 r (0 : Fin 1))) := by
  rw [hostDivf_apply, mulf_apply, broadcastInDim_scalar_apply]
  rfl

end Coef

variable (V0 : Valuation τ sig (Elt Ideal))

/-! ## A gene's four hops -/

/-- Hop 0 of gene r: its coefficient times its embedding entry. -/
theorem v118_gene0 (r : Fin 60000) (j : Fin 64) :
    res_main_v118 V0 (ix3 (Heat.geneNode r) (0 : Fin 4) j)
      = Heat.coef0R (V0 (Proc.devRef .tc main_arg2) (ix2 r (0 : Fin 1))) * V0 (Proc.devRef .tc main_arg0) (ix2 r j) := by
  unfold res_main_v118 Heat.geneNode
  refine (RefIdx.concat4_mid_0 _ _ _ _ _ _ _).trans ?_
  refine (RefIdx.bcast_mid_apply _ _ _ _ _).trans ?_
  refine (RefIdx.concat_rows_left _ _ _ r j _).trans ?_
  refine (mulf_apply _ _ _).trans ?_
  exact congrArg₂ (· * ·) ((Cert.Lib.IndexNorm.bcast_cols_apply _ _ r j).trans (coef0_col _ _ r)) rfl

/-- Hop 1 of gene r: the aggregate's entry at its node times its coefficient. -/
theorem v118_gene1 (r : Fin 60000) (j : Fin 64) :
    res_main_v118 V0 (ix3 (Heat.geneNode r) (1 : Fin 4) j)
      = @HMul.hMul EReal EReal EReal instHMul (res_main_v30 V0 (ix2 (Heat.geneNode r) j)) (Heat.coef1R (V0 (Proc.devRef .tc main_arg2) (ix2 r (0 : Fin 1)))) := by
  unfold res_main_v118 Heat.geneNode
  refine (RefIdx.concat4_mid_1 _ _ _ _ _ _ _).trans ?_
  refine (RefIdx.bcast_mid_apply _ _ _ _ _).trans ?_
  refine (RefIdx.concat_rows_left _ _ _ r j _).trans ?_
  refine (mulf_apply _ _ _).trans ?_
  exact congrArg₂ (· * ·) (slice2_axis0_apply 0 _ _ r j _ (Nat.zero_add _).symm)
    ((Cert.Lib.IndexNorm.bcast_cols_apply _ _ r j).trans (coef1_col _ _ r))

/-- Hop 2 of gene r: the aggregate's entry at its node times its coefficient. -/
theorem v118_gene2 (r : Fin 60000) (j : Fin 64) :
    res_main_v118 V0 (ix3 (Heat.geneNode r) (2 : Fin 4) j)
      = @HMul.hMul EReal EReal EReal instHMul (res_main_v60 V0 (ix2 (Heat.geneNode r) j)) (Heat.coef2R (V0 (Proc.devRef .tc main_arg2) (ix2 r (0 : Fin 1)))) := by
  unfold res_main_v118 Heat.geneNode
  refine (RefIdx.concat4_mid_2 _ _ _ _ _ _ _).trans ?_
  refine (RefIdx.bcast_mid_apply _ _ _ _ _).trans ?_
  refine (RefIdx.concat_rows_left _ _ _ r j _).trans ?_
  refine (mulf_apply _ _ _).trans ?_
  exact congrArg₂ (· * ·) (slice2_axis0_apply 0 _ _ r j _ (Nat.zero_add _).symm)
    ((Cert.Lib.IndexNorm.bcast_cols_apply _ _ r j).trans (coef2_col _ _ r))

/-- Hop 3 of gene r: the aggregate's entry at its node times its coefficient. -/
theorem v118_gene3 (r : Fin 60000) (j : Fin 64) :
    res_main_v118 V0 (ix3 (Heat.geneNode r) (3 : Fin 4) j)
      = @HMul.hMul EReal EReal EReal instHMul (res_main_v92 V0 (ix2 (Heat.geneNode r) j)) (Heat.coef3R (V0 (Proc.devRef .tc main_arg2) (ix2 r (0 : Fin 1)))) := by
  unfold res_main_v118 Heat.geneNode
  refine (RefIdx.concat4_mid_3 _ _ _ _ _ _ _).trans ?_
  refine (RefIdx.bcast_mid_apply _ _ _ _ _).trans ?_
  refine (RefIdx.concat_rows_left _ _ _ r j _).trans ?_
  refine (mulf_apply _ _ _).trans ?_
  exact congrArg₂ (· * ·) (slice2_axis0_apply 0 _ _ r j _ (Nat.zero_add _).symm)
    ((Cert.Lib.IndexNorm.bcast_cols_apply _ _ r j).trans (coef3_col _ _ r))

/-! ## A drug's four hops -/

/-- Hop 0 of drug r: its coefficient times its embedding entry. -/
theorem v118_drug0 (r : Fin 40000) (j : Fin 64) :
    res_main_v118 V0 (ix3 (Heat.drugNode r) (0 : Fin 4) j)
      = Heat.coef0R (V0 (Proc.devRef .tc main_arg3) (ix2 r (0 : Fin 1))) * V0 (Proc.devRef .tc main_arg1) (ix2 r j) := by
  unfold res_main_v118 Heat.drugNode
  refine (RefIdx.concat4_mid_0 _ _ _ _ _ _ _).trans ?_
  refine (RefIdx.bcast_mid_apply _ _ _ _ _).trans ?_
  refine (RefIdx.concat_rows_right _ _ _ r j _).trans ?_
  refine (mulf_apply _ _ _).trans ?_
  exact congrArg₂ (· * ·) ((Cert.Lib.IndexNorm.bcast_cols_apply _ _ r j).trans (coef0_col _ _ r)) rfl

/-- Hop 1 of drug r: the aggregate's entry at its node times its coefficient. -/
theorem v118_drug1 (r : Fin 40000) (j : Fin 64) :
    res_main_v118 V0 (ix3 (Heat.drugNode r) (1 : Fin 4) j)
      = @HMul.hMul EReal EReal EReal instHMul (res_main_v30 V0 (ix2 (Heat.drugNode r) j)) (Heat.coef1R (V0 (Proc.devRef .tc main_arg3) (ix2 r (0 : Fin 1)))) := by
  unfold res_main_v118 Heat.drugNode
  refine (RefIdx.concat4_mid_1 _ _ _ _ _ _ _).trans ?_
  refine (RefIdx.bcast_mid_apply _ _ _ _ _).trans ?_
  refine (RefIdx.concat_rows_right _ _ _ r j _).trans ?_
  refine (mulf_apply _ _ _).trans ?_
  exact congrArg₂ (· * ·) (slice2_axis0_apply 60000 _ _ r j _ rfl)
    ((Cert.Lib.IndexNorm.bcast_cols_apply _ _ r j).trans (coef1_col _ _ r))

/-- Hop 2 of drug r: the aggregate's entry at its node times its coefficient. -/
theorem v118_drug2 (r : Fin 40000) (j : Fin 64) :
    res_main_v118 V0 (ix3 (Heat.drugNode r) (2 : Fin 4) j)
      = @HMul.hMul EReal EReal EReal instHMul (res_main_v60 V0 (ix2 (Heat.drugNode r) j)) (Heat.coef2R (V0 (Proc.devRef .tc main_arg3) (ix2 r (0 : Fin 1)))) := by
  unfold res_main_v118 Heat.drugNode
  refine (RefIdx.concat4_mid_2 _ _ _ _ _ _ _).trans ?_
  refine (RefIdx.bcast_mid_apply _ _ _ _ _).trans ?_
  refine (RefIdx.concat_rows_right _ _ _ r j _).trans ?_
  refine (mulf_apply _ _ _).trans ?_
  exact congrArg₂ (· * ·) (slice2_axis0_apply 60000 _ _ r j _ rfl)
    ((Cert.Lib.IndexNorm.bcast_cols_apply _ _ r j).trans (coef2_col _ _ r))

/-- Hop 3 of drug r: the aggregate's entry at its node times its coefficient. -/
theorem v118_drug3 (r : Fin 40000) (j : Fin 64) :
    res_main_v118 V0 (ix3 (Heat.drugNode r) (3 : Fin 4) j)
      = @HMul.hMul EReal EReal EReal instHMul (res_main_v92 V0 (ix2 (Heat.drugNode r) j)) (Heat.coef3R (V0 (Proc.devRef .tc main_arg3) (ix2 r (0 : Fin 1)))) := by
  unfold res_main_v118 Heat.drugNode
  refine (RefIdx.concat4_mid_3 _ _ _ _ _ _ _).trans ?_
  refine (RefIdx.bcast_mid_apply _ _ _ _ _).trans ?_
  refine (RefIdx.concat_rows_right _ _ _ r j _).trans ?_
  refine (mulf_apply _ _ _).trans ?_
  exact congrArg₂ (· * ·) (slice2_axis0_apply 60000 _ _ r j _ rfl)
    ((Cert.Lib.IndexNorm.bcast_cols_apply _ _ r j).trans (coef3_col _ _ r))

end Cert.ReferenceIdeal.RefRows

end
-- ==== Proof.LibRowGatherR3.lean ====
/-
  `stablehlo.gather` of ROWS of a rank-3 array, read at an index.

  `x[idx]` of an array `x : [N, A, B]` at an integer array `idx : [R]` lowers to a gather over the indices reshaped
  to `[R, 1]`: index_vector_dim 1, start_index_map `[0]`, collapsed_slice_dims `[0]`, offset_dims `[1, 2]`,
  slice_sizes `[1, A, B]`. Result entry `(r, a, b)` is the operand at row `idx[r, 0]` — read as a signed integer and
  clamped into `[0, N − 1]` — and inner coordinates `(a, b)`. At an integer array `idx : [R, C]` reshaped to
  `[R, C, 1]` (index_vector_dim 2, offset_dims `[2, 3]`) result entry `(r, c, a, b)` is the operand at row
  `idx[r, c, 0]` and inner coordinates `(a, b)`.
-/
import Idealize.ShloMosaic.Lib.ValueIdx

noncomputable section

open Idealize.ShloMosaic Idealize.ShloMosaic.ValueIdx

namespace RefIdx

variable {α : Type}

private theorem one_ne_zero3 : ¬ ((1 : Fin 3) = 0) := by decide
private theorem two_ne_zero3 : ¬ ((2 : Fin 3) = 0) := by decide

/-- The dimension numbers of a gather of rows of `[N, A, B]` at `[R, 1]` start indices, result `[R, A, B]`. -/
abbrev rows3Dims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- THE GATHER OF ROWS OF A RANK-3 ARRAY READ AT `(r, a, b)`: the operand at row `idx[r, 0]` (read signed, clamped into
    `[0, N − 1]`) and inner coordinates `(a, b)`. -/
theorem rows3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rows3Dims N A B R wf) x idx (ix3 r a b)
      = x (ix3 (⟨min (idx (ix2 r (0 : Fin 1))).toInt.toNat (N - 1), by omega⟩ : Fin N) a b) := by
  have h0 : ((rows3Dims N A B R wf).operandIdx (ix3 r a b) idx (0 : Fin 3)).val
      = min (idx (ix2 r (0 : Fin 1))).toInt.toNat (N - 1) := by
    show (rows3Dims N A B R wf).start (ix3 r a b) idx 0 + (rows3Dims N A B R wf).batchCoord (ix3 r a b) 0
      + (rows3Dims N A B R wf).offCoord (ix3 r a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3Dims N A B R wf).startIndexMap from List.mem_singleton.mpr rfl)]
    have hsi : (rows3Dims N A B R wf).siIdx (ix3 r a b) ⟨List.idxOf (0 : Fin 3) (rows3Dims N A B R wf).startIndexMap,
        List.idxOf_lt_length_iff.2 (List.mem_singleton.mpr rfl)⟩ = ix2 r (0 : Fin 1) := by
      funext c; refine Fin.ext ?_
      match c with
      | ⟨0, _⟩ => rfl
      | ⟨1, _⟩ => rfl
    rw [hsi]
    rfl
  have h1 : ((rows3Dims N A B R wf).operandIdx (ix3 r a b) idx (1 : Fin 3)).val = a.val := by
    show (rows3Dims N A B R wf).start (ix3 r a b) idx 1 + (rows3Dims N A B R wf).batchCoord (ix3 r a b) 1
      + (rows3Dims N A B R wf).offCoord (ix3 r a b) 1 = _
    rw [GatherDims.batchCoord_eq_zero _ _ _ List.not_mem_nil]
    unfold GatherDims.start
    rw [dif_neg (show (1 : Fin 3) ∉ (rows3Dims N A B R wf).startIndexMap from
      fun h => absurd (List.mem_singleton.mp h) one_ne_zero3)]
    unfold GatherDims.offCoord
    rw [dif_pos ((GatherDims.mem_sKept _ _).mpr
      ⟨fun h => absurd (List.mem_singleton.mp h) one_ne_zero3, List.not_mem_nil⟩)]
    simp only [Nat.zero_add]
    rfl
  have h2 : ((rows3Dims N A B R wf).operandIdx (ix3 r a b) idx (2 : Fin 3)).val = b.val := by
    show (rows3Dims N A B R wf).start (ix3 r a b) idx 2 + (rows3Dims N A B R wf).batchCoord (ix3 r a b) 2
      + (rows3Dims N A B R wf).offCoord (ix3 r a b) 2 = _
    rw [GatherDims.batchCoord_eq_zero _ _ _ List.not_mem_nil]
    unfold GatherDims.start
    rw [dif_neg (show (2 : Fin 3) ∉ (rows3Dims N A B R wf).startIndexMap from
      fun h => absurd (List.mem_singleton.mp h) two_ne_zero3)]
    unfold GatherDims.offCoord
    rw [dif_pos ((GatherDims.mem_sKept _ _).mpr
      ⟨fun h => absurd (List.mem_singleton.mp h) two_ne_zero3, List.not_mem_nil⟩)]
    simp only [Nat.zero_add]
    rfl
  unfold Host.gather
  congr 1
  funext c
  refine Fin.ext ?_
  match c with
  | ⟨0, _⟩ => exact h0
  | ⟨1, _⟩ => exact h1
  | ⟨2, _⟩ => exact h2

/-- The dimension numbers of a gather of rows of `[N, A, B]` at `[R, C, 1]` start indices, result `[R, C, A, B]`. -/
abbrev rows3cDims (N A B R C : Nat)
    (wf : GatherDims.WF ⟨3, ![N, A, B]⟩ ⟨3, ![R, C, 1]⟩ ⟨4, ![R, C, A, B]⟩ [2, 3] [0] [] [0] [] 2 ![1, A, B]) :
    GatherDims ⟨3, ![N, A, B]⟩ ⟨3, ![R, C, 1]⟩ ⟨4, ![R, C, A, B]⟩ where
  offsetDims := [2, 3]
  collapsedSliceDims := [0]
  operandBatchingDims := []
  startIndicesBatchingDims := []
  startIndexMap := [0]
  indexVectorDim := 2
  sliceSizes := ![1, A, B]
  wf := wf

/-- THE SAME GATHER AT A RANK-3 ARRAY OF START INDICES, READ AT `(r, c, a, b)`: the operand at row `idx[r, c, 0]` (read
    signed, clamped into `[0, N − 1]`) and inner coordinates `(a, b)`. -/
theorem rows3c_apply {N A B R C w : Nat} (hN : 0 < N)
    (wf : GatherDims.WF ⟨3, ![N, A, B]⟩ ⟨3, ![R, C, 1]⟩ ⟨4, ![R, C, A, B]⟩ [2, 3] [0] [] [0] [] 2 ![1, A, B])
    (x : (⟨3, ![N, A, B]⟩ : Shape).Idx → α) (idx : IVec ⟨3, ![R, C, 1]⟩ w) (r : Fin R) (c : Fin C) (a : Fin A) (b : Fin B) :
    Host.gather (rows3cDims N A B R C wf) x idx (ix4 r c a b)
      = x (ix3 (⟨min (idx (ix3 r c (0 : Fin 1))).toInt.toNat (N - 1), by omega⟩ : Fin N) a b) := by
  have h0 : ((rows3cDims N A B R C wf).operandIdx (ix4 r c a b) idx (0 : Fin 3)).val
      = min (idx (ix3 r c (0 : Fin 1))).toInt.toNat (N - 1) := by
    show (rows3cDims N A B R C wf).start (ix4 r c a b) idx 0 + (rows3cDims N A B R C wf).batchCoord (ix4 r c a b) 0
      + (rows3cDims N A B R C wf).offCoord (ix4 r c a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3cDims N A B R C wf).startIndexMap from List.mem_singleton.mpr rfl)]
    have hsi : (rows3cDims N A B R C wf).siIdx (ix4 r c a b) ⟨List.idxOf (0 : Fin 3) (rows3cDims N A B R C wf).startIndexMap,
        List.idxOf_lt_length_iff.2 (List.mem_singleton.mpr rfl)⟩ = ix3 r c (0 : Fin 1) := by
      funext e; refine Fin.ext ?_
      match e with
      | ⟨0, _⟩ => rfl
      | ⟨1, _⟩ => rfl
      | ⟨2, _⟩ => rfl
    rw [hsi]
    rfl
  have h1 : ((rows3cDims N A B R C wf).operandIdx (ix4 r c a b) idx (1 : Fin 3)).val = a.val := by
    show (rows3cDims N A B R C wf).start (ix4 r c a b) idx 1 + (rows3cDims N A B R C wf).batchCoord (ix4 r c a b) 1
      + (rows3cDims N A B R C wf).offCoord (ix4 r c a b) 1 = _
    rw [GatherDims.batchCoord_eq_zero _ _ _ List.not_mem_nil]
    unfold GatherDims.start
    rw [dif_neg (show (1 : Fin 3) ∉ (rows3cDims N A B R C wf).startIndexMap from
      fun h => absurd (List.mem_singleton.mp h) one_ne_zero3)]
    unfold GatherDims.offCoord
    rw [dif_pos ((GatherDims.mem_sKept _ _).mpr
      ⟨fun h => absurd (List.mem_singleton.mp h) one_ne_zero3, List.not_mem_nil⟩)]
    simp only [Nat.zero_add]
    rfl
  have h2 : ((rows3cDims N A B R C wf).operandIdx (ix4 r c a b) idx (2 : Fin 3)).val = b.val := by
    show (rows3cDims N A B R C wf).start (ix4 r c a b) idx 2 + (rows3cDims N A B R C wf).batchCoord (ix4 r c a b) 2
      + (rows3cDims N A B R C wf).offCoord (ix4 r c a b) 2 = _
    rw [GatherDims.batchCoord_eq_zero _ _ _ List.not_mem_nil]
    unfold GatherDims.start
    rw [dif_neg (show (2 : Fin 3) ∉ (rows3cDims N A B R C wf).startIndexMap from
      fun h => absurd (List.mem_singleton.mp h) two_ne_zero3)]
    unfold GatherDims.offCoord
    rw [dif_pos ((GatherDims.mem_sKept _ _).mpr
      ⟨fun h => absurd (List.mem_singleton.mp h) two_ne_zero3, List.not_mem_nil⟩)]
    simp only [Nat.zero_add]
    rfl
  unfold Host.gather
  congr 1
  funext e
  refine Fin.ext ?_
  match e with
  | ⟨0, _⟩ => exact h0
  | ⟨1, _⟩ => exact h1
  | ⟨2, _⟩ => exact h2

end RefIdx

end
-- ==== Proof.LibUnitAxis.lean ====
/-
  A unit axis that is not the leading one, dropped by a shape cast, read at an index built from literal
  coordinates:
    • an [a, b, 1] array cast to [a, b] reads, at (i, j), the operand at (i, j, 0);
    • an [a, 1, b] array cast to [a, b] reads, at (i, j), the operand at (i, 0, j).
  Both keep the row-major position.  They complete the library's small-shape lemmas, which have the leading-unit
  forms [1, a, b] ↔ [a, b].
-/
import Idealize.ShloMosaic.Lib.Pipeline.Value
import Idealize.ShloMosaic.Lib.ValueIdx

noncomputable section

namespace Cert.Lib.UnitAxis

open Idealize.ShloMosaic Idealize.ShloMosaic.ValueIdx

variable {α : Type}

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.UnitAxis

end
-- ==== Proof.RefRows.lean ====
/-
  The rows the reference gathers, read at an index.

  The reference gathers 4096 gene rows and two batches of 4096 drug rows out of its stack of weighted hops (one row
  per node, four hops, 64 features), each row chosen by a start index read signed and clamped into the table's range;
  it pools a gathered row by summing the hop axis from 0 and dividing by 4, and keeps hop 0 alone by cutting the hop
  axis to its first entry. Read at (b, j), each of the six arrays is the specification's row function at the node the
  table names: the pooled mean or the weighted hop 0 of that node's time, embedding entry and three aggregates.
-/
import proofs.«160151_j45664092291172_1_alg».proof.Proof.RefV118
import proofs.«160151_j45664092291172_1_alg».proof.Proof.LibRowGatherR3
import proofs.«160151_j45664092291172_1_alg».proof.Proof.LibUnitAxis

set_option maxRecDepth 8192

noncomputable section

namespace Cert.ReferenceIdeal.RefRows

open Cert.ReferenceIdeal Cert.ReferenceIdeal.Value Cert.ReferenceIdeal.Gen Idealize.ShloMosaic
open Idealize.ShloMosaic.ValueIdx Idealize.ShloMosaic.TcCoe Idealize.SL.Sem Idealize.ShloMosaic.StableHlo

variable (V0 : Valuation τ sig (Elt Ideal))

/-! ## The three tables of start indices, as the reference spells them -/

/-- The gene table: a negative entry wraps by 60000, and the column gets a unit second axis. -/
abbrev I7 : IVec S4096x1 32 :=
  broadcastInDim S4096x1 ![0] bcast_S4096_S4096x1_0 (select (cmpi .slt (V0 (Proc.devRef .tc main_arg7)) (broadcastInDim S4096 ![] bcast_S_S4096 (constantI S_ 32 0#32))) (addi (V0 (Proc.devRef .tc main_arg7)) (broadcastInDim S4096 ![] bcast_S_S4096 (constantI S_ 32 60000#32))) (V0 (Proc.devRef .tc main_arg7)))

/-- The first drug table: a negative entry wraps by 40000. -/
abbrev I8 : IVec S4096x1 32 :=
  broadcastInDim S4096x1 ![0] bcast_S4096_S4096x1_0 (select (cmpi .slt (V0 (Proc.devRef .tc main_arg8)) (broadcastInDim S4096 ![] bcast_S_S4096 (constantI S_ 32 0#32))) (addi (V0 (Proc.devRef .tc main_arg8)) (broadcastInDim S4096 ![] bcast_S_S4096 (constantI S_ 32 40000#32))) (V0 (Proc.devRef .tc main_arg8)))

/-- The second drug table, one column wide, with a unit third axis. -/
abbrev I9 : IVec S4096x1x1 32 :=
  broadcastInDim S4096x1x1 ![0, 1] bcast_S4096x1_S4096x1x1_0_1 (select (cmpi .slt (V0 (Proc.devRef .tc main_arg9)) (broadcastInDim S4096x1 ![] bcast_S_S4096x1 (constantI S_ 32 0#32))) (addi (V0 (Proc.devRef .tc main_arg9)) (broadcastInDim S4096x1 ![] bcast_S_S4096x1 (constantI S_ 32 40000#32))) (V0 (Proc.devRef .tc main_arg9)))

/-! ## The gathered rows are rows of the stack -/

/-- Gathered gene row b is the stack's row at the gene the table names. -/
theorem v127_apply (b : Fin 4096) (k : Fin 4) (j : Fin 64) :
    res_main_v127 V0 (ix3 b k j)
      = res_main_v118 V0 (ix3 (Heat.geneNode (Heat.clampRow 60000 (by norm_num) (I7 V0 (ix2 b (0 : Fin 1))))) k j) := by
  unfold res_main_v127
  refine (RefIdx.rows3_apply (by norm_num) gather_S60000x4x64_S4096x1_S4096x4x64_12_0_n_n_0_1_1464_wf _ _ b k j).trans ?_
  exact RefIdx.slice3_axis0_apply 0 _ _ _ k j _ (Nat.zero_add _).symm

/-- Gathered drug row b (first table) is the stack's row at the drug the table names. -/
theorem v134_apply (b : Fin 4096) (k : Fin 4) (j : Fin 64) :
    res_main_v134 V0 (ix3 b k j)
      = res_main_v118 V0 (ix3 (Heat.drugNode (Heat.clampRow 40000 (by norm_num) (I8 V0 (ix2 b (0 : Fin 1))))) k j) := by
  unfold res_main_v134 res_main_v120
  refine (RefIdx.rows3_apply (by norm_num) gather_S40000x4x64_S4096x1_S4096x4x64_12_0_n_n_0_1_1464_wf _ _ b k j).trans ?_
  exact RefIdx.slice3_axis0_apply 60000 _ _ _ k j _ rfl

/-- Gathered drug row (b, c) (second table) is the stack's row at the drug the table names. -/
theorem v141_apply (b : Fin 4096) (c : Fin 1) (k : Fin 4) (j : Fin 64) :
    res_main_v141 V0 (ix4 b c k j)
      = res_main_v118 V0 (ix3 (Heat.drugNode (Heat.clampRow 40000 (by norm_num) (I9 V0 (ix3 b c (0 : Fin 1))))) k j) := by
  unfold res_main_v141 res_main_v120
  refine (RefIdx.rows3c_apply (by norm_num) gather_S40000x4x64_S4096x1x1_S4096x1x4x64_23_0_n_n_0_2_1464_wf _ _ b c k j).trans ?_
  exact RefIdx.slice3_axis0_apply 60000 _ _ _ k j _ rfl

/-! ## Hop 0 alone: the hop axis cut to its first entry -/

/-- The gene rows' hop 0 is the weighted hop 0 of the gene the table names. -/
theorem gene_hop0 (b : Fin 4096) (j : Fin 64) :
    res_main_v164 V0 (ix2 b j)
      = Heat.geneAt Heat.hop0R (V0 (Proc.devRef .tc main_arg0)) (res_main_v30 V0) (res_main_v60 V0) (res_main_v92 V0) (V0 (Proc.devRef .tc main_arg2))
          (Heat.clampRow 60000 (by norm_num) (I7 V0 (ix2 b (0 : Fin 1)))) j := by
  unfold res_main_v164
  refine (Cert.Lib.UnitAxis.shapeCast_a1b_ab_apply _ _ b j).trans ?_
  refine (slice3_axis1_apply 0 _ _ b (0 : Fin 1) j (0 : Fin 4) rfl).trans ?_
  refine (v127_apply V0 b 0 j).trans ?_
  exact v118_gene0 V0 _ j

/-- The first drug rows' hop 0 is the weighted hop 0 of the drug the table names. -/
theorem drug_hop0 (b : Fin 4096) (j : Fin 64) :
    res_main_v168 V0 (ix2 b j)
      = Heat.drugAt Heat.hop0R (V0 (Proc.devRef .tc main_arg1)) (res_main_v30 V0) (res_main_v60 V0) (res_main_v92 V0) (V0 (Proc.devRef .tc main_arg3))
          (Heat.clampRow 40000 (by norm_num) (I8 V0 (ix2 b (0 : Fin 1)))) j := by
  unfold res_main_v168
  refine (Cert.Lib.UnitAxis.shapeCast_a1b_ab_apply _ _ b j).trans ?_
  refine (slice3_axis1_apply 0 _ _ b (0 : Fin 1) j (0 : Fin 4) rfl).trans ?_
  refine (v134_apply V0 b 0 j).trans ?_
  exact v118_drug0 V0 _ j

/-- The second drug rows' hop 0 is the weighted hop 0 of the drug the table names. -/
theorem drug2_hop0 (b : Fin 4096) (c : Fin 1) (j : Fin 64) :
    res_main_v173 V0 (ix3 b c j)
      = Heat.drugAt Heat.hop0R (V0 (Proc.devRef .tc main_arg1)) (res_main_v30 V0) (res_main_v60 V0) (res_main_v92 V0) (V0 (Proc.devRef .tc main_arg3))
          (Heat.clampRow 40000 (by norm_num) (I9 V0 (ix3 b c (0 : Fin 1)))) j := by
  obtain rfl : c = 0 := Subsingleton.elim _ _
  unfold res_main_v173
  refine (RefIdx.shapeCast_a11b_a1b_apply _ _ b 0 j).trans ?_
  refine (slice4_axis2_apply 0 _ _ b (0 : Fin 1) (0 : Fin 1) j (0 : Fin 4) rfl).trans ?_
  refine (v141_apply V0 b 0 0 j).trans ?_
  exact v118_drug0 V0 _ j

/-! ## The pooled mean: the hop axis summed from 0 and divided by 4 -/

/-- The gene rows' mean is the pooled mean of the gene the table names. -/
theorem gene_mean (b : Fin 4096) (j : Fin 64) :
    res_main_v144 V0 (ix2 b j)
      = Heat.geneAt Heat.meanR (V0 (Proc.devRef .tc main_arg0)) (res_main_v30 V0) (res_main_v60 V0) (res_main_v92 V0) (V0 (Proc.devRef .tc main_arg2))
          (Heat.clampRow 60000 (by norm_num) (I7 V0 (ix2 b (0 : Fin 1)))) j := by
  unfold res_main_v144 Heat.geneAt Heat.meanR
  refine (hostDivf_apply _ _ _).trans ?_
  refine congrArg₂ Ideal.div ?_ ((broadcastInDim_scalar_apply _ _ _).trans (constant_apply _ _))
  refine (RefIdx.reduceAdd_mid_apply _ _ _ _ b j).trans ?_
  refine congrArg₂ (· + ·) rfl ?_
  rw [Fin.sum_univ_four, v127_apply V0 b 0 j, v127_apply V0 b 1 j, v127_apply V0 b 2 j, v127_apply V0 b 3 j,
    v118_gene0, v118_gene1, v118_gene2, v118_gene3]

/-- The first drug rows' mean is the pooled mean of the drug the table names. -/
theorem drug_mean (b : Fin 4096) (j : Fin 64) :
    Host.divf (F := Ideal) (Host.reduceAdd (res_main_v134 V0) (constant S_ .f32 0x00000000#32) reducesTo_S4096x4x64_S4096x64_d1 h_S_) (broadcastInDim S4096x64 ![] bcast_S_S4096x64 (constant S_ .f32 0x40800000#32)) (ix2 b j)
      = Heat.drugAt Heat.meanR (V0 (Proc.devRef .tc main_arg1)) (res_main_v30 V0) (res_main_v60 V0) (res_main_v92 V0) (V0 (Proc.devRef .tc main_arg3))
          (Heat.clampRow 40000 (by norm_num) (I8 V0 (ix2 b (0 : Fin 1)))) j := by
  unfold Heat.drugAt Heat.meanR
  refine (hostDivf_apply _ _ _).trans ?_
  refine congrArg₂ Ideal.div ?_ ((broadcastInDim_scalar_apply _ _ _).trans (constant_apply _ _))
  refine (RefIdx.reduceAdd_mid_apply _ _ _ _ b j).trans ?_
  refine congrArg₂ (· + ·) rfl ?_
  rw [Fin.sum_univ_four, v134_apply V0 b 0 j, v134_apply V0 b 1 j, v134_apply V0 b 2 j, v134_apply V0 b 3 j,
    v118_drug0, v118_drug1, v118_drug2, v118_drug3]

/-- The second drug rows' mean is the pooled mean of the drug the table names. -/
theorem drug2_mean (b : Fin 4096) (c : Fin 1) (j : Fin 64) :
    Host.divf (F := Ideal) (Host.reduceAdd (res_main_v141 V0) (constant S_ .f32 0x00000000#32) reducesTo_S4096x1x4x64_S4096x1x64_d2 h_S_) (broadcastInDim S4096x1x64 ![] bcast_S_S4096x1x64 (constant S_ .f32 0x40800000#32)) (ix3 b c j)
      = Heat.drugAt Heat.meanR (V0 (Proc.devRef .tc main_arg1)) (res_main_v30 V0) (res_main_v60 V0) (res_main_v92 V0) (V0 (Proc.devRef .tc main_arg3))
          (Heat.clampRow 40000 (by norm_num) (I9 V0 (ix3 b c (0 : Fin 1)))) j := by
  unfold Heat.drugAt Heat.meanR
  refine (hostDivf_apply _ _ _).trans ?_
  refine congrArg₂ Ideal.div ?_ ((broadcastInDim_scalar_apply _ _ _).trans (constant_apply _ _))
  refine (RefIdx.reduceAdd_axis2_apply _ _ _ _ b c j).trans ?_
  refine congrArg₂ (· + ·) rfl ?_
  rw [Fin.sum_univ_four, v141_apply V0 b c 0 j, v141_apply V0 b c 1 j, v141_apply V0 b c 2 j, v141_apply V0 b c 3 j,
    v118_drug0, v118_drug1, v118_drug2, v118_drug3]

end Cert.ReferenceIdeal.RefRows

end
-- ==== Proof.RefHops.lean ====
/-
  The reference's three propagated aggregates are three applications of one hop to the concatenated embeddings.
-/
import proofs.«160151_j45664092291172_1_alg».proof.Proof.Gen.ReferenceIdeal.Run
import proofs.«160151_j45664092291172_1_alg».proof.Proof.RefTail

noncomputable section

namespace Cert.ReferenceIdeal.Hops

open Cert.ReferenceIdeal Cert.ReferenceIdeal.Gen Cert.ReferenceIdeal.Value Cert.ReferenceIdeal.Tail
open Idealize.ShloMosaic Idealize.ShloMosaic.TcCoe Idealize.SL.Sem Idealize.ShloMosaic.StableHlo

variable (V0 : Valuation τ sig (Elt Ideal))

theorem res30_eq : res_main_v30 V0 = hop (V0 (Proc.devRef .tc main_arg4)) (V0 (Proc.devRef .tc main_arg5)) (V0 (Proc.devRef .tc main_arg6))
    (cat64 (V0 (Proc.devRef .tc main_arg0)) (V0 (Proc.devRef .tc main_arg1))) := rfl

theorem res60_eq : res_main_v60 V0 = hop (V0 (Proc.devRef .tc main_arg4)) (V0 (Proc.devRef .tc main_arg5)) (V0 (Proc.devRef .tc main_arg6))
    (res_main_v30 V0) := rfl

theorem res92_eq : res_main_v92 V0 = hop (V0 (Proc.devRef .tc main_arg4)) (V0 (Proc.devRef .tc main_arg5)) (V0 (Proc.devRef .tc main_arg6))
    (res_main_v60 V0) := rfl

end Cert.ReferenceIdeal.Hops

end
-- ==== Proof.LibRowGather.lean ====
/-
  `stablehlo.gather` of ROWS of a matrix and of ENTRIES of a vector at a column of start indices, read at an index.

  `x[idx]` of a matrix `x : [N, K]` (or a vector `x : [N]`) at an integer array `idx : [R]` lowers to a gather over the
  indices reshaped to `[R, 1]`: index_vector_dim 1, start_index_map `[0]`, collapsed_slice_dims `[0]`, and for the
  matrix offset_dims `[1]` with slice_sizes `[1, K]`. Result row `r` is the operand's row at the start index
  `idx[r, 0]`, read as a signed integer and clamped into `[0, N − 1]`.
-/
import Idealize.ShloMosaic.Lib.ValueIdx

noncomputable section

open Idealize.ShloMosaic Idealize.ShloMosaic.ValueIdx

namespace Cert.Lib.RowGather

variable {α : Type}

/-- The second axis is not the first. -/
private theorem one_ne_zero2 : ¬ ((1 : Fin 2) = 0) := by decide

/-- The dimension numbers of a row gather: operand `[N, K]`, start indices `[R, 1]`, result `[R, K]`; the conditions
    `wf` are decided on a program's literal shapes. -/
abbrev rowGatherDims (N K R : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand at row `idx[r, 0]` (read signed, clamped into `[0, N − 1]`) and
    column `k`. -/
theorem rowGather_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowGatherDims N K R wf) x idx (ix2 r k)
      = x (ix2 (⟨min (idx (ix2 r (0 : Fin 1))).toInt.toNat (N - 1), by omega⟩ : Fin N) k) := by
  have h0 : ((rowGatherDims N K R wf).operandIdx (ix2 r k) idx (0 : Fin 2)).val
      = min (idx (ix2 r (0 : Fin 1))).toInt.toNat (N - 1) := by
    show (rowGatherDims N K R wf).start (ix2 r k) idx 0 + (rowGatherDims N K R wf).batchCoord (ix2 r k) 0
      + (rowGatherDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K R wf).startIndexMap from List.mem_singleton.mpr rfl)]
    have hsi : (rowGatherDims N K R wf).siIdx (ix2 r k) ⟨List.idxOf (0 : Fin 2) (rowGatherDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : ((rowGatherDims N K R wf).operandIdx (ix2 r k) idx (1 : Fin 2)).val = k.val := by
    show (rowGatherDims N K R wf).start (ix2 r k) idx 1 + (rowGatherDims N K R wf).batchCoord (ix2 r k) 1
      + (rowGatherDims N K R wf).offCoord (ix2 r k) 1 = _
    rw [GatherDims.batchCoord_eq_zero _ _ _ List.not_mem_nil]
    unfold GatherDims.start
    rw [dif_neg (show (1 : Fin 2) ∉ (rowGatherDims N K R wf).startIndexMap from
      fun h => absurd (List.mem_singleton.mp h) one_ne_zero2)]
    unfold GatherDims.offCoord
    rw [dif_pos ((GatherDims.mem_sKept _ _).mpr
      ⟨fun h => absurd (List.mem_singleton.mp h) one_ne_zero2, List.not_mem_nil⟩)]
    simp only [Nat.zero_add]
    rfl
  unfold Host.gather
  congr 1
  funext a
  refine Fin.ext ?_
  match a with
  | ⟨0, _⟩ => exact h0
  | ⟨1, _⟩ => exact h1

/-- The dimension numbers of an entry gather: operand `[N]`, start indices `[R, 1]`, result `[R]`; the conditions
    `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at the start index `idx[r, 0]`, read signed and clamped into
    `[0, N − 1]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r)
      = x (ix1 (⟨min (idx (ix2 r (0 : Fin 1))).toInt.toNat (N - 1), by omega⟩ : Fin N)) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.Lib.RowGather

end
-- ==== Proof.LibRowGather3.lean ====
/-
  `stablehlo.gather` of ROWS of a matrix at a rank-3 array of start indices, read at an index.

  `x[idx]` of a matrix `x : [N, K]` at an integer array `idx : [R, C]` lowers to a gather over the indices reshaped
  to `[R, C, 1]`: index_vector_dim 2, start_index_map `[0]`, collapsed_slice_dims `[0]`, offset_dims `[2]`, slice_sizes
  `[1, K]`. Result entry `(r, c, k)` is the operand at row `idx[r, c, 0]` — read as a signed integer and clamped into
  `[0, N − 1]` — and column `k`. In particular an operation applied to every row of the operand commutes with the
  gather: the row read depends on the indices only.
-/
import Idealize.ShloMosaic.Lib.ValueIdx

noncomputable section

open Idealize.ShloMosaic Idealize.ShloMosaic.ValueIdx

namespace RowGather3

variable {α : Type}

private theorem one_ne_zero2 : ¬ ((1 : Fin 2) = 0) := by decide

/-- The dimension numbers of a row gather at `[R, C, 1]` start indices: operand `[N, K]`, result `[R, C, K]`. -/
abbrev dims (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The row that result entries `(r, c, ·)` read: the start index `idx[r, c, 0]`, signed, clamped into `[0, N − 1]`. -/
def row {N R C w : Nat} (hN : 0 < N) (idx : IVec ⟨3, ![R, C, 1]⟩ w) (r : Fin R) (c : Fin C) : Fin N :=
  ⟨min (idx (ix3 r c (0 : Fin 1))).toInt.toNat (N - 1), by omega⟩

/-- THE ROW GATHER READ AT `(r, c, k)`: the operand at row `row idx r c` and column `k`. -/
theorem gather_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (r : Fin R) (c : Fin C) (k : Fin K) :
    Host.gather (dims N K R C wf) x idx (ix3 r c k) = x (ix2 (row hN idx r c) k) := by
  have h0 : ((dims N K R C wf).operandIdx (ix3 r c k) idx (0 : Fin 2)).val
      = min (idx (ix3 r c (0 : Fin 1))).toInt.toNat (N - 1) := by
    show (dims N K R C wf).start (ix3 r c k) idx 0 + (dims N K R C wf).batchCoord (ix3 r c k) 0
      + (dims N K R C wf).offCoord (ix3 r c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N K R C wf).startIndexMap from List.mem_singleton.mpr rfl)]
    have hsi : (dims N K R C wf).siIdx (ix3 r c k) ⟨List.idxOf (0 : Fin 2) (dims N K R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  have h1 : ((dims N K R C wf).operandIdx (ix3 r c k) idx (1 : Fin 2)).val = k.val := by
    show (dims N K R C wf).start (ix3 r c k) idx 1 + (dims N K R C wf).batchCoord (ix3 r c k) 1
      + (dims N K R C wf).offCoord (ix3 r c k) 1 = _
    rw [GatherDims.batchCoord_eq_zero _ _ _ List.not_mem_nil]
    unfold GatherDims.start
    rw [dif_neg (show (1 : Fin 2) ∉ (dims N K R C wf).startIndexMap from
      fun h => absurd (List.mem_singleton.mp h) one_ne_zero2)]
    unfold GatherDims.offCoord
    rw [dif_pos ((GatherDims.mem_sKept _ _).mpr
      ⟨fun h => absurd (List.mem_singleton.mp h) one_ne_zero2, List.not_mem_nil⟩)]
    simp only [Nat.zero_add]
    rfl
  unfold Host.gather
  congr 1
  funext a
  refine Fin.ext ?_
  match a with
  | ⟨0, _⟩ => exact h0
  | ⟨1, _⟩ => exact h1

end RowGather3

end
-- ==== Proof.KerRows.lean ====
/-
  Rows of an array over all nodes, read through the layout operations of the program.

  The graph has 60000 gene nodes followed by 40000 drug nodes: gene r is node r and drug r is node 60000 + r.
  An array M over all nodes is cut into its gene rows [0, 60000) and its drug rows [60000, 100000); rows of either
  part are then picked by an integer table, each start index read signed and clamped into the part's range. Such a
  pick reads M at the node of the clamped row. Conversely, an array over all nodes built by putting a gene array on
  top of a drug array reads the gene array at a gene's node and the drug array at a drug's node.
-/
import proofs.«160151_j45664092291172_1_alg».proof.KernelIdeal
import proofs.«160151_j45664092291172_1_alg».proof.Proof.HeatSpec
import proofs.«160151_j45664092291172_1_alg».proof.Proof.LibRowGather
import proofs.«160151_j45664092291172_1_alg».proof.Proof.LibRowGather3
import Idealize.ShloMosaic.Lib.Pipeline.Value

noncomputable section

open Cert.KernelIdeal Idealize.ShloMosaic Idealize.ShloMosaic.ValueIdx

namespace Cert.KernelIdeal.KerRows

variable [h : Cert.KernelIdeal.Facts] {α : Type}
open Cert.KernelIdeal.Facts₀ Cert.KernelIdeal.Facts

/-! ## Rows picked from the gene part and from the drug part -/

/-- Row b of a pick from the gene rows of M is M's row at the node of the gene the (clamped) start index names. -/
theorem gene_rows (M : S100000x64.Idx → α) (I : IVec S4096x1 32) (b : Fin 4096) (j : Fin 64) :
    Host.gather gather_S60000x64_S4096x1_S4096x64_1_0_n_n_0_1_164
        (extractStridedSlice S60000x64 ![0, 0] M slices_S100000x64_S60000x64_0_0) I (ix2 b j)
      = M (ix2 (Heat.geneNode (Heat.clampRow 60000 (by norm_num) (I (ix2 b (0 : Fin 1))))) j) := by
  have hd : gather_S60000x64_S4096x1_S4096x64_1_0_n_n_0_1_164
      = Cert.Lib.RowGather.rowGatherDims 60000 64 4096 gather_S60000x64_S4096x1_S4096x64_1_0_n_n_0_1_164_wf := rfl
  rw [hd]
  refine (Cert.Lib.RowGather.rowGather_apply (by norm_num) _ _ I b j).trans ?_
  refine extractStridedSlice_apply _ M _ _ _ (fun a => ?_)
  match a with
  | ⟨0, _⟩ => exact (Nat.zero_add _).symm
  | ⟨1, _⟩ => exact (Nat.zero_add _).symm

/-- Row b of a pick from the drug rows of M is M's row at the node of the drug the (clamped) start index names. -/
theorem drug_rows (M : S100000x64.Idx → α) (I : IVec S4096x1 32) (b : Fin 4096) (j : Fin 64) :
    Host.gather gather_S40000x64_S4096x1_S4096x64_1_0_n_n_0_1_164
        (extractStridedSlice S40000x64 ![60000, 0] M slices_S100000x64_S40000x64_60000_0) I (ix2 b j)
      = M (ix2 (Heat.drugNode (Heat.clampRow 40000 (by norm_num) (I (ix2 b (0 : Fin 1))))) j) := by
  have hd : gather_S40000x64_S4096x1_S4096x64_1_0_n_n_0_1_164
      = Cert.Lib.RowGather.rowGatherDims 40000 64 4096 gather_S40000x64_S4096x1_S4096x64_1_0_n_n_0_1_164_wf := rfl
  rw [hd]
  refine (Cert.Lib.RowGather.rowGather_apply (by norm_num) _ _ I b j).trans ?_
  refine extractStridedSlice_apply _ M _ _ _ (fun a => ?_)
  match a with
  | ⟨0, _⟩ => rfl
  | ⟨1, _⟩ => exact (Nat.zero_add _).symm

/-- The same pick through a table with one extra unit axis: entry (b, c, j) is M at the drug's node and column j. -/
theorem drug_rows3 (M : S100000x64.Idx → α) (I : IVec S4096x1x1 32) (b : Fin 4096) (c : Fin 1) (j : Fin 64) :
    Host.gather gather_S40000x64_S4096x1x1_S4096x1x64_2_0_n_n_0_2_164
        (extractStridedSlice S40000x64 ![60000, 0] M slices_S100000x64_S40000x64_60000_0) I (ix3 b c j)
      = M (ix2 (Heat.drugNode (Heat.clampRow 40000 (by norm_num) (I (ix3 b c (0 : Fin 1))))) j) := by
  have hd : gather_S40000x64_S4096x1x1_S4096x1x64_2_0_n_n_0_2_164
      = RowGather3.dims 40000 64 4096 1 gather_S40000x64_S4096x1x1_S4096x1x64_2_0_n_n_0_2_164_wf := rfl
  rw [hd]
  refine (RowGather3.gather_apply (by norm_num) _ _ I b c j).trans ?_
  refine extractStridedSlice_apply _ M _ _ _ (fun a => ?_)
  match a with
  | ⟨0, _⟩ => rfl
  | ⟨1, _⟩ => exact (Nat.zero_add _).symm

/-! ## A gene array on top of a drug array, read at a node -/

/-- At a gene's node the stacked array is the gene array. -/
theorem concat64_gene (a : S60000x64.Idx → α) (d : S40000x64.Idx → α) (r : Fin 60000) (j : Fin 64) :
    concatenate S100000x64 0 [⟨S60000x64, a⟩, ⟨S40000x64, d⟩] concatenates_S60000x64_S40000x64_S100000x64_d0
        (ix2 (Heat.geneNode r) j) = a (ix2 r j) := by
  refine concatenate_pair_apply_left (t := S100000x64) 0 a d _ (ix2 (Heat.geneNode r) j) rfl (ix2 r j) (fun b => ?_)
  match b with
  | ⟨0, _⟩ => rfl
  | ⟨1, _⟩ => rfl

/-- At a drug's node the stacked array is the drug array. -/
theorem concat64_drug (a : S60000x64.Idx → α) (d : S40000x64.Idx → α) (r : Fin 40000) (j : Fin 64) :
    concatenate S100000x64 0 [⟨S60000x64, a⟩, ⟨S40000x64, d⟩] concatenates_S60000x64_S40000x64_S100000x64_d0
        (ix2 (Heat.drugNode r) j) = d (ix2 r j) := by
  refine concatenate_pair_apply_right (t := S100000x64) 0 a d _ (ix2 (Heat.drugNode r) j) rfl rfl (ix2 r j)
    (fun b hb => ?_) (Nat.add_comm _ _)
  match b, hb with
  | ⟨0, _⟩, hb => exact absurd rfl hb
  | ⟨1, _⟩, _ => rfl

/-- The one-column arrays: at a gene's node the stacked column is the gene column. -/
theorem concat1_gene (a : S60000x1.Idx → α) (d : S40000x1.Idx → α) (r : Fin 60000) :
    concatenate S100000x1 0 [⟨S60000x1, a⟩, ⟨S40000x1, d⟩] concatenates_S60000x1_S40000x1_S100000x1_d0
        (ix2 (Heat.geneNode r) (0 : Fin 1)) = a (ix2 r (0 : Fin 1)) := by
  refine concatenate_pair_apply_left (t := S100000x1) 0 a d _ (ix2 (Heat.geneNode r) (0 : Fin 1)) rfl (ix2 r (0 : Fin 1))
    (fun b => ?_)
  match b with
  | ⟨0, _⟩ => rfl
  | ⟨1, _⟩ => rfl

/-- The one-column arrays: at a drug's node the stacked column is the drug column. -/
theorem concat1_drug (a : S60000x1.Idx → α) (d : S40000x1.Idx → α) (r : Fin 40000) :
    concatenate S100000x1 0 [⟨S60000x1, a⟩, ⟨S40000x1, d⟩] concatenates_S60000x1_S40000x1_S100000x1_d0
        (ix2 (Heat.drugNode r) (0 : Fin 1)) = d (ix2 r (0 : Fin 1)) := by
  refine concatenate_pair_apply_right (t := S100000x1) 0 a d _ (ix2 (Heat.drugNode r) (0 : Fin 1)) rfl rfl
    (ix2 r (0 : Fin 1)) (fun b hb => ?_) (Nat.add_comm _ _)
  match b, hb with
  | ⟨0, _⟩, hb => exact absurd rfl hb
  | ⟨1, _⟩, _ => rfl

end Cert.KernelIdeal.KerRows

end
-- ==== Proof.KIRows.lean ====
/-
  The six gathered row blocks of the program, entry by entry.

  The pooled-mean array and the weighted hop-0 array are functions of each node's time and of the node's rows of the
  hop arrays; hop 0 is the gene embedding on top of the drug embedding and the times are the gene times on top of the
  drug times. A row picked from the gene part (from the drug part) of either array is therefore the row function at the
  picked gene's (drug's) own time and embedding row, and at its node's rows of the later hops.
-/
import proofs.«160151_j45664092291172_1_alg».proof.Proof.KerRows
import proofs.«160151_j45664092291172_1_alg».proof.Proof.KITail
import proofs.«160151_j45664092291172_1_alg».proof.Proof.KISpec

noncomputable section

open Cert.KernelIdeal Idealize.ShloMosaic Idealize.ShloMosaic.ValueIdx

namespace Cert.KernelIdeal.Rows

open Cert.KernelIdeal.Facts₀ Cert.KernelIdeal.Facts

/-! ## The two arrays at a gene's node and at a drug's node -/

/-- The pooled mean at a gene's node, when hop 0 and the times there are the gene's own. -/
theorem gmean_gene (X A1 A2 A3 : S100000x64.Idx → EReal) (T : S100000x1.Idx → EReal)
    (a : S60000x64.Idx → EReal) (tg : S60000x1.Idx → EReal) (r : Fin 60000) (j : Fin 64)
    (hX : X (ix2 (Heat.geneNode r) j) = a (ix2 r j))
    (hT : T (ix2 (Heat.geneNode r) (0 : Fin 1)) = tg (ix2 r (0 : Fin 1))) :
    Final.Gmean X A1 A2 A3 T (ix2 (Heat.geneNode r) j) = Heat.geneAt Heat.meanK a A1 A2 A3 tg r j := by
  show Heat.meanK (T (ix2 (Heat.geneNode r) (0 : Fin 1))) (X (ix2 (Heat.geneNode r) j)) _ _ _
    = Heat.meanK (tg (ix2 r (0 : Fin 1))) (a (ix2 r j)) _ _ _
  rw [hX, hT]

/-- The pooled mean at a drug's node. -/
theorem gmean_drug (X A1 A2 A3 : S100000x64.Idx → EReal) (T : S100000x1.Idx → EReal)
    (d : S40000x64.Idx → EReal) (td : S40000x1.Idx → EReal) (r : Fin 40000) (j : Fin 64)
    (hX : X (ix2 (Heat.drugNode r) j) = d (ix2 r j))
    (hT : T (ix2 (Heat.drugNode r) (0 : Fin 1)) = td (ix2 r (0 : Fin 1))) :
    Final.Gmean X A1 A2 A3 T (ix2 (Heat.drugNode r) j) = Heat.drugAt Heat.meanK d A1 A2 A3 td r j := by
  show Heat.meanK (T (ix2 (Heat.drugNode r) (0 : Fin 1))) (X (ix2 (Heat.drugNode r) j)) _ _ _
    = Heat.meanK (td (ix2 r (0 : Fin 1))) (d (ix2 r j)) _ _ _
  rw [hX, hT]

/-- The weighted hop 0 at a gene's node; the later hops do not enter. -/
theorem ghop0_gene (X A1 A2 A3 : S100000x64.Idx → EReal) (T : S100000x1.Idx → EReal)
    (a : S60000x64.Idx → EReal) (tg : S60000x1.Idx → EReal) (r : Fin 60000) (j : Fin 64)
    (hX : X (ix2 (Heat.geneNode r) j) = a (ix2 r j))
    (hT : T (ix2 (Heat.geneNode r) (0 : Fin 1)) = tg (ix2 r (0 : Fin 1))) :
    Final.Ghop0 X T (ix2 (Heat.geneNode r) j) = Heat.geneAt Heat.hop0K a A1 A2 A3 tg r j := by
  show Heat.decayK (T (ix2 (Heat.geneNode r) (0 : Fin 1))) * X (ix2 (Heat.geneNode r) j)
    = Heat.decayK (tg (ix2 r (0 : Fin 1))) * a (ix2 r j)
  rw [hX, hT]

/-- The weighted hop 0 at a drug's node. -/
theorem ghop0_drug (X A1 A2 A3 : S100000x64.Idx → EReal) (T : S100000x1.Idx → EReal)
    (d : S40000x64.Idx → EReal) (td : S40000x1.Idx → EReal) (r : Fin 40000) (j : Fin 64)
    (hX : X (ix2 (Heat.drugNode r) j) = d (ix2 r j))
    (hT : T (ix2 (Heat.drugNode r) (0 : Fin 1)) = td (ix2 r (0 : Fin 1))) :
    Final.Ghop0 X T (ix2 (Heat.drugNode r) j) = Heat.drugAt Heat.hop0K d A1 A2 A3 td r j := by
  show Heat.decayK (T (ix2 (Heat.drugNode r) (0 : Fin 1))) * X (ix2 (Heat.drugNode r) j)
    = Heat.decayK (td (ix2 r (0 : Fin 1))) * d (ix2 r j)
  rw [hX, hT]

/-! ## The three blocks of the pooled mean -/

theorem K1 (a : S60000x64.Idx → EReal) (d : S40000x64.Idx → EReal) (A1 A2 A3 : S100000x64.Idx → EReal)
    (tg : S60000x1.Idx → EReal) (td : S40000x1.Idx → EReal)
    (a7 : IVec S4096 32) (b : Fin 4096) (j : Fin 64) :
    Tail.rowsG (Final.Gmean (concatenate S100000x64 0 [⟨S60000x64, a⟩, ⟨S40000x64, d⟩] concatenates_S60000x64_S40000x64_S100000x64_d0) A1 A2 A3
        (concatenate S100000x1 0 [⟨S60000x1, tg⟩, ⟨S40000x1, td⟩] concatenates_S60000x1_S40000x1_S100000x1_d0)) a7 (ix2 b j)
      = Heat.geneAt Heat.meanK a A1 A2 A3 tg (Heat.clampRow 60000 (by norm_num) (Tail.I7 a7 (ix2 b (0 : Fin 1)))) j := by
  unfold Tail.rowsG
  exact (KerRows.gene_rows _ (Tail.I7 a7) b j).trans
    (gmean_gene _ A1 A2 A3 _ a tg _ j (KerRows.concat64_gene a d _ j) (KerRows.concat1_gene tg td _))

theorem K2 (a : S60000x64.Idx → EReal) (d : S40000x64.Idx → EReal) (A1 A2 A3 : S100000x64.Idx → EReal)
    (tg : S60000x1.Idx → EReal) (td : S40000x1.Idx → EReal)
    (a8 : IVec S4096 32) (b : Fin 4096) (j : Fin 64) :
    Tail.rowsP (Final.Gmean (concatenate S100000x64 0 [⟨S60000x64, a⟩, ⟨S40000x64, d⟩] concatenates_S60000x64_S40000x64_S100000x64_d0) A1 A2 A3
        (concatenate S100000x1 0 [⟨S60000x1, tg⟩, ⟨S40000x1, td⟩] concatenates_S60000x1_S40000x1_S100000x1_d0)) a8 (ix2 b j)
      = Heat.drugAt Heat.meanK d A1 A2 A3 td (Heat.clampRow 40000 (by norm_num) (Tail.I8 a8 (ix2 b (0 : Fin 1)))) j := by
  unfold Tail.rowsP
  exact (KerRows.drug_rows _ (Tail.I8 a8) b j).trans
    (gmean_drug _ A1 A2 A3 _ d td _ j (KerRows.concat64_drug a d _ j) (KerRows.concat1_drug tg td _))

theorem K3 (a : S60000x64.Idx → EReal) (d : S40000x64.Idx → EReal) (A1 A2 A3 : S100000x64.Idx → EReal)
    (tg : S60000x1.Idx → EReal) (td : S40000x1.Idx → EReal)
    (a9 : IVec S4096x1 32) (b : Fin 4096) (c : Fin 1) (j : Fin 64) :
    Tail.rowsN (Final.Gmean (concatenate S100000x64 0 [⟨S60000x64, a⟩, ⟨S40000x64, d⟩] concatenates_S60000x64_S40000x64_S100000x64_d0) A1 A2 A3
        (concatenate S100000x1 0 [⟨S60000x1, tg⟩, ⟨S40000x1, td⟩] concatenates_S60000x1_S40000x1_S100000x1_d0)) a9 (ix3 b c j)
      = Heat.drugAt Heat.meanK d A1 A2 A3 td (Heat.clampRow 40000 (by norm_num) (Tail.I9 a9 (ix3 b c (0 : Fin 1)))) j := by
  unfold Tail.rowsN
  exact (KerRows.drug_rows3 _ (Tail.I9 a9) b c j).trans
    (gmean_drug _ A1 A2 A3 _ d td _ j (KerRows.concat64_drug a d _ j) (KerRows.concat1_drug tg td _))

/-! ## The three blocks of the weighted hop 0 -/

theorem K4 (a : S60000x64.Idx → EReal) (d : S40000x64.Idx → EReal) (A1 A2 A3 : S100000x64.Idx → EReal)
    (tg : S60000x1.Idx → EReal) (td : S40000x1.Idx → EReal)
    (a7 : IVec S4096 32) (b : Fin 4096) (j : Fin 64) :
    Tail.rowsG (Final.Ghop0 (concatenate S100000x64 0 [⟨S60000x64, a⟩, ⟨S40000x64, d⟩] concatenates_S60000x64_S40000x64_S100000x64_d0)
        (concatenate S100000x1 0 [⟨S60000x1, tg⟩, ⟨S40000x1, td⟩] concatenates_S60000x1_S40000x1_S100000x1_d0)) a7 (ix2 b j)
      = Heat.geneAt Heat.hop0K a A1 A2 A3 tg (Heat.clampRow 60000 (by norm_num) (Tail.I7 a7 (ix2 b (0 : Fin 1)))) j := by
  unfold Tail.rowsG
  exact (KerRows.gene_rows _ (Tail.I7 a7) b j).trans
    (ghop0_gene _ A1 A2 A3 _ a tg _ j (KerRows.concat64_gene a d _ j) (KerRows.concat1_gene tg td _))

theorem K5 (a : S60000x64.Idx → EReal) (d : S40000x64.Idx → EReal) (A1 A2 A3 : S100000x64.Idx → EReal)
    (tg : S60000x1.Idx → EReal) (td : S40000x1.Idx → EReal)
    (a8 : IVec S4096 32) (b : Fin 4096) (j : Fin 64) :
    Tail.rowsP (Final.Ghop0 (concatenate S100000x64 0 [⟨S60000x64, a⟩, ⟨S40000x64, d⟩] concatenates_S60000x64_S40000x64_S100000x64_d0)
        (concatenate S100000x1 0 [⟨S60000x1, tg⟩, ⟨S40000x1, td⟩] concatenates_S60000x1_S40000x1_S100000x1_d0)) a8 (ix2 b j)
      = Heat.drugAt Heat.hop0K d A1 A2 A3 td (Heat.clampRow 40000 (by norm_num) (Tail.I8 a8 (ix2 b (0 : Fin 1)))) j := by
  unfold Tail.rowsP
  exact (KerRows.drug_rows _ (Tail.I8 a8) b j).trans
    (ghop0_drug _ A1 A2 A3 _ d td _ j (KerRows.concat64_drug a d _ j) (KerRows.concat1_drug tg td _))

theorem K6 (a : S60000x64.Idx → EReal) (d : S40000x64.Idx → EReal) (A1 A2 A3 : S100000x64.Idx → EReal)
    (tg : S60000x1.Idx → EReal) (td : S40000x1.Idx → EReal)
    (a9 : IVec S4096x1 32) (b : Fin 4096) (c : Fin 1) (j : Fin 64) :
    Tail.rowsN (Final.Ghop0 (concatenate S100000x64 0 [⟨S60000x64, a⟩, ⟨S40000x64, d⟩] concatenates_S60000x64_S40000x64_S100000x64_d0)
        (concatenate S100000x1 0 [⟨S60000x1, tg⟩, ⟨S40000x1, td⟩] concatenates_S60000x1_S40000x1_S100000x1_d0)) a9 (ix3 b c j)
      = Heat.drugAt Heat.hop0K d A1 A2 A3 td (Heat.clampRow 40000 (by norm_num) (Tail.I9 a9 (ix3 b c (0 : Fin 1)))) j := by
  unfold Tail.rowsN
  exact (KerRows.drug_rows3 _ (Tail.I9 a9) b c j).trans
    (ghop0_drug _ A1 A2 A3 _ d td _ j (KerRows.concat64_drug a d _ j) (KerRows.concat1_drug tg td _))

end Cert.KernelIdeal.Rows

end
-- ==== Proof.Bridge.lean ====
/-
  The reference's six gathered arrays are the program's six gathered blocks.

  Both programs gather the same rows: the tables are read the same way, the three aggregates are the same three
  hops of the joined embeddings, and at every gathered node the two row functions (quotient spelling and product
  spelling of the heat weights) are one function. So the arrays agree entry by entry, and the two losses, which are
  the same operations on the six arrays, agree.
-/
import proofs.«160151_j45664092291172_1_alg».proof.Proof.RefRows
import proofs.«160151_j45664092291172_1_alg».proof.Proof.RefHops
import proofs.«160151_j45664092291172_1_alg».proof.Proof.RefTail
import proofs.«160151_j45664092291172_1_alg».proof.Proof.KITail
import proofs.«160151_j45664092291172_1_alg».proof.Proof.KIHops
import proofs.«160151_j45664092291172_1_alg».proof.Proof.KIRows
import proofs.«160151_j45664092291172_1_alg».proof.Proof.HeatSpec

set_option maxRecDepth 8192

noncomputable section

namespace Cert.Bridge

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Value

variable (V0 : Valuation Cert.ReferenceIdeal.τ Cert.ReferenceIdeal.sig (Elt Ideal))

/-! ## The aggregates and the two all-nodes arrays, from the launch contents -/

/-- One hop of the joined embeddings. -/
def H1 : FVec Ideal S100000x64 .f32 :=
  Tail.hop (V0 (Proc.devRef .tc main_arg4)) (V0 (Proc.devRef .tc main_arg5)) (V0 (Proc.devRef .tc main_arg6))
    (Tail.cat64 (V0 (Proc.devRef .tc main_arg0)) (V0 (Proc.devRef .tc main_arg1)))
/-- Two hops. -/
def H2 : FVec Ideal S100000x64 .f32 :=
  Tail.hop (V0 (Proc.devRef .tc main_arg4)) (V0 (Proc.devRef .tc main_arg5)) (V0 (Proc.devRef .tc main_arg6)) (H1 V0)
/-- Three hops. -/
def H3 : FVec Ideal S100000x64 .f32 :=
  Tail.hop (V0 (Proc.devRef .tc main_arg4)) (V0 (Proc.devRef .tc main_arg5)) (V0 (Proc.devRef .tc main_arg6)) (H2 V0)

theorem res30_H1 : res_main_v30 V0 = H1 V0 := rfl
theorem res60_H2 : res_main_v60 V0 = H2 V0 := rfl
theorem res92_H3 : res_main_v92 V0 = H3 V0 := rfl

/-- The pooled mean over all nodes. -/
def Mmean : FVec Ideal Cert.KernelIdeal.S100000x64 .f32 :=
  Cert.KernelIdeal.Final.Gmean (Tail.cat64 (V0 (Proc.devRef .tc main_arg0)) (V0 (Proc.devRef .tc main_arg1))) (H1 V0) (H2 V0) (H3 V0)
    (Cert.KernelIdeal.Hops.cat1 (V0 (Proc.devRef .tc main_arg2)) (V0 (Proc.devRef .tc main_arg3)))

/-- The weighted hop 0 over all nodes. -/
def Mhop0 : FVec Ideal Cert.KernelIdeal.S100000x64 .f32 :=
  Cert.KernelIdeal.Final.Ghop0 (Tail.cat64 (V0 (Proc.devRef .tc main_arg0)) (V0 (Proc.devRef .tc main_arg1)))
    (Cert.KernelIdeal.Hops.cat1 (V0 (Proc.devRef .tc main_arg2)) (V0 (Proc.devRef .tc main_arg3)))

/-- The reference's pooled rows of the first drug table, as an array. -/
abbrev refP : FVec Ideal S4096x64 .f32 :=
  Host.divf (F := Ideal) (Host.reduceAdd (res_main_v134 V0) (constant S_ .f32 0x00000000#32) reducesTo_S4096x4x64_S4096x64_d1 h_S_) (broadcastInDim S4096x64 ![] bcast_S_S4096x64 (constant S_ .f32 0x40800000#32))

/-- The reference's pooled rows of the second drug table, as an array. -/
abbrev refN : FVec Ideal S4096x1x64 .f32 :=
  Host.divf (F := Ideal) (Host.reduceAdd (res_main_v141 V0) (constant S_ .f32 0x00000000#32) reducesTo_S4096x1x4x64_S4096x1x64_d2 h_S_) (broadcastInDim S4096x1x64 ![] bcast_S_S4096x1x64 (constant S_ .f32 0x40800000#32))

/-! ## The six arrays -/

theorem B1 : res_main_v144 V0 = Cert.KernelIdeal.Tail.rowsG (Mmean V0) (V0 (Proc.devRef .tc main_arg7)) := by
  funext y
  obtain ⟨b, j, rfl⟩ : ∃ (b : Fin 4096) (j : Fin 64), y = ix2 b j := ⟨y 0, y 1, eq_ix2 y⟩
  refine (RefRows.gene_mean V0 b j).trans ?_
  refine Eq.trans ?_ (Cert.KernelIdeal.Rows.K1 (V0 (Proc.devRef .tc main_arg0)) (V0 (Proc.devRef .tc main_arg1)) (H1 V0) (H2 V0) (H3 V0)
    (V0 (Proc.devRef .tc main_arg2)) (V0 (Proc.devRef .tc main_arg3)) (V0 (Proc.devRef .tc main_arg7)) b j).symm
  rw [Heat.mean_eq, res30_H1, res60_H2, res92_H3]
  rfl

theorem B2 : refP V0 = Cert.KernelIdeal.Tail.rowsP (Mmean V0) (V0 (Proc.devRef .tc main_arg8)) := by
  funext y
  obtain ⟨b, j, rfl⟩ : ∃ (b : Fin 4096) (j : Fin 64), y = ix2 b j := ⟨y 0, y 1, eq_ix2 y⟩
  refine (RefRows.drug_mean V0 b j).trans ?_
  refine Eq.trans ?_ (Cert.KernelIdeal.Rows.K2 (V0 (Proc.devRef .tc main_arg0)) (V0 (Proc.devRef .tc main_arg1)) (H1 V0) (H2 V0) (H3 V0)
    (V0 (Proc.devRef .tc main_arg2)) (V0 (Proc.devRef .tc main_arg3)) (V0 (Proc.devRef .tc main_arg8)) b j).symm
  rw [Heat.mean_eq, res30_H1, res60_H2, res92_H3]
  rfl

theorem B3 : refN V0 = Cert.KernelIdeal.Tail.rowsN (Mmean V0) (V0 (Proc.devRef .tc main_arg9)) := by
  funext y
  obtain ⟨b, c, j, rfl⟩ : ∃ (b : Fin 4096) (c : Fin 1) (j : Fin 64), y = ix3 b c j := ⟨y 0, y 1, y 2, eq_ix3 y⟩
  refine (RefRows.drug2_mean V0 b c j).trans ?_
  refine Eq.trans ?_ (Cert.KernelIdeal.Rows.K3 (V0 (Proc.devRef .tc main_arg0)) (V0 (Proc.devRef .tc main_arg1)) (H1 V0) (H2 V0) (H3 V0)
    (V0 (Proc.devRef .tc main_arg2)) (V0 (Proc.devRef .tc main_arg3)) (V0 (Proc.devRef .tc main_arg9)) b c j).symm
  rw [Heat.mean_eq, res30_H1, res60_H2, res92_H3]
  rfl

theorem B4 : res_main_v164 V0 = Cert.KernelIdeal.Tail.rowsG (Mhop0 V0) (V0 (Proc.devRef .tc main_arg7)) := by
  funext y
  obtain ⟨b, j, rfl⟩ : ∃ (b : Fin 4096) (j : Fin 64), y = ix2 b j := ⟨y 0, y 1, eq_ix2 y⟩
  refine (RefRows.gene_hop0 V0 b j).trans ?_
  refine Eq.trans ?_ (Cert.KernelIdeal.Rows.K4 (V0 (Proc.devRef .tc main_arg0)) (V0 (Proc.devRef .tc main_arg1)) (H1 V0) (H2 V0) (H3 V0)
    (V0 (Proc.devRef .tc main_arg2)) (V0 (Proc.devRef .tc main_arg3)) (V0 (Proc.devRef .tc main_arg7)) b j).symm
  rw [Heat.hop0_eq, res30_H1, res60_H2, res92_H3]
  rfl

theorem B5 : res_main_v168 V0 = Cert.KernelIdeal.Tail.rowsP (Mhop0 V0) (V0 (Proc.devRef .tc main_arg8)) := by
  funext y
  obtain ⟨b, j, rfl⟩ : ∃ (b : Fin 4096) (j : Fin 64), y = ix2 b j := ⟨y 0, y 1, eq_ix2 y⟩
  refine (RefRows.drug_hop0 V0 b j).trans ?_
  refine Eq.trans ?_ (Cert.KernelIdeal.Rows.K5 (V0 (Proc.devRef .tc main_arg0)) (V0 (Proc.devRef .tc main_arg1)) (H1 V0) (H2 V0) (H3 V0)
    (V0 (Proc.devRef .tc main_arg2)) (V0 (Proc.devRef .tc main_arg3)) (V0 (Proc.devRef .tc main_arg8)) b j).symm
  rw [Heat.hop0_eq, res30_H1, res60_H2, res92_H3]
  rfl

theorem B6 : res_main_v173 V0 = Cert.KernelIdeal.Tail.rowsN (Mhop0 V0) (V0 (Proc.devRef .tc main_arg9)) := by
  funext y
  obtain ⟨b, c, j, rfl⟩ : ∃ (b : Fin 4096) (c : Fin 1) (j : Fin 64), y = ix3 b c j := ⟨y 0, y 1, y 2, eq_ix3 y⟩
  refine (RefRows.drug2_hop0 V0 b c j).trans ?_
  refine Eq.trans ?_ (Cert.KernelIdeal.Rows.K6 (V0 (Proc.devRef .tc main_arg0)) (V0 (Proc.devRef .tc main_arg1)) (H1 V0) (H2 V0) (H3 V0)
    (V0 (Proc.devRef .tc main_arg2)) (V0 (Proc.devRef .tc main_arg3)) (V0 (Proc.devRef .tc main_arg9)) b c j).symm
  rw [Heat.hop0_eq, res30_H1, res60_H2, res92_H3]
  rfl

/-! ## The two losses -/

/-- The ranking loss of the reference's pooled rows is that of the program's pooled blocks. -/
theorem lossMF_eq :
    Tail.lossMF (res_main_v144 V0) (refP V0) (refN V0)
      = Tail.lossMF (Cert.KernelIdeal.Tail.rowsG (Mmean V0) (V0 (Proc.devRef .tc main_arg7)))
          (Cert.KernelIdeal.Tail.rowsP (Mmean V0) (V0 (Proc.devRef .tc main_arg8)))
          (Cert.KernelIdeal.Tail.rowsN (Mmean V0) (V0 (Proc.devRef .tc main_arg9))) := by
  rw [B1 V0, B2 V0, B3 V0]

/-- The regulariser of the reference's hop-0 rows is that of the program's hop-0 blocks. -/
theorem lossEmb_eq :
    Tail.lossEmb (res_main_v164 V0) (res_main_v168 V0) (res_main_v173 V0)
      = Tail.lossEmb (Cert.KernelIdeal.Tail.rowsG (Mhop0 V0) (V0 (Proc.devRef .tc main_arg7)))
          (Cert.KernelIdeal.Tail.rowsP (Mhop0 V0) (V0 (Proc.devRef .tc main_arg8)))
          (Cert.KernelIdeal.Tail.rowsN (Mhop0 V0) (V0 (Proc.devRef .tc main_arg9))) := by
  rw [B4 V0, B5 V0, B6 V0]

end Cert.Bridge

end
-- ==== Proof.lean ====
/-
  Heat-kernel pooling over a bipartite gene–drug graph: the row-blocked kernel program against the plain reference.

  Both programs propagate the concatenated embeddings three hops along the weighted edges, weight hop k by the heat
  coefficient exp(-t)·t^k/k! of each node's time t, pool the four weighted hops by their mean, gather the rows of the
  batch's users, positive and negative items, and compute a ranking loss and a regulariser of the hop-0 rows. The
  kernel program pools every node's row in one region and gathers afterwards; the reference stacks the weighted hops,
  gathers, and pools the gathered rows. Pooling is row-wise, so it commutes with the gather; the two spellings of the
  weights (products by 1/2, 1/6, 1/4 against quotients by 2, 6, 4) are one function on the extended reals. Hence the
  six gathered blocks agree, and the losses, being the same operations on them, agree. No finiteness of the inputs is
  used.
-/
import proofs.«160151_j45664092291172_1_alg».proof.Defs
import proofs.«160151_j45664092291172_1_alg».proof.Proof.Gen.Kernel
import proofs.«160151_j45664092291172_1_alg».proof.Proof.Gen.KernelIdeal
import proofs.«160151_j45664092291172_1_alg».proof.Proof.Gen.ReferenceIdeal
import proofs.«160151_j45664092291172_1_alg».proof.Proof.Gen.ReferenceIdeal.Run
import proofs.«160151_j45664092291172_1_alg».proof.Proof.Gen.Pre_finite_inputs
import proofs.«160151_j45664092291172_1_alg».proof.Proof.KFrame
import proofs.«160151_j45664092291172_1_alg».proof.Proof.KIFrame
import proofs.«160151_j45664092291172_1_alg».proof.Proof.KIValue
import proofs.«160151_j45664092291172_1_alg».proof.Proof.Bridge
import Idealize.ShloMosaic.PureOps.IdealRules

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference is host operations only: its run keeps the arguments. -/
theorem frame_ri : Cert.frame_ReferenceIdeal := fun m ρ _ =>
  (θ_run Cert.ReferenceIdeal.defs _ _).mono (fun _ h c => (h c).2.2.2) (Cert.ReferenceIdeal.Value.run (F := Ideal) m ρ)

/-- The one rewrite of the idealization: the literal 0.16666667 is read as the rational 1/6. -/
theorem preserves : Cert.preserves_Kernel_KernelIdeal :=
  IdealRules.named_const.statement Cert.KernelIdeal.κ "inv_6" .f32 0x3E2AAAAB#32 ((1 / 6 : ℝ) : EReal) rfl

open Cert.KernelIdeal.HandValue in
/-- From memories that agree on the arguments both programs end with the same three losses. -/
theorem algebraic : Cert.algebraic_KernelIdeal_ReferenceIdeal := by
  intro m ρ m' ρ' _ hagree
  refine ⟨fun c => addf (outMF m c) (outEmb m c), fun c => outMF m c, fun c => outEmb m c,
    Cert.KernelIdeal.HandValue.run m ρ, ?_⟩
  refine (θ_run Cert.ReferenceIdeal.defs _ _).mono (fun _ h c => ?_) (Cert.ReferenceIdeal.Value.run (F := Ideal) m' ρ')
  obtain ⟨h180, h162, h179, hargs⟩ := h c
  obtain ⟨g0, g1, g2, g3, g4, g5, g6, g7, g8, g9⟩ := hagree c
  have eMF : Cert.ReferenceIdeal.Tail.lossMF
        (Cert.KernelIdeal.Tail.rowsG (Cert.Bridge.Mmean (StableHlo.launchContents m' c)) (m' ((c.tc : Thread Cert.ReferenceIdeal.nD Cert.ReferenceIdeal.τ).loc Cert.ReferenceIdeal.main_arg7)))
        (Cert.KernelIdeal.Tail.rowsP (Cert.Bridge.Mmean (StableHlo.launchContents m' c)) (m' ((c.tc : Thread Cert.ReferenceIdeal.nD Cert.ReferenceIdeal.τ).loc Cert.ReferenceIdeal.main_arg8)))
        (Cert.KernelIdeal.Tail.rowsN (Cert.Bridge.Mmean (StableHlo.launchContents m' c)) (m' ((c.tc : Thread Cert.ReferenceIdeal.nD Cert.ReferenceIdeal.τ).loc Cert.ReferenceIdeal.main_arg9)))
      = outMF m c := by
    unfold outMF Mmean E0 hopm T0 Cert.Bridge.Mmean Cert.Bridge.H3 Cert.Bridge.H2 Cert.Bridge.H1
    rw [← g0, ← g1, ← g2, ← g3, ← g4, ← g5, ← g6, ← g7, ← g8, ← g9]
  have eEmb : Cert.ReferenceIdeal.Tail.lossEmb
        (Cert.KernelIdeal.Tail.rowsG (Cert.Bridge.Mhop0 (StableHlo.launchContents m' c)) (m' ((c.tc : Thread Cert.ReferenceIdeal.nD Cert.ReferenceIdeal.τ).loc Cert.ReferenceIdeal.main_arg7)))
        (Cert.KernelIdeal.Tail.rowsP (Cert.Bridge.Mhop0 (StableHlo.launchContents m' c)) (m' ((c.tc : Thread Cert.ReferenceIdeal.nD Cert.ReferenceIdeal.τ).loc Cert.ReferenceIdeal.main_arg8)))
        (Cert.KernelIdeal.Tail.rowsN (Cert.Bridge.Mhop0 (StableHlo.launchContents m' c)) (m' ((c.tc : Thread Cert.ReferenceIdeal.nD Cert.ReferenceIdeal.τ).loc Cert.ReferenceIdeal.main_arg9)))
      = outEmb m c := by
    unfold outEmb Mhop0 E0 T0 Cert.Bridge.Mhop0
    rw [← g0, ← g1, ← g2, ← g3, ← g7, ← g8, ← g9]
  have rMF := (Cert.Bridge.lossMF_eq (StableHlo.launchContents m' c)).trans eMF
  have rEmb := (Cert.Bridge.lossEmb_eq (StableHlo.launchContents m' c)).trans eEmb
  refine ⟨h180.trans ?_, h162.trans rMF, h179.trans rEmb, hargs⟩
  exact congrArg₂ addf rMF rEmb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
